-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5x128 : Shape := ⟨2, ![5, 128]⟩
abbrev S5x1 : Shape := ⟨2, ![5, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S5x128 : S_.BroadcastsInDim S5x128 (![] : Fin 0 → Fin S5x128.rank)
  reducesTo_S5x128_S_d0_1 : S5x128.ReducesTo [0, 1] S_
  bcast_S_S5x1 : S_.BroadcastsInDim S5x1 (![] : Fin 0 → Fin S5x1.rank)
  reducesTo_S5x1_S_d0_1 : S5x1.ReducesTo [0, 1] S_

variable [Facts]

def fn_part3 {F : FTy → Type} [FloatOps F] (main_arg13 : FVec F S128x1 .f32) (main_arg14 : FVec F S5x1 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S5x1 .f32 := Host.absf main_arg14
  let main_cst_22 : FVec F S_ .f32 := constant S_ .f32 0x7F800000#32
  let main_v60 : FVec F S5x1 .f32 := broadcastInDim S5x1 ![] bcast_S_S5x1 main_cst_22
  let main_v61 : IVec S5x1 1 := cmpf .olt main_v59 main_v60
  let main_c_23 : IVec S_ 1 := constantI S_ 1 1#1
  let main_v62 : IVec S_ 1 := (fun x v => Host.reduce IntOp.andi x v reducesTo_S5x1_S_d0_1 h_S_) main_v61 main_c_23
  let main_v63 : IVec S_ 1 := andi main_v58 main_v62
  main_v63

def fn_part2 {F : FTy → Type} [FloatOps F] (main_arg9 : FVec F S128x1 .f32) (main_arg10 : FVec F S5x1 .f32) (main_arg11 : FVec F S128x128 .f32) (main_arg12 : FVec F S5x128 .f32) (main_arg13 : FVec F S128x1 .f32) (main_arg14 : FVec F S5x1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S5x1 .f32 := Host.absf main_arg10
  let main_cst_14 : FVec F S_ .f32 := constant S_ .f32 0x7F800000#32
  let main_v40 : FVec F S5x1 .f32 := broadcastInDim S5x1 ![] bcast_S_S5x1 main_cst_14
  let main_v41 : IVec S5x1 1 := cmpf .olt main_v39 main_v40
  let main_c_15 : IVec S_ 1 := constantI S_ 1 1#1
  let main_v42 : IVec S_ 1 := (fun x v => Host.reduce IntOp.andi x v reducesTo_S5x1_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S5x128 .f32 := Host.absf main_arg12
  let main_cst_18 : FVec F S_ .f32 := constant S_ .f32 0x7F800000#32
  let main_v50 : FVec F S5x128 .f32 := broadcastInDim S5x128 ![] bcast_S_S5x128 main_cst_18
  fn_part3 (F := F) main_arg13 main_arg14 main_v48 main_v49 main_v50

def fn_part1 {F : FTy → Type} [FloatOps F] (main_arg6 : FVec F S1 .f32) (main_arg7 : FVec F S128x128 .f32) (main_arg8 : FVec F S5x128 .f32) (main_arg9 : FVec F S128x1 .f32) (main_arg10 : FVec F S5x1 .f32) (main_arg11 : FVec F S128x128 .f32) (main_arg12 : FVec F S5x128 .f32) (main_arg13 : FVec F S128x1 .f32) (main_arg14 : FVec F S5x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S600000 32) (main_arg3 : FVec F S128x128 .f32) (main_arg4 : FVec F S128 .f32) (main_arg5 : FVec F S128x1 .f32) (main_arg6 : FVec F S1 .f32) (main_arg7 : FVec F S128x128 .f32) (main_arg8 : FVec F S5x128 .f32) (main_arg9 : FVec F S128x1 .f32) (main_arg10 : FVec F S5x1 .f32) (main_arg11 : FVec F S128x128 .f32) (main_arg12 : FVec F S5x128 .f32) (main_arg13 : FVec F S128x1 .f32) (main_arg14 : FVec F S5x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5x128 : Shape := ⟨2, ![5, 128]⟩
abbrev S5x1 : Shape := ⟨2, ![5, 1]⟩
abbrev S1x600000 : Shape := ⟨2, ![1, 600000]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩
abbrev S1x1 : Shape := ⟨2, ![1, 1]⟩
abbrev S_ : Shape := ⟨0, ![]⟩
abbrev S600000x1 : Shape := ⟨2, ![600000, 1]⟩
abbrev S600000x128 : Shape := ⟨2, ![600000, 128]⟩
abbrev S600000x2 : Shape := ⟨2, ![600000, 2]⟩

abbrev nBuf : Space → Nat
  | .hbm => 159
  | .vmem => 20
  | .smem => 0
  | _ => 0

abbrev hbmTy0_0 (i : Nat) : BufTy := match i % 128 with
  | 0 => ⟨S50000x128, .f32⟩
  | 1 => ⟨S2x600000, .i32⟩
  | 2 => ⟨S600000, .i32⟩
  | 3 => ⟨S128x128, .f32⟩
  | 4 => ⟨S128, .f32⟩
  | 5 => ⟨S128x1, .f32⟩
  | 6 => ⟨S1, .f32⟩
  | 7 => ⟨S128x128, .f32⟩
  | 8 => ⟨S5x128, .f32⟩
  | 9 => ⟨S128x1, .f32⟩
  | 10 => ⟨S5x1, .f32⟩
  | 11 => ⟨S128x128, .f32⟩
  | 12 => ⟨S5x128, .f32⟩
  | 13 => ⟨S128x1, .f32⟩
  | 14 => ⟨S5x1, .f32⟩
  | 15 => ⟨S1x600000, .i32⟩
  | 16 => ⟨S600000, .i32⟩
  | 17 => ⟨S1x600000, .i32⟩
  | 18 => ⟨S600000, .i32⟩
  | 19 => ⟨S50000x128, .f32⟩
  | 20 => ⟨S50000x128, .f32⟩
  | 21 => ⟨S50000x128, .f32⟩
  | 22 => ⟨S50000x1, .f32⟩
  | 23 => ⟨S50000x1, .f32⟩
  | 24 => ⟨S5x1, .f32⟩
  | 25 => ⟨S5x1, .f32⟩
  | 26 => ⟨S5x1, .f32⟩
  | 27 => ⟨S5x1, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S600000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S_, .i32⟩
  | 55 => ⟨S600000, .i32⟩
  | 56 => ⟨S600000, .i32⟩
  | 57 => ⟨S600000x1, .i32⟩
  | 58 => ⟨S600000x1, .i32⟩
  | 59 => ⟨S600000x2, .i32⟩
  | 60 => ⟨S600000, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S_, .i32⟩
  | 69 => ⟨S600000, .i32⟩
  | 70 => ⟨S600000, .i32⟩
  | 71 => ⟨S600000x1, .i32⟩
  | 72 => ⟨S600000x1, .i32⟩
  | 73 => ⟨S600000x2, .i32⟩
  | 74 => ⟨S600000, .f32⟩
  | 75 => ⟨S600000, .f32⟩
  | 76 => ⟨S600000, .f32⟩
  | 77 => ⟨S600000, .f32⟩
  | 78 => ⟨S_, .f32⟩
  | 79 => ⟨S600000, .f32⟩
  | 80 => ⟨S600000, .f32⟩
  | 81 => ⟨S_, .f32⟩
  | 82 => ⟨S600000, .f32⟩
  | 83 => ⟨S600000, .f32⟩
  | 84 => ⟨S600000x1, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S_, .i32⟩
  | 118 => ⟨S600000, .i32⟩
  | 119 => ⟨S600000, .i32⟩
  | 120 => ⟨S600000x1, .i32⟩
  | 121 => ⟨S600000x1, .i32⟩
  | 122 => ⟨S600000x2, .i32⟩
  | 123 => ⟨S600000, .f32⟩
  | 124 => ⟨S_, .i32⟩
  | 125 => ⟨S600000, .i32⟩
  | 126 => ⟨S600000, .i1⟩
  | 127 => ⟨S_, .i32⟩
  | _ => ⟨S50000x128, .f32⟩

abbrev hbmTy0_1 (i : Nat) : BufTy := match i % 128 with
  | 0 => ⟨S600000, .i32⟩
  | 1 => ⟨S600000, .i32⟩
  | 2 => ⟨S600000, .i32⟩
  | 3 => ⟨S_, .i32⟩
  | 4 => ⟨S600000, .i32⟩
  | 5 => ⟨S600000, .i32⟩
  | 6 => ⟨S600000x1, .i32⟩
  | 7 => ⟨S600000x1, .i32⟩
  | 8 => ⟨S600000x2, .i32⟩
  | 9 => ⟨S600000, .f32⟩
  | 10 => ⟨S600000, .f32⟩
  | 11 => ⟨S600000, .f32⟩
  | 12 => ⟨S600000, .f32⟩
  | 13 => ⟨S_, .f32⟩
  | 14 => ⟨S600000, .f32⟩
  | 15 => ⟨S600000, .f32⟩
  | 16 => ⟨S_, .f32⟩
  | 17 => ⟨S600000, .f32⟩
  | 18 => ⟨S600000, .f32⟩
  | 19 => ⟨S600000x1, .f32⟩
  | 20 => ⟨S600000x128, .f32⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S128x128, .f32⟩
  | .local _ .vmem, ⟨7, _⟩ => ⟨S128x1, .f32⟩
  | .local _ .vmem, ⟨8, _⟩ => ⟨S128x128, .f32⟩
  | .local _ .vmem, ⟨9, _⟩ => ⟨S128x1, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_15 : Ref sig .tc := ⟨.hbm, 110, rfl⟩
abbrev main_v74 : Ref sig .tc := ⟨.hbm, 111, rfl⟩
abbrev main_v75 : Ref sig .tc := ⟨.hbm, 112, rfl⟩
abbrev main_c_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_17 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_18 : Ref sig .tc := ⟨.hbm, 124, rfl⟩
abbrev main_v85 : Ref sig .tc := ⟨.hbm, 125, rfl⟩
abbrev main_v86 : Ref sig .tc := ⟨.hbm, 126, rfl⟩
abbrev main_c_19 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_20 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_call0_cst : Ref sig .tc := ⟨.hbm, 156, rfl⟩
abbrev main_call0_v0 : Ref sig .tc := ⟨.hbm, 157, rfl⟩
abbrev main_v111 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  dot_S5x128_S128x1_S5x1_1_0_0_1_n_n_wf : DotDims.WF S5x128 S128x1 S5x1 [1] [0] [0] [1] [] []
  gather_S50000x128_S600000x1_S600000x128_1_0_n_n_0_1_1128_wf : GatherDims.WF S50000x128 S600000x1 S600000x128 [1] [0] [] [0] [] 1 ![1, 128]
  gather_S5x128_S600000x1_S600000x128_1_0_n_n_0_1_1128_wf : GatherDims.WF S5x128 S600000x1 S600000x128 [1] [0] [] [0] [] 1 ![1, 128]
  gather_S50000x1_S600000x2_S600000_n_01_n_n_01_1_11_wf : GatherDims.WF S50000x1 S600000x2 S600000 [] [0, 1] [] [0, 1] [] 1 ![1, 1]
  gather_S5x1_S600000x2_S600000_n_01_n_n_01_1_11_wf : GatherDims.WF S5x1 S600000x2 S600000 [] [0, 1] [] [0, 1] [] 1 ![1, 1]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S50000x1.size a
  hwx0_12 : ∀ i : grid0.Coords, EltTy.bits .f32 = 32 ∨ (Rect.block (s := S50000x1) S2000x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x1.size a ≤ S50000x1.size a
  hwx0_13 : ∀ i : grid0.Coords, EltTy.bits .f32 = 32 ∨ (Rect.block (s := S50000x1) S2000x1.size (cc0_transform_13 i) (hinb0_13 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S5x128_S128x1_S5x1_1_0_0_1_n_n : DotDims S5x128 S128x1 S5x1 where
  lhsContracting := [1]
  rhsContracting := [0]
  lhsNonContracting := [0]
  rhsNonContracting := [1]
  lhsBatch := []
  rhsBatch := []
  wf := dot_S5x128_S128x1_S5x1_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S5x128_S600000x1_S600000x128_1_0_n_n_0_1_1128 : GatherDims S5x128 S600000x1 S600000x128 where
  offsetDims := [1]
  collapsedSliceDims := [0]
  operandBatchingDims := []
  startIndicesBatchingDims := []
  startIndexMap := [0]
  indexVectorDim := 1
  sliceSizes := ![1, 128]
  wf := gather_S5x128_S600000x1_S600000x128_1_0_n_n_0_1_1128_wf
def gather_S50000x1_S600000x2_S600000_n_01_n_n_01_1_11 : GatherDims S50000x1 S600000x2 S600000 where
  offsetDims := []
  collapsedSliceDims := [0, 1]
  operandBatchingDims := []
  startIndicesBatchingDims := []
  startIndexMap := [0, 1]
  indexVectorDim := 1
  sliceSizes := ![1, 1]
  wf := gather_S50000x1_S600000x2_S600000_n_01_n_n_01_1_11_wf
def gather_S5x1_S600000x2_S600000_n_01_n_n_01_1_11 : GatherDims S5x1 S600000x2 S600000 where
  offsetDims := []
  collapsedSliceDims := [0, 1]
  operandBatchingDims := []
  startIndicesBatchingDims := []
  startIndexMap := [0, 1]
  indexVectorDim := 1
  sliceSizes := ![1, 1]
  wf := gather_S5x1_S600000x2_S600000_n_01_n_n_01_1_11_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S2000x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_4) S2000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5x128 : Shape := ⟨2, ![5, 128]⟩
abbrev S5x1 : Shape := ⟨2, ![5, 1]⟩
abbrev S1x128 : Shape := ⟨2, ![1, 128]⟩
abbrev S50000x1 : Shape := ⟨2, ![50000, 1]⟩
abbrev S1x1 : Shape := ⟨2, ![1, 1]⟩
abbrev S_ : Shape := ⟨0, ![]⟩
abbrev S1x600000 : Shape := ⟨2, ![1, 600000]⟩
abbrev S600000x1 : Shape := ⟨2, ![600000, 1]⟩
abbrev S600000x128 : Shape := ⟨2, ![600000, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x600000, .i32⟩
  | 2 => ⟨S600000, .i32⟩
  | 3 => ⟨S128x128, .f32⟩
  | 4 => ⟨S128, .f32⟩
  | 5 => ⟨S128x1, .f32⟩
  | 6 => ⟨S1, .f32⟩
  | 7 => ⟨S128x128, .f32⟩
  | 8 => ⟨S5x128, .f32⟩
  | 9 => ⟨S128x1, .f32⟩
  | 10 => ⟨S5x1, .f32⟩
  | 11 => ⟨S128x128, .f32⟩
  | 12 => ⟨S5x128, .f32⟩
  | 13 => ⟨S128x1, .f32⟩
  | 14 => ⟨S5x1, .f32⟩
  | 15 => ⟨S50000x128, .f32⟩
  | 16 => ⟨S1x128, .f32⟩
  | 17 => ⟨S50000x128, .f32⟩
  | 18 => ⟨S50000x128, .f32⟩
  | 19 => ⟨S50000x1, .f32⟩
  | 20 => ⟨S1x1, .f32⟩
  | 21 => ⟨S50000x1, .f32⟩
  | 22 => ⟨S50000x1, .f32⟩
  | 23 => ⟨S50000x1, .f32⟩
  | 24 => ⟨S50000x1, .f32⟩
  | 25 => ⟨S_, .f32⟩
  | 26 => ⟨S50000x1, .f32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S1x600000, .i32⟩
  | 34 => ⟨S600000, .i32⟩
  | 35 => ⟨S1x600000, .i32⟩
  | 36 => ⟨S600000, .i32⟩
  | 37 => ⟨S50000x128, .f32⟩
  | 38 => ⟨S50000x128, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x128, .f32⟩
  | 58 => ⟨S600000x1, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x1, .f32⟩
  | 68 => ⟨S600000x1, .f32⟩
  | 69 => ⟨S600000x1, .f32⟩
  | 70 => ⟨S600000x1, .f32⟩
  | 71 => ⟨S_, .f32⟩
  | 72 => ⟨S600000x1, .f32⟩
  | 73 => ⟨S600000x1, .f32⟩
  | 74 => ⟨S_, .f32⟩
  | 75 => ⟨S600000x1, .f32⟩
  | 76 => ⟨S600000x1, .f32⟩
  | 77 => ⟨S600000x128, .f32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S50000x128, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x1, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x1, .f32⟩
  | 114 => ⟨S600000x1, .f32⟩
  | 115 => ⟨S600000x1, .f32⟩
  | 116 => ⟨S600000x1, .f32⟩
  | 117 => ⟨S_, .f32⟩
  | 118 => ⟨S600000x1, .f32⟩
  | 119 => ⟨S600000x1, .f32⟩
  | 120 => ⟨S_, .f32⟩
  | 121 => ⟨S600000x1, .f32⟩
  | 122 => ⟨S600000x1, .f32⟩
  | 123 => ⟨S600000x128, .f32⟩
  | 124 => ⟨S600000x128, .f32⟩
  | 125 => ⟨S_, .f32⟩
  | 126 => ⟨S50000x128, .f32⟩
  | 127 => ⟨S600000x1, .i32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_9 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call0_cst : Ref sig .tc := ⟨.hbm, 131, rfl⟩
abbrev main_call0_v0 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  gather_S50000x128_S600000x1_S600000x128_1_0_n_n_0_1_1128_wf : GatherDims.WF S50000x128 S600000x1 S600000x128 [1] [0] [] [0] [] 1 ![1, 128]
  gather_S5x128_S600000x1_S600000x128_1_0_n_n_0_1_1128_wf : GatherDims.WF S5x128 S600000x1 S600000x128 [1] [0] [] [0] [] 1 ![1, 128]
  dot_S600000x128_S128x1_S600000x1_1_0_0_1_n_n_wf : DotDims.WF S600000x128 S128x1 S600000x1 [1] [0] [0] [1] [] []
  gather_S5x1_S600000x1_S600000x1_1_0_n_n_0_1_11_wf : GatherDims.WF S5x1 S600000x1 S600000x1 [1] [0] [] [0] [] 1 ![1, 1]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S5x128_S600000x1_S600000x128_1_0_n_n_0_1_1128 : GatherDims S5x128 S600000x1 S600000x128 where
  offsetDims := [1]
  collapsedSliceDims := [0]
  operandBatchingDims := []
  startIndicesBatchingDims := []
  startIndexMap := [0]
  indexVectorDim := 1
  sliceSizes := ![1, 128]
  wf := gather_S5x128_S600000x1_S600000x128_1_0_n_n_0_1_1128_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def gather_S5x1_S600000x1_S600000x1_1_0_n_n_0_1_11 : GatherDims S5x1 S600000x1 S600000x1 where
  offsetDims := [1]
  collapsedSliceDims := [0]
  operandBatchingDims := []
  startIndicesBatchingDims := []
  startIndexMap := [0]
  indexVectorDim := 1
  sliceSizes := ![1, 1]
  wf := gather_S5x1_S600000x1_S600000x1_1_0_n_n_0_1_11_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelData.lean ====
import proofs.«139600_j30958124270115_2_alg».proof.Proof.Gen.Kernel.Launch
import proofs.«139600_j30958124270115_2_alg».proof.Proof.Gen.Kernel.Skeleton
import proofs.«139600_j30958124270115_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The node-transform pipeline's proof data

The program is four host operations (the two rows of the edge list as vectors), one pipelined region over
25 blocks of 2000 nodes, and a host tail (the edge stage, the three-way sum and the rectifier).

At block `t` the region's body reads the block's 2000 rows of the node features and the whole of eight
parameter arrays, and writes five blocks, each one function of what it read:
* window 9:  `σ(t·g + c) · t` with `t = x·W + b` (the self-loop term),
* window 10: `(x·W₁)·W₁` and window 12: `((x·W₁)·W₁)·g₁` (incoming direction),
* window 11: `(x·W₂)·W₂` and window 13: `((x·W₂)·W₂)·g₂` (outgoing direction).

This module fixes, once, what every later module speaks about: the arrays as the region finds them, a
window's block at a point, what the body leaves in each output window's buffer, and the proof data built
from them.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the four host operations
    that split the edge list into its source and target rows. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: every load and store is of a whole buffer -/

abbrev rN : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S128 := Rect.unit (s := S128) ![0] S128.size inb_S128_S128_0
abbrev rG : Rect S128x1 := Rect.unit (s := S128x1) ![0, 0] S128x1.size inb_S128x1_S128x1_0_0
abbrev rC : Rect S1 := Rect.unit (s := S1) ![0] S1.size inb_S1_S1_0
abbrev rO : Rect S2000x1 := Rect.unit (s := S2000x1) ![0, 0] S2000x1.size inb_S2000x1_S2000x1_0_0

/-! ## What the body leaves in each output window's buffer, from the input windows' blocks -/

/-- The self-loop block: the gated affine image of the block's rows. -/
def out0_9 (x0 : Vec F S2000x128 .f32) (x1 : Vec F S128x128 .f32) (x2 : Vec F S128 .f32) (x3 : Vec F S128x1 .f32)
    (x4 : Vec F S1 .f32) : Vec F S2000x128 .f32 :=
  View.canon [⟨rN, k0_pay4 (View.ld x0 rN) (View.ld x1 rW) (View.ld x2 rB) (View.ld x3 rG) (View.ld x4 rC)⟩]

/-- The incoming direction's block: the rows through the weight matrix twice. -/
def out0_10 (x0 : Vec F S2000x128 .f32) (x5 : Vec F S128x128 .f32) : Vec F S2000x128 .f32 :=
  View.canon [⟨rN, k0_pay5 (View.ld x0 rN) (View.ld x5 rW)⟩]

/-- The outgoing direction's block. -/
def out0_11 (x0 : Vec F S2000x128 .f32) (x7 : Vec F S128x128 .f32) : Vec F S2000x128 .f32 :=
  View.canon [⟨rN, k0_pay1 (k0_pay3 (View.ld x0 rN)) (View.ld x7 rW)⟩]

/-- The incoming direction's gate projection of the block. -/
def out0_12 (x0 : Vec F S2000x128 .f32) (x5 : Vec F S128x128 .f32) (x6 : Vec F S128x1 .f32) : Vec F S2000x1 .f32 :=
  View.canon [⟨rO, k0_pay6 (View.ld x0 rN) (View.ld x5 rW) (View.ld x6 rG)⟩]

/-- The outgoing direction's gate projection of the block. -/
def out0_13 (x0 : Vec F S2000x128 .f32) (x7 : Vec F S128x128 .f32) (x8 : Vec F S128x1 .f32) : Vec F S2000x1 .f32 :=
  View.canon [⟨rO, k0_pay2 (k0_pay3 (View.ld x0 rN)) (View.ld x7 rW) (View.ld x8 rG)⟩]

/-! ## The proof data -/

/-- The arrays as the region finds them; after the body at point `t` each input's buffer at its block and each
    output's at its function of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
    | ⟨10, _⟩ => out0_10 (iblk m c 0 t) (iblk m c 5 t)
    | ⟨11, _⟩ => out0_11 (iblk m c 0 t) (iblk m c 7 t)
    | ⟨12, _⟩ => out0_12 (iblk m c 0 t) (iblk m c 5 t) (iblk m c 6 t)
    | ⟨13, _⟩ => out0_13 (iblk m c 0 t) (iblk m c 7 t) (iblk m c 8 t)
  Φ _ := Pipeline.ΦA spec0 c
  q _ := fullShare
  owed _ := 0

/-- The proof data's arrays are the region-entry contents (projected, never unfolded through the host prefix). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 5 t) := by
  dsimp only [dats]
theorem after0_11 (c : Dev nD) (t : Fin cfg0.N) : (dats m 0 c).after 11 t = out0_11 (iblk m c 0 t) (iblk m c 7 t) := by
  dsimp only [dats]
theorem after0_12 (c : Dev nD) (t : Fin cfg0.N) : (dats m 0 c).after 12 t
    = out0_12 (iblk m c 0 t) (iblk m c 5 t) (iblk m c 6 t) := by dsimp only [dats]
theorem after0_13 (c : Dev nD) (t : Fin cfg0.N) : (dats m 0 c).after 13 t
    = out0_13 (iblk m c 0 t) (iblk m c 7 t) (iblk m c 8 t) := by dsimp only [dats]

end Cert.Kernel.Hand

end
-- ==== Proof.KernelFrame.lean ====
import proofs.«139600_j30958124270115_2_alg».proof.Proof.KernelData
import Idealize.ShloMosaic.Lib.Pipeline.FrameBody
import Idealize.ShloMosaic.Lib.Pipeline.FrameSuffix
import Idealize.ShloMosaic.Lib.Ring
import Idealize.ShloMosaic.Lib.Tactic

/-!
# The node-transform pipeline's frame

The program is four host operations, one pipelined region over 25 blocks of 2000 nodes, and a host tail of 132
operations followed by the rectifier's three.

This module proves that the program runs and what its buffers hold at the end:
* no host operation writes an argument array or an array of the pipeline (each writes its own result buffer, and
  the result buffers are listed once per stretch), so the region finds every argument as launched and the host
  tail leaves the pipeline's arrays alone;
* at every grid point each input window's staging buffer holds its block, fetched there or not (eight of the nine
  inputs are fetched at the first point only, their block index never moving);
* the body, run on whole staging buffers, leaves each input as it was and each output at its function of the
  inputs (it also loads each output buffer before overwriting it; the loaded values are read by nothing);
* hence the run: every array of the pipeline ends at what the proof data compute, every other unscoped buffer at
  what the host tail leaves, and in particular every argument array ends as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches: what they allocate and what they write -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The references `hostOps0`'s operations write: each operation writes its own result buffer only. -/
abbrev hostOps0_W : List (Ref sig .tc) := [
    main_v0, main_v1, main_v2, main_v3 ]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps1`'s operations write: each operation writes its own result buffer only. -/
abbrev hostOps1_W : List (Ref sig .tc) := [
    main_v5, main_v6, main_v7, main_v8, main_c, main_v9, main_v10, main_c_0, main_v11, main_v12, main_v13, main_v14,
    main_v15, main_c_1, main_v16, main_v17, main_c_2, main_v18, main_v19, main_v20, main_v21, main_v22, main_v23, main_c_3,
    main_v24, main_v25, main_c_4, main_v26, main_v27, main_v28, main_c_5, main_v29, main_v30, main_v31, main_v32, main_v33,
    main_v34, main_c_6, main_v35, main_v36, main_c_7, main_v37, main_v38, main_v39, main_c_8, main_v40, main_v41, main_v42,
    main_v43, main_v44, main_v45, main_v46, main_v47, main_v48, main_cst, main_v49, main_v50, main_cst_9, main_v51, main_v52,
    main_v53, main_v54, main_v55, main_cst_10, main_v56, main_v57, main_v58, main_c_11, main_v59, main_v60, main_c_12, main_v61,
    main_v62, main_v63, main_v64, main_v65, main_c_13, main_v66, main_v67, main_c_14, main_v68, main_v69, main_v70, main_v71,
    main_v72, main_v73, main_c_15, main_v74, main_v75, main_c_16, main_v76, main_v77, main_v78, main_c_17, main_v79, main_v80,
    main_v81, main_v82, main_v83, main_v84, main_c_18, main_v85, main_v86, main_c_19, main_v87, main_v88, main_v89, main_c_20,
    main_v90, main_v91, main_v92, main_v93, main_v94, main_v95, main_v96, main_v97, main_v98, main_cst_21, main_v99, main_v100,
    main_cst_22, main_v101, main_v102, main_v103, main_v104, main_v105, main_cst_23, main_v106, main_v107, main_v108, main_v109, main_v110 ]
set_option maxHeartbeats 40000000 in
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps1_1`'s operations write: each operation writes its own result buffer only. -/
abbrev hostOps1_1_W : List (Ref sig .tc) := [
    main_call0_cst, main_call0_v0, main_v111 ]
theorem hostOps1_1_writes : (hostOps1_1 : List (HloOp τ sig (Elt F))).Forall fun op => op.writes ⊆ (hostOps1_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- A reference outside a list holding everything a stretch writes is written by none of its operations. -/
theorem not_writes_of_sub {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, Proc.devRef .tc r ∉ op.writes := fun op hop hb => by
  obtain ⟨y, hy, he⟩ := List.mem_map.mp (List.mem_toFinset.mp ((List.forall_iff_forall_mem.mp hW) op hop hb))
  exact hr (Proc.devRef_injective _ he ▸ hy)

/-- No window's array is a result buffer of a host operation after the region. -/
theorem arr_not_W1 : ∀ w, Pipeline.arrRef spec0 w ∉ (hostOps1_W : List (Ref sig .tc)) := by decide
theorem arr_not_W1_1 : ∀ w, Pipeline.arrRef spec0 w ∉ (hostOps1_1_W : List (Ref sig .tc)) := by decide

/-- The lines after the region touch the pipeline's arrays and the bypassing buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_writes_of_sub hostOps1 hostOps1_writes (arr_not_W1 w) op hop
  · exact not_writes_of_sub hostOps1_1 hostOps1_1_writes (arr_not_W1_1 w) op hop

/-! ## @main around the region -/

/-- @main around the region: the host lines before it, the region, the host lines after it (the edge stage, then the
    rectifier's three operations): it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- A reference no host operation before the region writes is found by the region as launched. -/
theorem V_of (c : Dev nD) (r : Ref sig .tc) (h : r ∉ (hostOps0_W : List (Ref sig .tc))) :
    V m c r = m ((c : Thread nD τ).loc r) :=
  StableHlo.after_of_forall_not_mem (b := Proc.devRef .tc r) _ _ (not_writes_of_sub (F := F) hostOps0 hostOps0_writes h)

/-- No host operation before the region writes `main_arg0`: the region finds it as launched. -/
theorem V_main_arg0 (c : Dev nD) : V m c main_arg0 = m ((c : Thread nD τ).loc main_arg0) := V_of m c main_arg0 (by decide)
/-- No host operation before the region writes `main_arg1`: the region finds it as launched. -/
theorem V_main_arg1 (c : Dev nD) : V m c main_arg1 = m ((c : Thread nD τ).loc main_arg1) := V_of m c main_arg1 (by decide)
/-- No host operation before the region writes `main_arg2`: the region finds it as launched. -/
theorem V_main_arg2 (c : Dev nD) : V m c main_arg2 = m ((c : Thread nD τ).loc main_arg2) := V_of m c main_arg2 (by decide)
/-- No host operation before the region writes `main_arg3`: the region finds it as launched. -/
theorem V_main_arg3 (c : Dev nD) : V m c main_arg3 = m ((c : Thread nD τ).loc main_arg3) := V_of m c main_arg3 (by decide)
/-- No host operation before the region writes `main_arg4`: the region finds it as launched. -/
theorem V_main_arg4 (c : Dev nD) : V m c main_arg4 = m ((c : Thread nD τ).loc main_arg4) := V_of m c main_arg4 (by decide)
/-- No host operation before the region writes `main_arg5`: the region finds it as launched. -/
theorem V_main_arg5 (c : Dev nD) : V m c main_arg5 = m ((c : Thread nD τ).loc main_arg5) := V_of m c main_arg5 (by decide)
/-- No host operation before the region writes `main_arg6`: the region finds it as launched. -/
theorem V_main_arg6 (c : Dev nD) : V m c main_arg6 = m ((c : Thread nD τ).loc main_arg6) := V_of m c main_arg6 (by decide)
/-- No host operation before the region writes `main_arg7`: the region finds it as launched. -/
theorem V_main_arg7 (c : Dev nD) : V m c main_arg7 = m ((c : Thread nD τ).loc main_arg7) := V_of m c main_arg7 (by decide)
/-- No host operation before the region writes `main_arg8`: the region finds it as launched. -/
theorem V_main_arg8 (c : Dev nD) : V m c main_arg8 = m ((c : Thread nD τ).loc main_arg8) := V_of m c main_arg8 (by decide)
/-- No host operation before the region writes `main_arg9`: the region finds it as launched. -/
theorem V_main_arg9 (c : Dev nD) : V m c main_arg9 = m ((c : Thread nD τ).loc main_arg9) := V_of m c main_arg9 (by decide)
/-- No host operation before the region writes `main_arg10`: the region finds it as launched. -/
theorem V_main_arg10 (c : Dev nD) : V m c main_arg10 = m ((c : Thread nD τ).loc main_arg10) := V_of m c main_arg10 (by decide)
/-- No host operation before the region writes `main_arg11`: the region finds it as launched. -/
theorem V_main_arg11 (c : Dev nD) : V m c main_arg11 = m ((c : Thread nD τ).loc main_arg11) := V_of m c main_arg11 (by decide)
/-- No host operation before the region writes `main_arg12`: the region finds it as launched. -/
theorem V_main_arg12 (c : Dev nD) : V m c main_arg12 = m ((c : Thread nD τ).loc main_arg12) := V_of m c main_arg12 (by decide)
/-- No host operation before the region writes `main_arg13`: the region finds it as launched. -/
theorem V_main_arg13 (c : Dev nD) : V m c main_arg13 = m ((c : Thread nD τ).loc main_arg13) := V_of m c main_arg13 (by decide)
/-- No host operation before the region writes `main_arg14`: the region finds it as launched. -/
theorem V_main_arg14 (c : Dev nD) : V m c main_arg14 = m ((c : Thread nD τ).loc main_arg14) := V_of m c main_arg14 (by decide)

/-- A reference outside what the lines after the region write is written by none of their operations. -/
theorem tail_not_writes (r : Ref sig .tc) (h1 : r ∉ (hostOps1_W : List (Ref sig .tc))) (h11 : r ∉ (hostOps1_1_W : List (Ref sig .tc))) :
    ∀ op ∈ List.flatten ([hostOps1, hostOps1_1] : List (List (HloOp τ sig (Elt F)))), Proc.devRef .tc r ∉ op.writes := by
  intro op hop
  obtain ⟨ops, hops, hop'⟩ := List.mem_flatten.mp hop
  simp only [List.mem_cons, List.mem_nil_iff, or_false] at hops
  rcases hops with rfl | rfl
  · exact not_writes_of_sub hostOps1 hostOps1_writes h1 op hop'
  · exact not_writes_of_sub hostOps1_1 hostOps1_1_writes h11 op hop'

/-- A buffer that is no array of the pipeline and that no host operation writes ends as launched. -/
theorem W_of (dats : (p : Fin 1) → (c : Dev nD) → Dat τ (Elt F) Unit ℕ (UR sig nD τ) ℕ (cfgs p) c) (c : Dev nD) (r : Ref sig .tc)
    (h0 : r ∉ (hostOps0_W : List (Ref sig .tc))) (h1 : r ∉ (hostOps1_W : List (Ref sig .tc))) (h11 : r ∉ (hostOps1_1_W : List (Ref sig .tc)))
    (harr : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_forall_not_mem (b := Proc.devRef .tc r) _ _ (tail_not_writes r h1 h11),
    Pipeline.withArrays_of_ne _ c (V0 m c) _ r (by exact harr)]
  exact V_of m c r h0

/-- `main_arg1` is no array of the pipeline and no host operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) :=
  W_of m dats c main_arg1 (by decide) (by decide) (by decide) (by decide)
/-- `main_arg2` is no array of the pipeline and no host operation writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) :=
  W_of m dats c main_arg2 (by decide) (by decide) (by decide) (by decide)
/-- `main_arg8` is no array of the pipeline and no host operation writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg8 = m ((c : Thread nD τ).loc main_arg8) :=
  W_of m dats c main_arg8 (by decide) (by decide) (by decide) (by decide)
/-- `main_arg10` is no array of the pipeline and no host operation writes it: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg10 = m ((c : Thread nD τ).loc main_arg10) :=
  W_of m dats c main_arg10 (by decide) (by decide) (by decide) (by decide)
/-- `main_arg12` is no array of the pipeline and no host operation writes it: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg12 = m ((c : Thread nD τ).loc main_arg12) :=
  W_of m dats c main_arg12 (by decide) (by decide) (by decide) (by decide)
/-- `main_arg14` is no array of the pipeline and no host operation writes it: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg14 = m ((c : Thread nD τ).loc main_arg14) :=
  W_of m dats c main_arg14 (by decide) (by decide) (by decide) (by decide)

/-- An input window's array, which no host operation writes, ends as launched: the lines after the region leave the
    pipeline's arrays, the region leaves an input's array at its entry contents, and those are the launch contents. -/
theorem W_arr (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) (hin : (cfg0.win w).isOut = false)
    (h0 : Pipeline.arrRef spec0 w ∉ (hostOps0_W : List (Ref sig .tc))) :
    Pipeline.afterTail₀ cfgs dats 0 (V0 m) [hostOps1, hostOps1_1] c (Pipeline.arrRef spec0 w) = m ((c : Thread nD τ).loc (Pipeline.arrRef spec0 w)) := by
  unfold Pipeline.afterTail₀
  rw [StableHlo.after_of_forall_not_mem (b := Proc.devRef .tc (Pipeline.arrRef spec0 w)) _ _ (tail_not_writes _ (arr_not_W1 w) (arr_not_W1_1 w)),
    Pipeline.withArrays_arr _ launch0.win.arr_inj c (V0 m c) _ w, (dats 0 c).arrAt_in w hin, hA]
  exact V_of m c _ h0

theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg0 = m ((c : Thread nD τ).loc main_arg0) :=
  W_arr m dats hA c 0 rfl (by decide)
theorem W_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg3 = m ((c : Thread nD τ).loc main_arg3) :=
  W_arr m dats hA c 1 rfl (by decide)
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg4 = m ((c : Thread nD τ).loc main_arg4) :=
  W_arr m dats hA c 2 rfl (by decide)
theorem W_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg5 = m ((c : Thread nD τ).loc main_arg5) :=
  W_arr m dats hA c 3 rfl (by decide)
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg6 = m ((c : Thread nD τ).loc main_arg6) :=
  W_arr m dats hA c 4 rfl (by decide)
theorem W_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg7 = m ((c : Thread nD τ).loc main_arg7) :=
  W_arr m dats hA c 5 rfl (by decide)
theorem W_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg9 = m ((c : Thread nD τ).loc main_arg9) :=
  W_arr m dats hA c 6 rfl (by decide)
theorem W_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg11 = m ((c : Thread nD τ).loc main_arg11) :=
  W_arr m dats hA c 7 rfl (by decide)
theorem W_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg13 = m ((c : Thread nD τ).loc main_arg13) :=
  W_arr m dats hA c 8 rfl (by decide)

/-! ## The input windows' buffers at a point -/

/-- Input window 0's current staging buffer holds its block at every point, fetched there or not (unfetched, the
    block index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
/-- Input window 1's current staging buffer holds its block at every point, fetched there or not (unfetched, the
    block index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
/-- Input window 2's current staging buffer holds its block at every point, fetched there or not (unfetched, the
    block index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
/-- Input window 3's current staging buffer holds its block at every point, fetched there or not (unfetched, the
    block index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
/-- Input window 4's current staging buffer holds its block at every point, fetched there or not (unfetched, the
    block index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
/-- Input window 5's current staging buffer holds its block at every point, fetched there or not (unfetched, the
    block index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
/-- Input window 6's current staging buffer holds its block at every point, fetched there or not (unfetched, the
    block index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
/-- Input window 7's current staging buffer holds its block at every point, fetched there or not (unfetched, the
    block index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d
/-- Input window 8's current staging buffer holds its block at every point, fetched there or not (unfetched, the
    block index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d

/-! ## The body's triple -/

/-- A single whole-buffer store covers the buffer (checked by evaluation). -/
theorem coverN (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y
theorem coverO (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

set_option maxHeartbeats 4000000 in
/-- The body on whole staging memrefs, the inputs' at read contents `xW` and the outputs' at anything, runs to the
    continuation holding the inputs' as they were and each output's at its function of the inputs'. The loads of the
    output buffers return values no later operation reads. -/
theorem sound_kernel (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S2000x128 .f32) (harg10 : arg10.IsWhole) (arg11 : Memref sig .tc .vmem S2000x128 .f32) (harg11 : arg11.IsWhole) (arg12 : Memref sig .tc .vmem S2000x128 .f32) (harg12 : arg12.IsWhole) (arg13 : Memref sig .tc .vmem S2000x1 .f32) (harg13 : arg13.IsWhole) (arg14 : Memref sig .tc .vmem S2000x1 .f32) (harg14 : arg14.IsWhole)
    (x0 : Vec F S2000x128 .f32) (x1 : Vec F S128x128 .f32) (x2 : Vec F S128 .f32) (x3 : Vec F S128x1 .f32) (x4 : Vec F S1 .f32) (x5 : Vec F S128x128 .f32) (x6 : Vec F S128x1 .f32) (x7 : Vec F S128x128 .f32) (x8 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4) ∗ owns (c : Thread nD τ) arg11 fullShare (out0_10 x0 x5) ∗ owns (c : Thread nD τ) arg12 fullShare (out0_11 x0 x7) ∗ owns (c : Thread nD τ) arg13 fullShare (out0_12 x0 x5 x6) ∗ owns (c : Thread nD τ) arg14 fullShare (out0_13 x0 x7 x8)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__node_kernel_eq_skeleton]; unfold cc0__node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverN _)
  isplitl [H10]
  · iexists _; isplitr
    swap; · iexact H10
    ipureintro
    exact View.read_writes_eq_canon _ _ _ (coverN _)
  isplitl [H11]
  · iexists _; isplitr
    swap; · iexact H11
    ipureintro
    exact View.read_writes_eq_canon _ _ _ (coverN _)
  isplitl [H12]
  · iexists _; isplitr
    swap; · iexact H12
    ipureintro
    exact View.read_writes_eq_canon _ _ _ (coverO _)
  iexists _; isplitr
  swap; · iexact H13
  ipureintro
  exact View.read_writes_eq_canon _ _ _ (coverO _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- What the run's post says of the result: the rectified sum's buffer is no array of the pipeline, so it holds what
    the lines after the region leave there. -/
theorem post_result {r : PUnit × MemSt nD τ sig (Elt F)} (h : Pipeline.FramePost cfgs (dats m) 0 (Pipeline.afterTail₀ cfgs (dats m) 0 (V0 m) [hostOps1, hostOps1_1]) r) (c : Dev nD) :
    r.2.mem ((c.tc : Thread nD τ).loc main_v111) = Pipeline.afterTail₀ cfgs (dats m) 0 (V0 m) [hostOps1, hostOps1_1] c main_v111 :=
  (h c).2 main_v111 (Pipeline.mem_restRefs_of main_v111 (by decide) (by decide))

/-- What the run's post says of the arguments: every argument array ends as launched — a staged input by the region
    leaving an input's array alone, an array no window stages by no host operation writing it. -/
theorem post_args {r : PUnit × MemSt nD τ sig (Elt F)} (h : Pipeline.FramePost cfgs (dats m) 0 (Pipeline.afterTail₀ cfgs (dats m) 0 (V0 m) [hostOps1, hostOps1_1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans ((((dats m) 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans ((((dats m) 0 c).arrAt_in 1 rfl _).trans ((A_eq m c 1).trans (V_main_arg3 m c))),
    ((h c).1 2).trans ((((dats m) 0 c).arrAt_in 2 rfl _).trans ((A_eq m c 2).trans (V_main_arg4 m c))),
    ((h c).1 3).trans ((((dats m) 0 c).arrAt_in 3 rfl _).trans ((A_eq m c 3).trans (V_main_arg5 m c))),
    ((h c).1 4).trans ((((dats m) 0 c).arrAt_in 4 rfl _).trans ((A_eq m c 4).trans (V_main_arg6 m c))),
    ((h c).1 5).trans ((((dats m) 0 c).arrAt_in 5 rfl _).trans ((A_eq m c 5).trans (V_main_arg7 m c))),
    ((h c).2 main_arg8 (Pipeline.mem_restRefs_of main_arg8 (by decide) (by decide))).trans (W_main_arg8 m (dats m) c),
    ((h c).1 6).trans ((((dats m) 0 c).arrAt_in 6 rfl _).trans ((A_eq m c 6).trans (V_main_arg9 m c))),
    ((h c).2 main_arg10 (Pipeline.mem_restRefs_of main_arg10 (by decide) (by decide))).trans (W_main_arg10 m (dats m) c),
    ((h c).1 7).trans ((((dats m) 0 c).arrAt_in 7 rfl _).trans ((A_eq m c 7).trans (V_main_arg11 m c))),
    ((h c).2 main_arg12 (Pipeline.mem_restRefs_of main_arg12 (by decide) (by decide))).trans (W_main_arg12 m (dats m) c),
    ((h c).1 8).trans ((((dats m) 0 c).arrAt_in 8 rfl _).trans ((A_eq m c 8).trans (V_main_arg13 m c))),
    ((h c).2 main_arg14 (Pipeline.mem_restRefs_of main_arg14 (by decide) (by decide))).trans (W_main_arg14 m (dats m) c)⟩

/-- The frame: @main runs, and every argument array ends as launched. -/
theorem frameClaim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => post_args m h c) (run_main m ρ)

end Cert.Kernel.Hand

end
-- ==== Proof.KernelIdealData.lean ====
import proofs.«139600_j30958124270115_2_alg».proof.Proof.Gen.KernelIdeal.Launch
import proofs.«139600_j30958124270115_2_alg».proof.Proof.Gen.KernelIdeal.Skeleton
import proofs.«139600_j30958124270115_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The node-transform pipeline's proof data

The program is four host operations (the two rows of the edge list as vectors), one pipelined region over
25 blocks of 2000 nodes, and a host tail (the edge stage, the three-way sum and the rectifier).

At block `t` the region's body reads the block's 2000 rows of the node features and the whole of eight
parameter arrays, and writes five blocks, each one function of what it read:
* window 9:  `σ(t·g + c) · t` with `t = x·W + b` (the self-loop term),
* window 10: `(x·W₁)·W₁` and window 12: `((x·W₁)·W₁)·g₁` (incoming direction),
* window 11: `(x·W₂)·W₂` and window 13: `((x·W₂)·W₂)·g₂` (outgoing direction).

This module fixes, once, what every later module speaks about: the arrays as the region finds them, a
window's block at a point, what the body leaves in each output window's buffer, and the proof data built
from them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the four host operations
    that split the edge list into its source and target rows. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: every load and store is of a whole buffer -/

abbrev rN : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S128 := Rect.unit (s := S128) ![0] S128.size inb_S128_S128_0
abbrev rG : Rect S128x1 := Rect.unit (s := S128x1) ![0, 0] S128x1.size inb_S128x1_S128x1_0_0
abbrev rC : Rect S1 := Rect.unit (s := S1) ![0] S1.size inb_S1_S1_0
abbrev rO : Rect S2000x1 := Rect.unit (s := S2000x1) ![0, 0] S2000x1.size inb_S2000x1_S2000x1_0_0

/-! ## What the body leaves in each output window's buffer, from the input windows' blocks -/

/-- The self-loop block: the gated affine image of the block's rows. -/
def out0_9 (x0 : Vec F S2000x128 .f32) (x1 : Vec F S128x128 .f32) (x2 : Vec F S128 .f32) (x3 : Vec F S128x1 .f32)
    (x4 : Vec F S1 .f32) : Vec F S2000x128 .f32 :=
  View.canon [⟨rN, k0_pay4 (View.ld x0 rN) (View.ld x1 rW) (View.ld x2 rB) (View.ld x3 rG) (View.ld x4 rC)⟩]

/-- The incoming direction's block: the rows through the weight matrix twice. -/
def out0_10 (x0 : Vec F S2000x128 .f32) (x5 : Vec F S128x128 .f32) : Vec F S2000x128 .f32 :=
  View.canon [⟨rN, k0_pay5 (View.ld x0 rN) (View.ld x5 rW)⟩]

/-- The outgoing direction's block. -/
def out0_11 (x0 : Vec F S2000x128 .f32) (x7 : Vec F S128x128 .f32) : Vec F S2000x128 .f32 :=
  View.canon [⟨rN, k0_pay1 (k0_pay3 (View.ld x0 rN)) (View.ld x7 rW)⟩]

/-- The incoming direction's gate projection of the block. -/
def out0_12 (x0 : Vec F S2000x128 .f32) (x5 : Vec F S128x128 .f32) (x6 : Vec F S128x1 .f32) : Vec F S2000x1 .f32 :=
  View.canon [⟨rO, k0_pay6 (View.ld x0 rN) (View.ld x5 rW) (View.ld x6 rG)⟩]

/-- The outgoing direction's gate projection of the block. -/
def out0_13 (x0 : Vec F S2000x128 .f32) (x7 : Vec F S128x128 .f32) (x8 : Vec F S128x1 .f32) : Vec F S2000x1 .f32 :=
  View.canon [⟨rO, k0_pay2 (k0_pay3 (View.ld x0 rN)) (View.ld x7 rW) (View.ld x8 rG)⟩]

/-! ## The proof data -/

/-- The arrays as the region finds them; after the body at point `t` each input's buffer at its block and each
    output's at its function of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
    | ⟨10, _⟩ => out0_10 (iblk m c 0 t) (iblk m c 5 t)
    | ⟨11, _⟩ => out0_11 (iblk m c 0 t) (iblk m c 7 t)
    | ⟨12, _⟩ => out0_12 (iblk m c 0 t) (iblk m c 5 t) (iblk m c 6 t)
    | ⟨13, _⟩ => out0_13 (iblk m c 0 t) (iblk m c 7 t) (iblk m c 8 t)
  Φ _ := Pipeline.ΦA spec0 c
  q _ := fullShare
  owed _ := 0

/-- The proof data's arrays are the region-entry contents (projected, never unfolded through the host prefix). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 5 t) := by
  dsimp only [dats]
theorem after0_11 (c : Dev nD) (t : Fin cfg0.N) : (dats m 0 c).after 11 t = out0_11 (iblk m c 0 t) (iblk m c 7 t) := by
  dsimp only [dats]
theorem after0_12 (c : Dev nD) (t : Fin cfg0.N) : (dats m 0 c).after 12 t
    = out0_12 (iblk m c 0 t) (iblk m c 5 t) (iblk m c 6 t) := by dsimp only [dats]
theorem after0_13 (c : Dev nD) (t : Fin cfg0.N) : (dats m 0 c).after 13 t
    = out0_13 (iblk m c 0 t) (iblk m c 7 t) (iblk m c 8 t) := by dsimp only [dats]

end Cert.KernelIdeal.Hand

end
-- ==== Proof.KernelIdealFrame.lean ====
import proofs.«139600_j30958124270115_2_alg».proof.Proof.KernelIdealData
import Idealize.ShloMosaic.Lib.Pipeline.FrameBody
import Idealize.ShloMosaic.Lib.Pipeline.FrameSuffix
import Idealize.ShloMosaic.Lib.Ring
import Idealize.ShloMosaic.Lib.Tactic

/-!
# The node-transform pipeline's frame

The program is four host operations, one pipelined region over 25 blocks of 2000 nodes, and a host tail of 132
operations followed by the rectifier's three.

This module proves that the program runs and what its buffers hold at the end:
* no host operation writes an argument array or an array of the pipeline (each writes its own result buffer, and
  the result buffers are listed once per stretch), so the region finds every argument as launched and the host
  tail leaves the pipeline's arrays alone;
* at every grid point each input window's staging buffer holds its block, fetched there or not (eight of the nine
  inputs are fetched at the first point only, their block index never moving);
* the body, run on whole staging buffers, leaves each input as it was and each output at its function of the
  inputs (it also loads each output buffer before overwriting it; the loaded values are read by nothing);
* hence the run: every array of the pipeline ends at what the proof data compute, every other unscoped buffer at
  what the host tail leaves, and in particular every argument array ends as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches: what they allocate and what they write -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The references `hostOps0`'s operations write: each operation writes its own result buffer only. -/
abbrev hostOps0_W : List (Ref sig .tc) := [
    main_v0, main_v1, main_v2, main_v3 ]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps1`'s operations write: each operation writes its own result buffer only. -/
abbrev hostOps1_W : List (Ref sig .tc) := [
    main_v5, main_v6, main_v7, main_v8, main_c, main_v9, main_v10, main_c_0, main_v11, main_v12, main_v13, main_v14,
    main_v15, main_c_1, main_v16, main_v17, main_c_2, main_v18, main_v19, main_v20, main_v21, main_v22, main_v23, main_c_3,
    main_v24, main_v25, main_c_4, main_v26, main_v27, main_v28, main_c_5, main_v29, main_v30, main_v31, main_v32, main_v33,
    main_v34, main_c_6, main_v35, main_v36, main_c_7, main_v37, main_v38, main_v39, main_c_8, main_v40, main_v41, main_v42,
    main_v43, main_v44, main_v45, main_v46, main_v47, main_v48, main_cst, main_v49, main_v50, main_cst_9, main_v51, main_v52,
    main_v53, main_v54, main_v55, main_cst_10, main_v56, main_v57, main_v58, main_c_11, main_v59, main_v60, main_c_12, main_v61,
    main_v62, main_v63, main_v64, main_v65, main_c_13, main_v66, main_v67, main_c_14, main_v68, main_v69, main_v70, main_v71,
    main_v72, main_v73, main_c_15, main_v74, main_v75, main_c_16, main_v76, main_v77, main_v78, main_c_17, main_v79, main_v80,
    main_v81, main_v82, main_v83, main_v84, main_c_18, main_v85, main_v86, main_c_19, main_v87, main_v88, main_v89, main_c_20,
    main_v90, main_v91, main_v92, main_v93, main_v94, main_v95, main_v96, main_v97, main_v98, main_cst_21, main_v99, main_v100,
    main_cst_22, main_v101, main_v102, main_v103, main_v104, main_v105, main_cst_23, main_v106, main_v107, main_v108, main_v109, main_v110 ]
set_option maxHeartbeats 40000000 in
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps1_1`'s operations write: each operation writes its own result buffer only. -/
abbrev hostOps1_1_W : List (Ref sig .tc) := [
    main_call0_cst, main_call0_v0, main_v111 ]
theorem hostOps1_1_writes : (hostOps1_1 : List (HloOp τ sig (Elt F))).Forall fun op => op.writes ⊆ (hostOps1_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- A reference outside a list holding everything a stretch writes is written by none of its operations. -/
theorem not_writes_of_sub {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, Proc.devRef .tc r ∉ op.writes := fun op hop hb => by
  obtain ⟨y, hy, he⟩ := List.mem_map.mp (List.mem_toFinset.mp ((List.forall_iff_forall_mem.mp hW) op hop hb))
  exact hr (Proc.devRef_injective _ he ▸ hy)

/-- No window's array is a result buffer of a host operation after the region. -/
theorem arr_not_W1 : ∀ w, Pipeline.arrRef spec0 w ∉ (hostOps1_W : List (Ref sig .tc)) := by decide
theorem arr_not_W1_1 : ∀ w, Pipeline.arrRef spec0 w ∉ (hostOps1_1_W : List (Ref sig .tc)) := by decide

/-- The lines after the region touch the pipeline's arrays and the bypassing buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_writes_of_sub hostOps1 hostOps1_writes (arr_not_W1 w) op hop
  · exact not_writes_of_sub hostOps1_1 hostOps1_1_writes (arr_not_W1_1 w) op hop

/-! ## @main around the region -/

/-- @main around the region: the host lines before it, the region, the host lines after it (the edge stage, then the
    rectifier's three operations): it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- A reference no host operation before the region writes is found by the region as launched. -/
theorem V_of (c : Dev nD) (r : Ref sig .tc) (h : r ∉ (hostOps0_W : List (Ref sig .tc))) :
    V m c r = m ((c : Thread nD τ).loc r) :=
  StableHlo.after_of_forall_not_mem (b := Proc.devRef .tc r) _ _ (not_writes_of_sub (F := F) hostOps0 hostOps0_writes h)

/-- No host operation before the region writes `main_arg0`: the region finds it as launched. -/
theorem V_main_arg0 (c : Dev nD) : V m c main_arg0 = m ((c : Thread nD τ).loc main_arg0) := V_of m c main_arg0 (by decide)
/-- No host operation before the region writes `main_arg1`: the region finds it as launched. -/
theorem V_main_arg1 (c : Dev nD) : V m c main_arg1 = m ((c : Thread nD τ).loc main_arg1) := V_of m c main_arg1 (by decide)
/-- No host operation before the region writes `main_arg2`: the region finds it as launched. -/
theorem V_main_arg2 (c : Dev nD) : V m c main_arg2 = m ((c : Thread nD τ).loc main_arg2) := V_of m c main_arg2 (by decide)
/-- No host operation before the region writes `main_arg3`: the region finds it as launched. -/
theorem V_main_arg3 (c : Dev nD) : V m c main_arg3 = m ((c : Thread nD τ).loc main_arg3) := V_of m c main_arg3 (by decide)
/-- No host operation before the region writes `main_arg4`: the region finds it as launched. -/
theorem V_main_arg4 (c : Dev nD) : V m c main_arg4 = m ((c : Thread nD τ).loc main_arg4) := V_of m c main_arg4 (by decide)
/-- No host operation before the region writes `main_arg5`: the region finds it as launched. -/
theorem V_main_arg5 (c : Dev nD) : V m c main_arg5 = m ((c : Thread nD τ).loc main_arg5) := V_of m c main_arg5 (by decide)
/-- No host operation before the region writes `main_arg6`: the region finds it as launched. -/
theorem V_main_arg6 (c : Dev nD) : V m c main_arg6 = m ((c : Thread nD τ).loc main_arg6) := V_of m c main_arg6 (by decide)
/-- No host operation before the region writes `main_arg7`: the region finds it as launched. -/
theorem V_main_arg7 (c : Dev nD) : V m c main_arg7 = m ((c : Thread nD τ).loc main_arg7) := V_of m c main_arg7 (by decide)
/-- No host operation before the region writes `main_arg8`: the region finds it as launched. -/
theorem V_main_arg8 (c : Dev nD) : V m c main_arg8 = m ((c : Thread nD τ).loc main_arg8) := V_of m c main_arg8 (by decide)
/-- No host operation before the region writes `main_arg9`: the region finds it as launched. -/
theorem V_main_arg9 (c : Dev nD) : V m c main_arg9 = m ((c : Thread nD τ).loc main_arg9) := V_of m c main_arg9 (by decide)
/-- No host operation before the region writes `main_arg10`: the region finds it as launched. -/
theorem V_main_arg10 (c : Dev nD) : V m c main_arg10 = m ((c : Thread nD τ).loc main_arg10) := V_of m c main_arg10 (by decide)
/-- No host operation before the region writes `main_arg11`: the region finds it as launched. -/
theorem V_main_arg11 (c : Dev nD) : V m c main_arg11 = m ((c : Thread nD τ).loc main_arg11) := V_of m c main_arg11 (by decide)
/-- No host operation before the region writes `main_arg12`: the region finds it as launched. -/
theorem V_main_arg12 (c : Dev nD) : V m c main_arg12 = m ((c : Thread nD τ).loc main_arg12) := V_of m c main_arg12 (by decide)
/-- No host operation before the region writes `main_arg13`: the region finds it as launched. -/
theorem V_main_arg13 (c : Dev nD) : V m c main_arg13 = m ((c : Thread nD τ).loc main_arg13) := V_of m c main_arg13 (by decide)
/-- No host operation before the region writes `main_arg14`: the region finds it as launched. -/
theorem V_main_arg14 (c : Dev nD) : V m c main_arg14 = m ((c : Thread nD τ).loc main_arg14) := V_of m c main_arg14 (by decide)

/-- A reference outside what the lines after the region write is written by none of their operations. -/
theorem tail_not_writes (r : Ref sig .tc) (h1 : r ∉ (hostOps1_W : List (Ref sig .tc))) (h11 : r ∉ (hostOps1_1_W : List (Ref sig .tc))) :
    ∀ op ∈ List.flatten ([hostOps1, hostOps1_1] : List (List (HloOp τ sig (Elt F)))), Proc.devRef .tc r ∉ op.writes := by
  intro op hop
  obtain ⟨ops, hops, hop'⟩ := List.mem_flatten.mp hop
  simp only [List.mem_cons, List.mem_nil_iff, or_false] at hops
  rcases hops with rfl | rfl
  · exact not_writes_of_sub hostOps1 hostOps1_writes h1 op hop'
  · exact not_writes_of_sub hostOps1_1 hostOps1_1_writes h11 op hop'

/-- A buffer that is no array of the pipeline and that no host operation writes ends as launched. -/
theorem W_of (dats : (p : Fin 1) → (c : Dev nD) → Dat τ (Elt F) Unit ℕ (UR sig nD τ) ℕ (cfgs p) c) (c : Dev nD) (r : Ref sig .tc)
    (h0 : r ∉ (hostOps0_W : List (Ref sig .tc))) (h1 : r ∉ (hostOps1_W : List (Ref sig .tc))) (h11 : r ∉ (hostOps1_1_W : List (Ref sig .tc)))
    (harr : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_forall_not_mem (b := Proc.devRef .tc r) _ _ (tail_not_writes r h1 h11),
    Pipeline.withArrays_of_ne _ c (V0 m c) _ r (by exact harr)]
  exact V_of m c r h0

/-- `main_arg1` is no array of the pipeline and no host operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) :=
  W_of m dats c main_arg1 (by decide) (by decide) (by decide) (by decide)
/-- `main_arg2` is no array of the pipeline and no host operation writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) :=
  W_of m dats c main_arg2 (by decide) (by decide) (by decide) (by decide)
/-- `main_arg8` is no array of the pipeline and no host operation writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg8 = m ((c : Thread nD τ).loc main_arg8) :=
  W_of m dats c main_arg8 (by decide) (by decide) (by decide) (by decide)
/-- `main_arg10` is no array of the pipeline and no host operation writes it: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg10 = m ((c : Thread nD τ).loc main_arg10) :=
  W_of m dats c main_arg10 (by decide) (by decide) (by decide) (by decide)
/-- `main_arg12` is no array of the pipeline and no host operation writes it: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg12 = m ((c : Thread nD τ).loc main_arg12) :=
  W_of m dats c main_arg12 (by decide) (by decide) (by decide) (by decide)
/-- `main_arg14` is no array of the pipeline and no host operation writes it: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) [hostOps1, hostOps1_1] c main_arg14 = m ((c : Thread nD τ).loc main_arg14) :=
  W_of m dats c main_arg14 (by decide) (by decide) (by decide) (by decide)

/-- An input window's array, which no host operation writes, ends as launched: the lines after the region leave the
    pipeline's arrays, the region leaves an input's array at its entry contents, and those are the launch contents. -/
theorem W_arr (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) (hin : (cfg0.win w).isOut = false)
    (h0 : Pipeline.arrRef spec0 w ∉ (hostOps0_W : List (Ref sig .tc))) :
    Pipeline.afterTail₀ cfgs dats 0 (V0 m) [hostOps1, hostOps1_1] c (Pipeline.arrRef spec0 w) = m ((c : Thread nD τ).loc (Pipeline.arrRef spec0 w)) := by
  unfold Pipeline.afterTail₀
  rw [StableHlo.after_of_forall_not_mem (b := Proc.devRef .tc (Pipeline.arrRef spec0 w)) _ _ (tail_not_writes _ (arr_not_W1 w) (arr_not_W1_1 w)),
    Pipeline.withArrays_arr _ launch0.win.arr_inj c (V0 m c) _ w, (dats 0 c).arrAt_in w hin, hA]
  exact V_of m c _ h0

theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg0 = m ((c : Thread nD τ).loc main_arg0) :=
  W_arr m dats hA c 0 rfl (by decide)
theorem W_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg3 = m ((c : Thread nD τ).loc main_arg3) :=
  W_arr m dats hA c 1 rfl (by decide)
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg4 = m ((c : Thread nD τ).loc main_arg4) :=
  W_arr m dats hA c 2 rfl (by decide)
theorem W_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg5 = m ((c : Thread nD τ).loc main_arg5) :=
  W_arr m dats hA c 3 rfl (by decide)
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg6 = m ((c : Thread nD τ).loc main_arg6) :=
  W_arr m dats hA c 4 rfl (by decide)
theorem W_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg7 = m ((c : Thread nD τ).loc main_arg7) :=
  W_arr m dats hA c 5 rfl (by decide)
theorem W_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg9 = m ((c : Thread nD τ).loc main_arg9) :=
  W_arr m dats hA c 6 rfl (by decide)
theorem W_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg11 = m ((c : Thread nD τ).loc main_arg11) :=
  W_arr m dats hA c 7 rfl (by decide)
theorem W_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1] c main_arg13 = m ((c : Thread nD τ).loc main_arg13) :=
  W_arr m dats hA c 8 rfl (by decide)

/-! ## The input windows' buffers at a point -/

/-- Input window 0's current staging buffer holds its block at every point, fetched there or not (unfetched, the
    block index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
/-- Input window 1's current staging buffer holds its block at every point, fetched there or not (unfetched, the
    block index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
/-- Input window 2's current staging buffer holds its block at every point, fetched there or not (unfetched, the
    block index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
/-- Input window 3's current staging buffer holds its block at every point, fetched there or not (unfetched, the
    block index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
/-- Input window 4's current staging buffer holds its block at every point, fetched there or not (unfetched, the
    block index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
/-- Input window 5's current staging buffer holds its block at every point, fetched there or not (unfetched, the
    block index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
/-- Input window 6's current staging buffer holds its block at every point, fetched there or not (unfetched, the
    block index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
/-- Input window 7's current staging buffer holds its block at every point, fetched there or not (unfetched, the
    block index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d
/-- Input window 8's current staging buffer holds its block at every point, fetched there or not (unfetched, the
    block index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d

/-! ## The body's triple -/

/-- A single whole-buffer store covers the buffer (checked by evaluation). -/
theorem coverN (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y
theorem coverO (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

set_option maxHeartbeats 4000000 in
/-- The body on whole staging memrefs, the inputs' at read contents `xW` and the outputs' at anything, runs to the
    continuation holding the inputs' as they were and each output's at its function of the inputs'. The loads of the
    output buffers return values no later operation reads. -/
theorem sound_kernel (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S2000x128 .f32) (harg10 : arg10.IsWhole) (arg11 : Memref sig .tc .vmem S2000x128 .f32) (harg11 : arg11.IsWhole) (arg12 : Memref sig .tc .vmem S2000x128 .f32) (harg12 : arg12.IsWhole) (arg13 : Memref sig .tc .vmem S2000x1 .f32) (harg13 : arg13.IsWhole) (arg14 : Memref sig .tc .vmem S2000x1 .f32) (harg14 : arg14.IsWhole)
    (x0 : Vec F S2000x128 .f32) (x1 : Vec F S128x128 .f32) (x2 : Vec F S128 .f32) (x3 : Vec F S128x1 .f32) (x4 : Vec F S1 .f32) (x5 : Vec F S128x128 .f32) (x6 : Vec F S128x1 .f32) (x7 : Vec F S128x128 .f32) (x8 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4) ∗ owns (c : Thread nD τ) arg11 fullShare (out0_10 x0 x5) ∗ owns (c : Thread nD τ) arg12 fullShare (out0_11 x0 x7) ∗ owns (c : Thread nD τ) arg13 fullShare (out0_12 x0 x5 x6) ∗ owns (c : Thread nD τ) arg14 fullShare (out0_13 x0 x7 x8)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__node_kernel_eq_skeleton]; unfold cc0__node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverN _)
  isplitl [H10]
  · iexists _; isplitr
    swap; · iexact H10
    ipureintro
    exact View.read_writes_eq_canon _ _ _ (coverN _)
  isplitl [H11]
  · iexists _; isplitr
    swap; · iexact H11
    ipureintro
    exact View.read_writes_eq_canon _ _ _ (coverN _)
  isplitl [H12]
  · iexists _; isplitr
    swap; · iexact H12
    ipureintro
    exact View.read_writes_eq_canon _ _ _ (coverO _)
  iexists _; isplitr
  swap; · iexact H13
  ipureintro
  exact View.read_writes_eq_canon _ _ _ (coverO _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- What the run's post says of the result: the rectified sum's buffer is no array of the pipeline, so it holds what
    the lines after the region leave there. -/
theorem post_result {r : PUnit × MemSt nD τ sig (Elt F)} (h : Pipeline.FramePost cfgs (dats m) 0 (Pipeline.afterTail₀ cfgs (dats m) 0 (V0 m) [hostOps1, hostOps1_1]) r) (c : Dev nD) :
    r.2.mem ((c.tc : Thread nD τ).loc main_v111) = Pipeline.afterTail₀ cfgs (dats m) 0 (V0 m) [hostOps1, hostOps1_1] c main_v111 :=
  (h c).2 main_v111 (Pipeline.mem_restRefs_of main_v111 (by decide) (by decide))

/-- What the run's post says of the arguments: every argument array ends as launched — a staged input by the region
    leaving an input's array alone, an array no window stages by no host operation writing it. -/
theorem post_args {r : PUnit × MemSt nD τ sig (Elt F)} (h : Pipeline.FramePost cfgs (dats m) 0 (Pipeline.afterTail₀ cfgs (dats m) 0 (V0 m) [hostOps1, hostOps1_1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans ((((dats m) 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans ((((dats m) 0 c).arrAt_in 1 rfl _).trans ((A_eq m c 1).trans (V_main_arg3 m c))),
    ((h c).1 2).trans ((((dats m) 0 c).arrAt_in 2 rfl _).trans ((A_eq m c 2).trans (V_main_arg4 m c))),
    ((h c).1 3).trans ((((dats m) 0 c).arrAt_in 3 rfl _).trans ((A_eq m c 3).trans (V_main_arg5 m c))),
    ((h c).1 4).trans ((((dats m) 0 c).arrAt_in 4 rfl _).trans ((A_eq m c 4).trans (V_main_arg6 m c))),
    ((h c).1 5).trans ((((dats m) 0 c).arrAt_in 5 rfl _).trans ((A_eq m c 5).trans (V_main_arg7 m c))),
    ((h c).2 main_arg8 (Pipeline.mem_restRefs_of main_arg8 (by decide) (by decide))).trans (W_main_arg8 m (dats m) c),
    ((h c).1 6).trans ((((dats m) 0 c).arrAt_in 6 rfl _).trans ((A_eq m c 6).trans (V_main_arg9 m c))),
    ((h c).2 main_arg10 (Pipeline.mem_restRefs_of main_arg10 (by decide) (by decide))).trans (W_main_arg10 m (dats m) c),
    ((h c).1 7).trans ((((dats m) 0 c).arrAt_in 7 rfl _).trans ((A_eq m c 7).trans (V_main_arg11 m c))),
    ((h c).2 main_arg12 (Pipeline.mem_restRefs_of main_arg12 (by decide) (by decide))).trans (W_main_arg12 m (dats m) c),
    ((h c).1 8).trans ((((dats m) 0 c).arrAt_in 8 rfl _).trans ((A_eq m c 8).trans (V_main_arg13 m c))),
    ((h c).2 main_arg14 (Pipeline.mem_restRefs_of main_arg14 (by decide) (by decide))).trans (W_main_arg14 m (dats m) c)⟩

/-- The frame: @main runs, and every argument array ends as launched. -/
theorem frameClaim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => post_args m h c) (run_main m ρ)

end Cert.KernelIdeal.Hand

end
-- ==== Proof.Spec.lean ====
import Idealize.ShloMosaic.PureOps.Ideal
import Idealize.ShloMosaic.Lib.ValueIdx

/-!
# The layer, entry by entry, on the extended reals

One gated graph-convolution layer over `n` nodes with 128 features.  Every quantity below is a plain function of
array entries; nothing here mentions a program.

* `mm x W` — the rows of `x` through a 128 × 128 matrix; `mm2 x W` — through it twice.
* `selfLoop` — the self-loop term `σ(t·g + c)·t` with `t = x·W + b`.
* `msg` — the message of an edge whose end node is row `r` and whose label is row `l`: the node's twice-transformed
  features plus the label's bias; `upd` — that message scaled by its gate `σ(msg·g + c_l)`.

`σ` is the logistic function of the extended reals, `1 / (1 + e^(−z))` with the conventions at the infinities.
-/

noncomputable section

namespace Cert.Spec

open Idealize.ShloMosaic Idealize.ShloMosaic.ValueIdx

/-- A matrix of extended reals, indexed as the programs index their arrays. -/
abbrev Arr (a b : Nat) := (⟨2, ![a, b]⟩ : Shape).Idx → EReal
/-- A vector of extended reals. -/
abbrev Arr1 (a : Nat) := (⟨1, ![a]⟩ : Shape).Idx → EReal

/-- Row `p` of `x` through the matrix `W`, entry `c`. -/
def mm {n : Nat} (x : Arr n 128) (W : Arr 128 128) (p : Fin n) (c : Fin 128) : EReal :=
  ∑ k : Fin 128, x (ix2 p k) * W (ix2 k c)

/-- Row `p` of `x` through `W` twice, entry `c`. -/
def mm2 {n : Nat} (x : Arr n 128) (W : Arr 128 128) (p : Fin n) (c : Fin 128) : EReal :=
  ∑ k : Fin 128, mm x W p k * W (ix2 k c)

/-- The affine image `x·W + b` of row `p`, entry `c`. -/
def aff {n : Nat} (x : Arr n 128) (W : Arr 128 128) (b : Arr1 128) (p : Fin n) (c : Fin 128) : EReal :=
  mm x W p c + b (ix1 c)

/-- The self-loop term of node `p`, feature `d`: the affine image scaled by the logistic of its projection on `g`
    plus the scalar `c₀`. -/
def selfLoop {n : Nat} (x : Arr n 128) (W : Arr 128 128) (b : Arr1 128) (g : Arr 128 1) (c₀ : Arr1 1)
    (p : Fin n) (d : Fin 128) : EReal :=
  Ideal.logistic ((∑ k : Fin 128, aff x W b p k * g (ix2 k (0 : Fin 1))) + c₀ (ix1 (0 : Fin 1))) * aff x W b p d

/-- The projection of the twice-transformed row `p` on the gate vector `g`. -/
def proj {n : Nat} (x : Arr n 128) (W : Arr 128 128) (g : Arr 128 1) (p : Fin n) : EReal :=
  ∑ k : Fin 128, mm2 x W p k * g (ix2 k (0 : Fin 1))

/-- The message of an edge with end node `r` and label `l`, feature `d`. -/
def msg {n : Nat} (x : Arr n 128) (W : Arr 128 128) (bl : Arr 5 128) (r : Fin n) (l : Fin 5) (d : Fin 128) : EReal :=
  mm2 x W r d + bl (ix2 l d)

/-- The gate's argument as the reference computes it: the whole message projected on `g`, plus the label's scalar. -/
def gateArg {n : Nat} (x : Arr n 128) (W : Arr 128 128) (bl : Arr 5 128) (g : Arr 128 1) (cl : Arr 5 1)
    (r : Fin n) (l : Fin 5) : EReal :=
  (∑ k : Fin 128, msg x W bl r l k * g (ix2 k (0 : Fin 1))) + cl (ix2 l (0 : Fin 1))

/-- The gated message. -/
def upd {n : Nat} (x : Arr n 128) (W : Arr 128 128) (bl : Arr 5 128) (g : Arr 128 1) (cl : Arr 5 1)
    (r : Fin n) (l : Fin 5) (d : Fin 128) : EReal :=
  Ideal.logistic (gateArg x W bl g cl r l) * msg x W bl r l d

/-- The gate's argument as the kernel computes it: the node's projection, plus the label's projection and scalar. -/
def gateArgSplit {n : Nat} (x : Arr n 128) (W : Arr 128 128) (bl : Arr 5 128) (g : Arr 128 1) (cl : Arr 5 1)
    (r : Fin n) (l : Fin 5) : EReal :=
  proj x W g r + ((∑ k : Fin 128, bl (ix2 l k) * g (ix2 k (0 : Fin 1))) + cl (ix2 l (0 : Fin 1)))

end Cert.Spec

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.KernelIdealPayload.lean ====
import proofs.«139600_j30958124270115_2_alg».proof.Proof.Gen.KernelIdeal.Skeleton
import proofs.«139600_j30958124270115_2_alg».proof.Proof.Spec
import proofs.«139600_j30958124270115_2_alg».proof.Proof.LibPlainDot
import proofs.«139600_j30958124270115_2_alg».proof.Proof.LibColumns
import Idealize.ShloMosaic.Lib.ValueIdx
import Idealize.ShloMosaic.Lib.ValueLayout
import Idealize.ShloMosaic.PureOps.Ideal.Laws

/-!
# The body's arithmetic on one block of rows, entry by entry

On the extended reals a change of float format is the identity and a matrix product into the zero splat is the plain
sum of products, so each value the body stores is, at row `p` of the block, a function of row `p` of the block of node
features and of the whole parameter arrays:

* the twice-transformed row `(x·W)·W` and its projection `((x·W)·W)·g` on a gate vector,
* the affine image `a = x·W + b` (the bias row repeated down the block), its projection plus the scalar, the logistic of
  that repeated along the row, and the product `σ(a·g + c₀) · a`.

The last section says that each of these depends on the block only through its row `p`: this is what lets a block of
2000 rows be read as rows of the whole array.
-/

noncomputable section

namespace Cert.KernelIdeal.Hand

open Cert.KernelIdeal Cert.KernelIdeal.Gen
open Idealize.ShloMosaic Idealize.ShloMosaic.ValueIdx

/-! ## The two dimension records: left index `(i₀, k)`, right index `(k, i₁)` -/

theorem dotA_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dotA_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dotA_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dotA_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem dotB_l0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem dotB_l1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem dotB_r0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem dotB_r1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A block of rows through a 128 × 128 matrix, into the zero splat: at `(p, c)` the sum over `k` of `l (p, k) · r (k, c)`. -/
theorem mmA_apply (l : FVec Ideal S2000x128 .bf16) (r : FVec Ideal S128x128 .bf16) (p : Fin 2000) (c : Fin 128) :
    matmul dot_S2000x128_S128x128_S2000x128_1_0_0_1_n_n none l r (constant (F := Ideal) S2000x128 .f32 0x00000000#32) (ix2 p c)
      = ∑ k : Fin 128, l (ix2 p k) * r (ix2 k c) :=
  Cert.Lib.PlainDot.matmul_zero_ix2 dot_S2000x128_S128x128_S2000x128_1_0_0_1_n_n rfl rfl dotA_l0 dotA_l1 dotA_r0 dotA_r1 none l r p c

/-- A block of rows against a column vector, into the zero splat: at `(p, z)` the sum over `k` of `l (p, k) · r (k, z)`. -/
theorem mmB_apply (l : FVec Ideal S2000x128 .bf16) (r : FVec Ideal S128x1 .bf16) (p : Fin 2000) (z : Fin 1) :
    matmul dot_S2000x128_S128x1_S2000x1_1_0_0_1_n_n none l r (constant (F := Ideal) S2000x1 .f32 0x00000000#32) (ix2 p z)
      = ∑ k : Fin 128, l (ix2 p k) * r (ix2 k z) :=
  Cert.Lib.PlainDot.matmul_zero_ix2 dot_S2000x128_S128x1_S2000x1_1_0_0_1_n_n rfl rfl dotB_l0 dotB_l1 dotB_r0 dotB_r1 none l r p z

/-! ## The stored values at an index of the block -/

/-- The change of format of the block of rows is the identity. -/
theorem pay3_apply (x0 : Vec Ideal S2000x128 .f32) (i : S2000x128.Idx) : k0_pay3 x0 i = x0 i := rfl

/-- The incoming direction's block: row `p` through the matrix twice. -/
theorem pay5_apply (x0 : Vec Ideal S2000x128 .f32) (x5 : Vec Ideal S128x128 .f32) (p : Fin 2000) (q : Fin 128) :
    k0_pay5 x0 x5 (ix2 p q) = Cert.Spec.mm2 x0 x5 p q := by
  unfold k0_pay5
  refine (mmA_apply _ _ p q).trans ?_
  unfold Cert.Spec.mm2
  refine Finset.sum_congr rfl fun k _ => ?_
  refine congrArg (· * _) ?_
  exact mmA_apply _ _ p k

/-- The outgoing direction's block: the same two products, over the block already changed of format. -/
theorem pay1_apply (x0 : Vec Ideal S2000x128 .f32) (x7 : Vec Ideal S128x128 .f32) (p : Fin 2000) (q : Fin 128) :
    k0_pay1 (k0_pay3 x0) x7 (ix2 p q) = Cert.Spec.mm2 x0 x7 p q := by
  unfold k0_pay1
  refine (mmA_apply _ _ p q).trans ?_
  unfold Cert.Spec.mm2
  refine Finset.sum_congr rfl fun k _ => ?_
  refine congrArg (· * _) ?_
  exact mmA_apply _ _ p k

/-- The incoming direction's gate projection: the twice-transformed row against the gate vector. -/
theorem pay6_apply (x0 : Vec Ideal S2000x128 .f32) (x5 : Vec Ideal S128x128 .f32) (x6 : Vec Ideal S128x1 .f32) (p : Fin 2000) :
    k0_pay6 x0 x5 x6 (ix2 p (0 : Fin 1)) = Cert.Spec.proj x0 x5 x6 p := by
  unfold k0_pay6
  refine (mmB_apply _ _ p 0).trans ?_
  unfold Cert.Spec.proj
  refine Finset.sum_congr rfl fun k _ => ?_
  refine congrArg (· * _) ?_
  exact pay5_apply x0 x5 p k

/-- The outgoing direction's gate projection. -/
theorem pay2_apply (x0 : Vec Ideal S2000x128 .f32) (x7 : Vec Ideal S128x128 .f32) (x8 : Vec Ideal S128x1 .f32) (p : Fin 2000) :
    k0_pay2 (k0_pay3 x0) x7 x8 (ix2 p (0 : Fin 1)) = Cert.Spec.proj x0 x7 x8 p := by
  unfold k0_pay2
  refine (mmB_apply _ _ p 0).trans ?_
  unfold Cert.Spec.proj
  refine Finset.sum_congr rfl fun k _ => ?_
  refine congrArg (· * _) ?_
  exact pay1_apply x0 x7 p k

/-- The affine image of the block: the product plus the bias, whose one row (a vector with a unit axis put in front) is
    repeated down the 2000 rows. -/
theorem aff_apply (h1 : FTy.bits .bf16 < FTy.bits .f32) (h2 : S128.ShapeCasts S1x128) (h3 : S1x128.Broadcasts S2000x128)
    (x0 : Vec Ideal S2000x128 .f32) (x1 : Vec Ideal S128x128 .f32) (x2 : Vec Ideal S128 .f32) (p : Fin 2000) (q : Fin 128) :
    addf (matmul dot_S2000x128_S128x128_S2000x128_1_0_0_1_n_n none (k0_pay3 x0) (truncf .bf16 x1 h1) (constant (F := Ideal) S2000x128 .f32 0x00000000#32))
        (broadcastTo S2000x128 (shapeCast S1x128 x2 h2) h3) (ix2 p q)
      = Cert.Spec.aff x0 x1 x2 p q := by
  unfold Cert.Spec.aff Cert.Spec.mm
  refine congrArg₂ (· + ·) (mmA_apply _ _ p q) ?_
  refine (broadcastTo_1b_ab_apply _ h3 p q).trans ?_
  exact shapeCast_a_1a_apply x2 h2 0 q

/-- The self-loop block: the logistic of the affine row's projection plus the scalar (one value per row, repeated along
    the row), times the affine row. -/
theorem pay4_apply (x0 : Vec Ideal S2000x128 .f32) (x1 : Vec Ideal S128x128 .f32) (x2 : Vec Ideal S128 .f32)
    (x3 : Vec Ideal S128x1 .f32) (x4 : Vec Ideal S1 .f32) (p : Fin 2000) (q : Fin 128) :
    k0_pay4 x0 x1 x2 x3 x4 (ix2 p q) = Cert.Spec.selfLoop x0 x1 x2 x3 x4 p q := by
  unfold k0_pay4 Cert.Spec.selfLoop
  refine (mulf_apply _ _ _).trans ?_
  refine congrArg₂ (· * ·) ?_ (aff_apply _ _ _ x0 x1 x2 p q)
  refine (Cert.Lib.Columns.broadcastTo_a1_ab_apply _ _ p q).trans ?_
  refine congrArg Ideal.logistic ?_
  refine congrArg₂ (· + ·) ?_ ?_
  · refine (mmB_apply _ _ p 0).trans ?_
    refine Finset.sum_congr rfl fun k _ => ?_
    exact congrArg (· * _) (aff_apply _ _ _ x0 x1 x2 p k)
  · refine (broadcastTo_1b_ab_apply _ _ p 0).trans ?_
    exact shapeCast_a_1a_apply x4 _ 0 0

/-! ## Each value depends on the block only through its row -/

section rows

open Cert.Spec

variable {n n' : Nat} (x : Arr n 128) (x' : Arr n' 128) (W : Arr 128 128) (p : Fin n) (p' : Fin n')
  (h : ∀ k : Fin 128, x (ix2 p k) = x' (ix2 p' k))

include h

theorem mm_row (c : Fin 128) : mm x W p c = mm x' W p' c := by
  unfold mm
  exact Finset.sum_congr rfl fun k _ => congrArg (· * _) (h k)

theorem mm2_row (c : Fin 128) : mm2 x W p c = mm2 x' W p' c := by
  unfold mm2
  exact Finset.sum_congr rfl fun k _ => congrArg (· * _) (mm_row x x' W p p' h k)

theorem proj_row (g : Arr 128 1) : proj x W g p = proj x' W g p' := by
  unfold proj
  exact Finset.sum_congr rfl fun k _ => congrArg (· * _) (mm2_row x x' W p p' h k)

theorem aff_row (b : Arr1 128) (c : Fin 128) : aff x W b p c = aff x' W b p' c := by
  unfold aff
  exact congrArg (· + _) (mm_row x x' W p p' h c)

theorem selfLoop_row (b : Arr1 128) (g : Arr 128 1) (c₀ : Arr1 1) (d : Fin 128) :
    selfLoop x W b g c₀ p d = selfLoop x' W b g c₀ p' d := by
  unfold selfLoop
  refine congrArg₂ (· * ·) (congrArg Ideal.logistic (congrArg (· + _) ?_)) (aff_row x x' W p p' h b d)
  exact Finset.sum_congr rfl fun k _ => congrArg (· * _) (aff_row x x' W p p' h b k)

end rows

end Cert.KernelIdeal.Hand

end
-- ==== Proof.KernelIdealValue.lean ====
import proofs.«139600_j30958124270115_2_alg».proof.Proof.KernelIdealData
import proofs.«139600_j30958124270115_2_alg».proof.Proof.KernelIdealPayload
import proofs.«139600_j30958124270115_2_alg».proof.Proof.Spec
import proofs.«139600_j30958124270115_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The five arrays the region leaves, entry by entry

The region runs over 25 points; point `t` reads rows `2000 t … 2000 t + 1999` of the node features and the eight
parameter arrays whole, and writes rows `2000 t … 2000 t + 1999` of each of its five outputs. Every stored row is a
function of the one input row of the same number, so each output array is ONE function of the arrays the region
found, row by row:

* window 9: the self-loop term `σ(a·g + c₀)·a` with `a = x·W + b`,
* windows 10 and 11: `(x·W₁)·W₁` and `(x·W₂)·W₂`,
* windows 12 and 13: their projections on the gate vectors `g₁` and `g₂`.

For each window: that function; what a point writes back is its block of it; the blocks tile the array (row `r` is in
block `r / 2000`); hence the array after the last point, and its entry at `(n, d)`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The zero offsets of a whole-buffer rectangle, in the spelling the library's whole-rectangle lemmas take. -/
theorem hz2 : (![0, 0] : Fin 2 → Nat) = fun _ => 0 := funext fun a => by fin_cases a <;> rfl
theorem hz1 : (![0] : Fin 1 → Nat) = fun _ => 0 := funext fun a => by fin_cases a <;> rfl

/-! ## The index maps over the 25 points -/

/-- The node features' window and the five output windows are at block `(t, 0)` at point `t`. -/
theorem idx_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The eight parameter windows are at block 0 at every point. -/
theorem idx_whole : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The input blocks read as parts of their arrays

A block's element sits in its array, on each axis, at the block index times the block's size plus its own coordinate. -/

/-- Row `p` of the block of node features at point `t` is row `2000 t + p` of the array. -/
theorem iblk0_apply (c : Dev nD) (t : Fin cfg0.N) (p : Fin 2000) (k : Fin 128) (n : Fin 50000) (hn : n.val = 2000 * t.val + p.val) :
    (iblk m c 0 t : Vec Ideal S2000x128 .f32) (ix2 p k) = (V m c main_arg0 : Cert.Spec.Arr 50000 128) (ix2 n k) := by
  obtain ⟨e0, e1, -⟩ := idx_rows t
  unfold iblk
  rw [View.read_apply]
  show V m c main_arg0 _ = V m c main_arg0 _
  refine congrArg (V m c main_arg0) ?_
  funext a; apply Fin.ext
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- Window 1 stages the self-loop weight matrix whole: its one block, at every point, is the array. -/
theorem iblk1_eq (c : Dev nD) (t : Fin cfg0.N) : (iblk m c 1 t : Vec Ideal S128x128 .f32) = V m c main_arg3 := by
  obtain ⟨e0, e1, -, -, -, -, -, -, -, -, -, -, -, -⟩ := idx_whole t
  unfold iblk
  funext y
  rw [View.read_apply]
  show V m c main_arg3 _ = V m c main_arg3 y
  refine congrArg (V m c main_arg3) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2 stages the self-loop bias whole: its one block, at every point, is the array. -/
theorem iblk2_eq (c : Dev nD) (t : Fin cfg0.N) : (iblk m c 2 t : Vec Ideal S128 .f32) = V m c main_arg4 := by
  obtain ⟨-, -, e0, -, -, -, -, -, -, -, -, -, -, -⟩ := idx_whole t
  unfold iblk
  funext y
  rw [View.read_apply]
  show V m c main_arg4 _ = V m c main_arg4 y
  refine congrArg (V m c main_arg4) ?_
  funext a; apply Fin.ext
  match a with
  | ⟨0, _⟩ => show win0_2.index t (0 : Fin 1) * 128 + 1 * (y 0).val = (y 0).val; rw [e0]; omega

/-- Window 3 stages the self-loop gate vector whole: its one block, at every point, is the array. -/
theorem iblk3_eq (c : Dev nD) (t : Fin cfg0.N) : (iblk m c 3 t : Vec Ideal S128x1 .f32) = V m c main_arg5 := by
  obtain ⟨-, -, -, e0, e1, -, -, -, -, -, -, -, -, -⟩ := idx_whole t
  unfold iblk
  funext y
  rw [View.read_apply]
  show V m c main_arg5 _ = V m c main_arg5 y
  refine congrArg (V m c main_arg5) ?_
  funext a; apply Fin.ext
  match a with
  | ⟨0, _⟩ => show win0_3.index t (0 : Fin 2) * 128 + 1 * (y 0).val = (y 0).val; rw [e0]; omega
  | ⟨1, _⟩ => show win0_3.index t (1 : Fin 2) * 1 + 1 * (y 1).val = (y 1).val; rw [e1]; omega

/-- Window 4 stages the self-loop gate scalar whole: its one block, at every point, is the array. -/
theorem iblk4_eq (c : Dev nD) (t : Fin cfg0.N) : (iblk m c 4 t : Vec Ideal S1 .f32) = V m c main_arg6 := by
  obtain ⟨-, -, -, -, -, e0, -, -, -, -, -, -, -, -⟩ := idx_whole t
  unfold iblk
  funext y
  rw [View.read_apply]
  show V m c main_arg6 _ = V m c main_arg6 y
  refine congrArg (V m c main_arg6) ?_
  funext a; apply Fin.ext
  match a with
  | ⟨0, _⟩ => show win0_4.index t (0 : Fin 1) * 1 + 1 * (y 0).val = (y 0).val; rw [e0]; omega

/-- Window 5 stages the incoming direction's weight matrix whole: its one block, at every point, is the array. -/
theorem iblk5_eq (c : Dev nD) (t : Fin cfg0.N) : (iblk m c 5 t : Vec Ideal S128x128 .f32) = V m c main_arg7 := by
  obtain ⟨-, -, -, -, -, -, e0, e1, -, -, -, -, -, -⟩ := idx_whole t
  unfold iblk
  funext y
  rw [View.read_apply]
  show V m c main_arg7 _ = V m c main_arg7 y
  refine congrArg (V m c main_arg7) ?_
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6 stages the incoming direction's gate vector whole: its one block, at every point, is the array. -/
theorem iblk6_eq (c : Dev nD) (t : Fin cfg0.N) : (iblk m c 6 t : Vec Ideal S128x1 .f32) = V m c main_arg9 := by
  obtain ⟨-, -, -, -, -, -, -, -, e0, e1, -, -, -, -⟩ := idx_whole t
  unfold iblk
  funext y
  rw [View.read_apply]
  show V m c main_arg9 _ = V m c main_arg9 y
  refine congrArg (V m c main_arg9) ?_
  funext a; apply Fin.ext
  match a with
  | ⟨0, _⟩ => show win0_6.index t (0 : Fin 2) * 128 + 1 * (y 0).val = (y 0).val; rw [e0]; omega
  | ⟨1, _⟩ => show win0_6.index t (1 : Fin 2) * 1 + 1 * (y 1).val = (y 1).val; rw [e1]; omega

/-- Window 7 stages the outgoing direction's weight matrix whole: its one block, at every point, is the array. -/
theorem iblk7_eq (c : Dev nD) (t : Fin cfg0.N) : (iblk m c 7 t : Vec Ideal S128x128 .f32) = V m c main_arg11 := by
  obtain ⟨-, -, -, -, -, -, -, -, -, -, e0, e1, -, -⟩ := idx_whole t
  unfold iblk
  funext y
  rw [View.read_apply]
  show V m c main_arg11 _ = V m c main_arg11 y
  refine congrArg (V m c main_arg11) ?_
  funext a; apply Fin.ext
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8 stages the outgoing direction's gate vector whole: its one block, at every point, is the array. -/
theorem iblk8_eq (c : Dev nD) (t : Fin cfg0.N) : (iblk m c 8 t : Vec Ideal S128x1 .f32) = V m c main_arg13 := by
  obtain ⟨-, -, -, -, -, -, -, -, -, -, -, -, e0, e1⟩ := idx_whole t
  unfold iblk
  funext y
  rw [View.read_apply]
  show V m c main_arg13 _ = V m c main_arg13 y
  refine congrArg (V m c main_arg13) ?_
  funext a; apply Fin.ext
  match a with
  | ⟨0, _⟩ => show win0_8.index t (0 : Fin 2) * 128 + 1 * (y 0).val = (y 0).val; rw [e0]; omega
  | ⟨1, _⟩ => show win0_8.index t (1 : Fin 2) * 1 + 1 * (y 1).val = (y 1).val; rw [e1]; omega

/-! ## The incoming direction's array (window 10) -/

/-- What the array ends holding: the incoming direction: every row of the node features through the incoming weight matrix twice. -/
def G10 (c : Dev nD) : S50000x128.Idx → EReal := fun i =>
  Cert.Spec.mm2 (V m c main_arg0) (V m c main_arg7) ⟨(i 0).val, idx2_lt0 i⟩ ⟨(i 1).val, idx2_lt1 i⟩

/-- What point `t` writes back is block `t` of that array: row `p` of the block is computed from row `p` of the block of node
    features, which is row `2000 t + p` of the whole array, and the parameter arrays are staged whole. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz2]
  simp only [View.ld_unit_zero (S := S2000x128) hz2, View.ld_unit_zero (S := S128x128) hz2]
  obtain ⟨-, -, -, -, e0, e1, -, -, -, -, -, -⟩ := idx_rows t
  have hN : t.val < 25 := Nat.lt_of_lt_of_eq t.isLt N_0
  funext j
  obtain ⟨p, q, rfl⟩ : ∃ (p : Fin 2000) (q : Fin 128), j = ix2 p q := ⟨j 0, j 1, eq_ix2 j⟩
  show k0_pay5 (iblk m c 0 t) (iblk m c 5 t) (ix2 p q) = G10 m c (((cfg0.win 10).blk t).view.emb (ix2 p q))
  rw [iblk5_eq]
  refine (pay5_apply _ _ p q).trans ?_
  have hp := p.isLt
  refine (mm2_row (iblk m c 0 t) (V m c main_arg0) _ p ⟨2000 * t.val + p.val, by omega⟩ (fun k => iblk0_apply m c t p k _ rfl) q).trans ?_
  unfold G10
  refine congrArg₂ (Cert.Spec.mm2 (V m c main_arg0) (V m c main_arg7)) (Fin.ext ?_) (Fin.ext ?_)
  · show 2000 * t.val + p.val = win0_10.index t (0 : Fin 2) * 2000 + 1 * p.val; rw [e0]; omega
  · show q.val = win0_10.index t (1 : Fin 2) * 128 + 1 * q.val; rw [e1]; omega

/-- An index of the array is in point `t`'s block iff each coordinate is in the block's range on its axis. -/
theorem mem_blk10 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v4_1).slice (win0_10.rect t)).set ↔ _
  rw [View.set_slice_whole, Rect.mem_set_unit]
  exact Iff.rfl

/-- The 25 blocks of 2000 rows tile the 50000 rows: row `r` lies in the block of point `r / 2000`. -/
theorem cover10 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_10 _, ?_⟩
  obtain ⟨-, -, -, -, e0, e1, -, -, -, -, -, -⟩ := idx_rows ⟨(i 0).val / 2000, by rw [hN]; omega⟩
  rw [mem_blk10]
  intro a
  match a with
  | ⟨0, _⟩ => show win0_10.index _ (0 : Fin 2) * 2000 ≤ (i 0).val ∧ (i 0).val < win0_10.index _ (0 : Fin 2) * 2000 + 2000; rw [e0]; show (i 0).val / 2000 * 2000 ≤ (i 0).val ∧ (i 0).val < (i 0).val / 2000 * 2000 + 2000; omega
  | ⟨1, _⟩ => show win0_10.index _ (1 : Fin 2) * 128 ≤ (i 1).val ∧ (i 1).val < win0_10.index _ (1 : Fin 2) * 128 + 128; rw [e1]; omega

/-- So after the last point the array is that function of the arrays the region found. -/
theorem arr10 (c : Dev nD) : (dats m 0 c).arrAt 10 cfg0.N = G10 m c :=
  (dats m 0 c).arrAt_eq_of_cover 10 (G10 m c) (fun t _ => flushed10_eq m c t) cover10

theorem final10 (c : Dev nD) (n : Fin 50000) (d : Fin 128) : (dats (F := Ideal) m 0 c).arrAt 10 cfg0.N (ix2 n d)
    = Cert.Spec.mm2 (V m c main_arg0) (V m c main_arg7) n d := by
  rw [arr10]
  rfl

/-! ## The outgoing direction's array (window 11) -/

/-- What the array ends holding: the outgoing direction: every row of the node features through the outgoing weight matrix twice. -/
def G11 (c : Dev nD) : S50000x128.Idx → EReal := fun i =>
  Cert.Spec.mm2 (V m c main_arg0) (V m c main_arg11) ⟨(i 0).val, idx2_lt0 i⟩ ⟨(i 1).val, idx2_lt1 i⟩

/-- What point `t` writes back is block `t` of that array: row `p` of the block is computed from row `p` of the block of node
    features, which is row `2000 t + p` of the whole array, and the parameter arrays are staged whole. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold out0_11
  rw [View.canon_unit_zero hz2]
  simp only [View.ld_unit_zero (S := S2000x128) hz2, View.ld_unit_zero (S := S128x128) hz2]
  obtain ⟨-, -, -, -, -, -, e0, e1, -, -, -, -⟩ := idx_rows t
  have hN : t.val < 25 := Nat.lt_of_lt_of_eq t.isLt N_0
  funext j
  obtain ⟨p, q, rfl⟩ : ∃ (p : Fin 2000) (q : Fin 128), j = ix2 p q := ⟨j 0, j 1, eq_ix2 j⟩
  show k0_pay1 (k0_pay3 (iblk m c 0 t)) (iblk m c 7 t) (ix2 p q) = G11 m c (((cfg0.win 11).blk t).view.emb (ix2 p q))
  rw [iblk7_eq]
  refine (pay1_apply _ _ p q).trans ?_
  have hp := p.isLt
  refine (mm2_row (iblk m c 0 t) (V m c main_arg0) _ p ⟨2000 * t.val + p.val, by omega⟩ (fun k => iblk0_apply m c t p k _ rfl) q).trans ?_
  unfold G11
  refine congrArg₂ (Cert.Spec.mm2 (V m c main_arg0) (V m c main_arg11)) (Fin.ext ?_) (Fin.ext ?_)
  · show 2000 * t.val + p.val = win0_11.index t (0 : Fin 2) * 2000 + 1 * p.val; rw [e0]; omega
  · show q.val = win0_11.index t (1 : Fin 2) * 128 + 1 * q.val; rw [e1]; omega

/-- An index of the array is in point `t`'s block iff each coordinate is in the block's range on its axis. -/
theorem mem_blk11 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v4_2).slice (win0_11.rect t)).set ↔ _
  rw [View.set_slice_whole, Rect.mem_set_unit]
  exact Iff.rfl

/-- The 25 blocks of 2000 rows tile the 50000 rows: row `r` lies in the block of point `r / 2000`. -/
theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_11 _, ?_⟩
  obtain ⟨-, -, -, -, -, -, e0, e1, -, -, -, -⟩ := idx_rows ⟨(i 0).val / 2000, by rw [hN]; omega⟩
  rw [mem_blk11]
  intro a
  match a with
  | ⟨0, _⟩ => show win0_11.index _ (0 : Fin 2) * 2000 ≤ (i 0).val ∧ (i 0).val < win0_11.index _ (0 : Fin 2) * 2000 + 2000; rw [e0]; show (i 0).val / 2000 * 2000 ≤ (i 0).val ∧ (i 0).val < (i 0).val / 2000 * 2000 + 2000; omega
  | ⟨1, _⟩ => show win0_11.index _ (1 : Fin 2) * 128 ≤ (i 1).val ∧ (i 1).val < win0_11.index _ (1 : Fin 2) * 128 + 128; rw [e1]; omega

/-- So after the last point the array is that function of the arrays the region found. -/
theorem arr11 (c : Dev nD) : (dats m 0 c).arrAt 11 cfg0.N = G11 m c :=
  (dats m 0 c).arrAt_eq_of_cover 11 (G11 m c) (fun t _ => flushed11_eq m c t) cover11

theorem final11 (c : Dev nD) (n : Fin 50000) (d : Fin 128) : (dats (F := Ideal) m 0 c).arrAt 11 cfg0.N (ix2 n d)
    = Cert.Spec.mm2 (V m c main_arg0) (V m c main_arg11) n d := by
  rw [arr11]
  rfl

/-! ## The incoming direction's gate projections (window 12) -/

/-- What the array ends holding: the incoming direction's gate projections: every twice-transformed row against the incoming gate vector. -/
def G12 (c : Dev nD) : S50000x1.Idx → EReal := fun i =>
  Cert.Spec.proj (V m c main_arg0) (V m c main_arg7) (V m c main_arg9) ⟨(i 0).val, idx2_lt0 i⟩

/-- What point `t` writes back is block `t` of that array: row `p` of the block is computed from row `p` of the block of node
    features, which is row `2000 t + p` of the whole array, and the parameter arrays are staged whole. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz2]
  simp only [View.ld_unit_zero (S := S2000x128) hz2, View.ld_unit_zero (S := S128x128) hz2, View.ld_unit_zero (S := S128x1) hz2]
  obtain ⟨-, -, -, -, -, -, -, -, e0, e1, -, -⟩ := idx_rows t
  have hN : t.val < 25 := Nat.lt_of_lt_of_eq t.isLt N_0
  funext j
  have hj : j = ix2 (j 0) (0 : Fin 1) := by
    have h1 := idx2_lt1 j
    refine (eq_ix2 j).trans ?_
    refine congrArg (ix2 (j 0)) (Fin.ext ?_)
    show (j 1).val = 0; omega
  obtain ⟨p, rfl⟩ : ∃ p : Fin 2000, j = ix2 p (0 : Fin 1) := ⟨j 0, hj⟩
  show k0_pay6 (iblk m c 0 t) (iblk m c 5 t) (iblk m c 6 t) (ix2 p (0 : Fin 1)) = G12 m c (((cfg0.win 12).blk t).view.emb (ix2 p (0 : Fin 1)))
  rw [iblk5_eq, iblk6_eq]
  refine (pay6_apply _ _ _ p).trans ?_
  have hp := p.isLt
  refine (proj_row (iblk m c 0 t) (V m c main_arg0) _ p ⟨2000 * t.val + p.val, by omega⟩ (fun k => iblk0_apply m c t p k _ rfl) _).trans ?_
  unfold G12
  refine congrArg (Cert.Spec.proj (V m c main_arg0) (V m c main_arg7) (V m c main_arg9)) (Fin.ext ?_)
  show 2000 * t.val + p.val = win0_12.index t (0 : Fin 2) * 2000 + 1 * p.val; rw [e0]; omega

/-- An index of the array is in point `t`'s block iff each coordinate is in the block's range on its axis. -/
theorem mem_blk12 (t : Fin cfg0.N) (i : S50000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v4_3).slice (win0_12.rect t)).set ↔ _
  rw [View.set_slice_whole, Rect.mem_set_unit]
  exact Iff.rfl

/-- The 25 blocks of 2000 rows tile the 50000 rows: row `r` lies in the block of point `r / 2000`. -/
theorem cover12 (i : S50000x1.Idx) : ∃ t : Fin cfg0.N, (cfg0.win 12).flush t = true ∧ i ∈ ((cfg0.win 12).blk t).view.set := by
  have hi0 : (i 0).val < 50000 := (i 0).isLt
  have hi1 : (i 1).val < 1 := (i 1).isLt
  have hN : cfg0.N = 25 := N_0
  refine ⟨⟨(i 0).val / 2000, by rw [hN]; omega⟩, flush0_12 _, ?_⟩
  obtain ⟨-, -, -, -, -, -, -, -, e0, e1, -, -⟩ := idx_rows ⟨(i 0).val / 2000, by rw [hN]; omega⟩
  rw [mem_blk12]
  intro a
  match a with
  | ⟨0, _⟩ => show win0_12.index _ (0 : Fin 2) * 2000 ≤ (i 0).val ∧ (i 0).val < win0_12.index _ (0 : Fin 2) * 2000 + 2000; rw [e0]; show (i 0).val / 2000 * 2000 ≤ (i 0).val ∧ (i 0).val < (i 0).val / 2000 * 2000 + 2000; omega
  | ⟨1, _⟩ => show win0_12.index _ (1 : Fin 2) * 1 ≤ (i 1).val ∧ (i 1).val < win0_12.index _ (1 : Fin 2) * 1 + 1; rw [e1]; omega

/-- So after the last point the array is that function of the arrays the region found. -/
theorem arr12 (c : Dev nD) : (dats m 0 c).arrAt 12 cfg0.N = G12 m c :=
  (dats m 0 c).arrAt_eq_of_cover 12 (G12 m c) (fun t _ => flushed12_eq m c t) cover12

theorem final12 (c : Dev nD) (n : Fin 50000) : (dats (F := Ideal) m 0 c).arrAt 12 cfg0.N (ix2 n (0 : Fin 1))
    = Cert.Spec.proj (V m c main_arg0) (V m c main_arg7) (V m c main_arg9) n := by
  rw [arr12]
  rfl

/-! ## The outgoing direction's gate projections (window 13) -/

/-- What the array ends holding: the outgoing direction's gate projections. -/
def G13 (c : Dev nD) : S50000x1.Idx → EReal := fun i =>
  Cert.Spec.proj (V m c main_arg0) (V m c main_arg11) (V m c main_arg13) ⟨(i 0).val, idx2_lt0 i⟩

/-- What point `t` writes back is block `t` of that array: row `p` of the block is computed from row `p` of the block of node
    features, which is row `2000 t + p` of the whole array, and the parameter arrays are staged whole. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz2]
  simp only [View.ld_unit_zero (S := S2000x128) hz2, View.ld_unit_zero (S := S128x128) hz2, View.ld_unit_zero (S := S128x1) hz2]
  obtain ⟨-, -, -, -, -, -, -, -, -, -, e0, e1⟩ := idx_rows t
  have hN : t.val < 25 := Nat.lt_of_lt_of_eq t.isLt N_0
  funext j
  have hj : j = ix2 (j 0) (0 : Fin 1) := by
    have h1 := idx2_lt1 j
    refine (eq_ix2 j).trans ?_
    refine congrArg (ix2 (j 0)) (Fin.ext ?_)
    show (j 1).val = 0; omega
  obtain ⟨p, rfl⟩ : ∃ p : Fin 2000, j = ix2 p (0 : Fin 1) := ⟨j 0, hj⟩
  show k0_pay2 (k0_pay3 (iblk m c 0 t)) (iblk m c 7 t) (iblk m c 8 t) (ix2 p (0 : Fin 1)) = G13 m c (((cfg0.win 13).blk t).view.emb (ix2 p (0 : Fin 1)))
  rw [iblk7_eq, iblk8_eq]
  refine (pay2_apply _ _ _ p).trans ?_
  have hp := p.isLt
  refine (proj_row (iblk m c 0 t) (V m c main_arg0) _ p ⟨2000 * t.val + p.val, by omega⟩ (fun k => iblk0_apply m c t p k _ rfl) _).trans ?_
  unfold G13
  refine congrArg (Cert.Spec.proj (V m c main_arg0) (V m c main_arg11) (V m c main_arg13)) (Fin.ext ?_)
  show 2000 * t.val + p.val = win0_13.index t (0 : Fin 2) * 2000 + 1 * p.val; rw [e0]; omega

/-- An index of the array is in point `t`'s block iff each coordinate is in the block's range on its axis. -/
theorem mem_blk13 (t : Fin cfg0.N) (i : S50000x1.Idx) :
    i ∈ ((cfg0.win 13).blk t).view.set ↔ ∀ a : Fin 2, win0_13.index t a * S2000x1.size a ≤ (i a).val ∧ (i a).val < win0_13.index t a * S2000x1.size a + S2000x1.size a := by
  show i ∈ ((View.whole main_v4_4).slice (win0_13.rect t)).set ↔ _
  rw [View.set_slice_whole, Rect.mem_set_unit]
  exact Iff.rfl

/-- The 25 blocks of 2000 rows tile the 50000 rows: row `r` lies in the block of point `r / 2000`. -/
theorem cover13 (i : S50000x1.Idx) : ∃ t : Fin cfg0.N, (cfg0.win 13).flush t = true ∧ i ∈ ((cfg0.win 13).blk t).view.set := by
  have hi0 : (i 0).val < 50000 := (i 0).isLt
  have hi1 : (i 1).val < 1 := (i 1).isLt
  have hN : cfg0.N = 25 := N_0
  refine ⟨⟨(i 0).val / 2000, by rw [hN]; omega⟩, flush0_13 _, ?_⟩
  obtain ⟨-, -, -, -, -, -, -, -, -, -, e0, e1⟩ := idx_rows ⟨(i 0).val / 2000, by rw [hN]; omega⟩
  rw [mem_blk13]
  intro a
  match a with
  | ⟨0, _⟩ => show win0_13.index _ (0 : Fin 2) * 2000 ≤ (i 0).val ∧ (i 0).val < win0_13.index _ (0 : Fin 2) * 2000 + 2000; rw [e0]; show (i 0).val / 2000 * 2000 ≤ (i 0).val ∧ (i 0).val < (i 0).val / 2000 * 2000 + 2000; omega
  | ⟨1, _⟩ => show win0_13.index _ (1 : Fin 2) * 1 ≤ (i 1).val ∧ (i 1).val < win0_13.index _ (1 : Fin 2) * 1 + 1; rw [e1]; omega

/-- So after the last point the array is that function of the arrays the region found. -/
theorem arr13 (c : Dev nD) : (dats m 0 c).arrAt 13 cfg0.N = G13 m c :=
  (dats m 0 c).arrAt_eq_of_cover 13 (G13 m c) (fun t _ => flushed13_eq m c t) cover13

theorem final13 (c : Dev nD) (n : Fin 50000) : (dats (F := Ideal) m 0 c).arrAt 13 cfg0.N (ix2 n (0 : Fin 1))
    = Cert.Spec.proj (V m c main_arg0) (V m c main_arg11) (V m c main_arg13) n := by
  rw [arr13]
  rfl

/-! ## The self-loop array (window 9) -/

/-- What the array ends holding: the self-loop term of every node. -/
def G9 (c : Dev nD) : S50000x128.Idx → EReal := fun i =>
  Cert.Spec.selfLoop (V m c main_arg0) (V m c main_arg3) (V m c main_arg4) (V m c main_arg5) (V m c main_arg6) ⟨(i 0).val, idx2_lt0 i⟩ ⟨(i 1).val, idx2_lt1 i⟩

/-- What point `t` writes back is block `t` of that array: row `p` of the block is computed from row `p` of the block of node
    features, which is row `2000 t + p` of the whole array, and the parameter arrays are staged whole. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz2]
  simp only [View.ld_unit_zero (S := S2000x128) hz2, View.ld_unit_zero (S := S128x128) hz2, View.ld_unit_zero (S := S128) hz1, View.ld_unit_zero (S := S128x1) hz2, View.ld_unit_zero (S := S1) hz1]
  obtain ⟨-, -, e0, e1, -, -, -, -, -, -, -, -⟩ := idx_rows t
  have hN : t.val < 25 := Nat.lt_of_lt_of_eq t.isLt N_0
  funext j
  obtain ⟨p, q, rfl⟩ : ∃ (p : Fin 2000) (q : Fin 128), j = ix2 p q := ⟨j 0, j 1, eq_ix2 j⟩
  show k0_pay4 (iblk m c 0 t) (iblk m c 1 t) (iblk m c 2 t) (iblk m c 3 t) (iblk m c 4 t) (ix2 p q) = G9 m c (((cfg0.win 9).blk t).view.emb (ix2 p q))
  rw [iblk1_eq, iblk2_eq, iblk3_eq, iblk4_eq]
  refine (pay4_apply _ _ _ _ _ p q).trans ?_
  have hp := p.isLt
  refine (selfLoop_row (iblk m c 0 t) (V m c main_arg0) _ p ⟨2000 * t.val + p.val, by omega⟩ (fun k => iblk0_apply m c t p k _ rfl) _ _ _ q).trans ?_
  unfold G9
  refine congrArg₂ (Cert.Spec.selfLoop (V m c main_arg0) (V m c main_arg3) (V m c main_arg4) (V m c main_arg5) (V m c main_arg6)) (Fin.ext ?_) (Fin.ext ?_)
  · show 2000 * t.val + p.val = win0_9.index t (0 : Fin 2) * 2000 + 1 * p.val; rw [e0]; omega
  · show q.val = win0_9.index t (1 : Fin 2) * 128 + 1 * q.val; rw [e1]; omega

/-- An index of the array is in point `t`'s block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v4_0).slice (win0_9.rect t)).set ↔ _
  rw [View.set_slice_whole, Rect.mem_set_unit]
  exact Iff.rfl

/-- The 25 blocks of 2000 rows tile the 50000 rows: row `r` lies in the block of point `r / 2000`. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_9 _, ?_⟩
  obtain ⟨-, -, e0, e1, -, -, -, -, -, -, -, -⟩ := idx_rows ⟨(i 0).val / 2000, by rw [hN]; omega⟩
  rw [mem_blk9]
  intro a
  match a with
  | ⟨0, _⟩ => show win0_9.index _ (0 : Fin 2) * 2000 ≤ (i 0).val ∧ (i 0).val < win0_9.index _ (0 : Fin 2) * 2000 + 2000; rw [e0]; show (i 0).val / 2000 * 2000 ≤ (i 0).val ∧ (i 0).val < (i 0).val / 2000 * 2000 + 2000; omega
  | ⟨1, _⟩ => show win0_9.index _ (1 : Fin 2) * 128 ≤ (i 1).val ∧ (i 1).val < win0_9.index _ (1 : Fin 2) * 128 + 128; rw [e1]; omega

/-- So after the last point the array is that function of the arrays the region found. -/
theorem arr9 (c : Dev nD) : (dats m 0 c).arrAt 9 cfg0.N = G9 m c :=
  (dats m 0 c).arrAt_eq_of_cover 9 (G9 m c) (fun t _ => flushed9_eq m c t) cover9

theorem final9 (c : Dev nD) (n : Fin 50000) (d : Fin 128) : (dats (F := Ideal) m 0 c).arrAt 9 cfg0.N (ix2 n d)
    = Cert.Spec.selfLoop (V m c main_arg0) (V m c main_arg3) (V m c main_arg4) (V m c main_arg5) (V m c main_arg6) n d := by
  rw [arr9]
  rfl

end Cert.KernelIdeal.Hand

end
-- ==== Proof.KernelIdealTailDefs.lean ====
import proofs.«139600_j30958124270115_2_alg».proof.Proof.KernelIdealData
import Idealize.ShloMosaic.Lib.StableHlo.Run

/-!
# The edge stage after the region

After the region the program computes, for each direction, the per-label scalar `c = b·g + bg`, then per edge:
the message `h[node] + b[label]`, the gate `σ(G[node] + c[label])`, their product, and scatter-adds the products
by the other end node into zeros; it sums the self-loop array with the two aggregates and rectifies.

Node and label indices are first wrapped (`i < 0 ? i + n : i`); a row gather takes the wrapped index as a
one-column array, an entry gather of a one-column matrix takes the pair (wrapped index, 0).

This module names those stages.
-/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F]

/-! ## The stages -/

/-- `i < 0 ? i + n : i`, entry by entry. -/
def wrapIdx (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v

/-- An index vector as a one-column array. -/
def colIdx (v : IVec S600000 32) : IVec S600000x1 32 := broadcastInDim S600000x1 ![0] bcast_S600000_S600000x1_0 v

/-- An index vector paired with the constant column 0. -/
def pairIdx0 (v : IVec S600000 32) : IVec S600000x2 32 :=
  concatenate S600000x2 1 [⟨S600000x1, colIdx v⟩,
    ⟨S600000x1, colIdx (id (broadcastInDim S600000 ![] bcast_S_S600000 (constantI S_ 32 0#32)))⟩]
    concatenates_S600000x1_S600000x1_S600000x2_d1

/-- The per-label scalar `b·g + bg`. -/
def labelScalar (bl : FVec F S5x128 .f32) (g : FVec F S128x1 .f32) (bg : FVec F S5x1 .f32) : FVec F S5x1 .f32 :=
  addf (Host.dotGeneral dot_S5x128_S128x1_S5x1_1_0_0_1_n_n none bl g) bg

/-- The messages: the node's row plus the label's row. -/
def edgeMsg (H : FVec F S50000x128 .f32) (node lab : IVec S600000 32) (bl : FVec F S5x128 .f32) : FVec F S600000x128 .f32 :=
  addf (Host.gather gather_S50000x128_S600000x1_S600000x128_1_0_n_n_0_1_1128 H (colIdx (wrapIdx 50000#32 node)))
    (Host.gather gather_S5x128_S600000x1_S600000x128_1_0_n_n_0_1_1128 bl (colIdx (wrapIdx 5#32 lab)))

/-- The gates: the logistic, spelt `1 / (1 + e^(−z))`, of the node's projection plus the label's scalar. -/
def edgeGate (G : FVec F S50000x1 .f32) (node lab : IVec S600000 32) (C : FVec F S5x1 .f32) : FVec F S600000 .f32 :=
  Host.divf (broadcastInDim S600000 ![] bcast_S_S600000 (constant S_ .f32 0x3F800000#32))
    (addf (broadcastInDim S600000 ![] bcast_S_S600000 (constant S_ .f32 0x3F800000#32))
      (Host.exp (Host.negf (addf
        (Host.gather gather_S50000x1_S600000x2_S600000_n_01_n_n_01_1_11 G (pairIdx0 (wrapIdx 50000#32 node)))
        (Host.gather gather_S5x1_S600000x2_S600000_n_01_n_n_01_1_11 C (pairIdx0 (wrapIdx 5#32 lab)))))))

/-- The gated messages. -/
def edgeUpd (H : FVec F S50000x128 .f32) (G : FVec F S50000x1 .f32) (node lab : IVec S600000 32)
    (bl : FVec F S5x128 .f32) (C : FVec F S5x1 .f32) : FVec F S600000x128 .f32 :=
  mulf (broadcastInDim S600000x128 ![0, 1] bcast_S600000x1_S600000x128_0_1
      (broadcastInDim S600000x1 ![0] bcast_S600000_S600000x1_0 (edgeGate G node lab C)))
    (edgeMsg H node lab bl)

/-- One direction's aggregate: the gated messages scatter-added into zeros by the other end node. -/
def aggregate (into : IVec S600000 32) (upd : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 into) upd

/-- The whole tail: the self-loop array plus the two aggregates, rectified. -/
def tailVal (XL Hin Hout : FVec F S50000x128 .f32) (Gin Gout : FVec F S50000x1 .f32) (src dst lab : IVec S600000 32)
    (bin : FVec F S5x128 .f32) (gin : FVec F S128x1 .f32) (bgin : FVec F S5x1 .f32)
    (bout : FVec F S5x128 .f32) (gout : FVec F S128x1 .f32) (bgout : FVec F S5x1 .f32) : FVec F S50000x128 .f32 :=
  maximumf
    (addf (addf XL (aggregate dst (edgeUpd Hin Gin src lab bin (labelScalar bin gin bgin))))
      (aggregate src (edgeUpd Hout Gout dst lab bout (labelScalar bout gout bgout))))
    (broadcastInDim S50000x128 ![] bcast_S_S50000x128 (constant S_ .f32 0x00000000#32))

end Cert.KernelIdeal.Hand

end
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.LibDiagGather.lean ====
/-
  A gather of one element per start index from a matrix, read at an index.

  `x[r, c]` at index arrays `r, c : [R]` of an `[M, N]` array lowers to a gather whose two operand axes are both collapsed
  and both addressed by the start index, the start indices an `[R, 2]` array (the index vector on axis 1) and the result
  `[R]`: no offset axes, no batching axes, slices of one element. Result element `e` is then the operand at the row
  `idx[e, 0]` and the column `idx[e, 1]`, each read as a signed integer and clamped into the axis. This file states those
  dimension numbers once and proves that reading.  It also reads a two-column concatenation of two `[R, 1]` arrays at
  `(e, 0)` and `(e, 1)`, and the words an iota wrapped by "negative ? + n : itself" holds below 2^31.
-/
import Idealize.ShloMosaic.PureOps
import Idealize.ShloMosaic.Lib.ValueIdx
import Idealize.ShloMosaic.Lib.Pipeline.Value

namespace Cert.Lib.DiagGather

open Idealize.ShloMosaic Idealize.ShloMosaic.ValueIdx

section Gather
variable {α : Type}

/-- The dimension numbers of `x[r, c]`: operand `[M, N]`, start indices `[R, 2]`, result `[R]`; no offset axes, both operand
    axes collapsed and addressed by the start index (component 0 the row, component 1 the column), no batching axes, the
    index vector on the start indices' axis 1, slices of one element. -/
abbrev pairDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The start-indices index `[e, c]` of result index `e` and component `c`. -/
abbrev pairIdx {R : Nat} (y : (⟨1, ![R]⟩ : Shape).Idx) (c : Fin 2) : (⟨2, ![R, 2]⟩ : Shape).Idx :=
  ix2 (y 0) c

/-- Coordinate 0 of the operand index read at `y`: the start index's component 0, read signed and clamped into the rows. -/
theorem operandIdx_row {M N R w : Nat}
    (wf : GatherDims.WF ⟨2, ![M, N]⟩ ⟨2, ![R, 2]⟩ ⟨1, ![R]⟩ [] [0, 1] [] [0, 1] [] 1 ![1, 1])
    (idx : IVec ⟨2, ![R, 2]⟩ w) (y : (⟨1, ![R]⟩ : Shape).Idx) :
    (((pairDims M N R wf).operandIdx y idx) 0).val = min (idx (pairIdx y 0)).toInt.toNat (M - 1) := by
  show (pairDims M N R wf).start y idx 0 + (pairDims M N R wf).batchCoord y 0 + (pairDims M N R wf).offCoord y 0 = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (0 : Fin 2) ∈ (pairDims M N R wf).startIndexMap by simp)]
  have hsi : (pairDims M N R wf).siIdx y ⟨List.idxOf (0 : Fin 2) (pairDims M N R wf).startIndexMap,
      List.idxOf_lt_length_iff.2 (by simp)⟩ = pairIdx y 0 := by
    funext b; refine Fin.ext ?_
    match b with
    | ⟨0, _⟩ => rfl
    | ⟨1, _⟩ => rfl
  rw [hsi]
  rfl

/-- Coordinate 1 of the operand index read at `y`: the start index's component 1, read signed and clamped into the columns. -/
theorem operandIdx_col {M N R w : Nat}
    (wf : GatherDims.WF ⟨2, ![M, N]⟩ ⟨2, ![R, 2]⟩ ⟨1, ![R]⟩ [] [0, 1] [] [0, 1] [] 1 ![1, 1])
    (idx : IVec ⟨2, ![R, 2]⟩ w) (y : (⟨1, ![R]⟩ : Shape).Idx) :
    (((pairDims M N R wf).operandIdx y idx) 1).val = min (idx (pairIdx y 1)).toInt.toNat (N - 1) := by
  show (pairDims M N R wf).start y idx 1 + (pairDims M N R wf).batchCoord y 1 + (pairDims M N R wf).offCoord y 1 = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (1 : Fin 2) ∈ (pairDims M N R wf).startIndexMap by simp)]
  have hsi : (pairDims M N R wf).siIdx y ⟨List.idxOf (1 : Fin 2) (pairDims M N R wf).startIndexMap,
      List.idxOf_lt_length_iff.2 (by simp)⟩ = pairIdx y 1 := by
    funext b; refine Fin.ext ?_
    match b with
    | ⟨0, _⟩ => rfl
    | ⟨1, _⟩ => rfl
  rw [hsi]
  rfl

/-- THE GATHER READ AT `y`: when the two components of the start index at `y`, read signed, are the row `r` and the column
    `c` (in range, so the clamp leaves them), the result element is the operand at `(r, c)`. -/
theorem gather_pair_apply {M N R w : Nat}
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (y : (⟨1, ![R]⟩ : Shape).Idx)
    (r : Fin M) (c : Fin N) (hr : (idx (pairIdx y 0)).toInt = (r.val : Int)) (hc : (idx (pairIdx y 1)).toInt = (c.val : Int)) :
    Host.gather (pairDims M N R wf) x idx y = x (ix2 r c) := by
  show x ((pairDims M N R wf).operandIdx y idx) = _
  refine congrArg x ?_
  funext a
  match a with
  | ⟨0, _⟩ =>
    refine Fin.ext ?_
    have h := operandIdx_row wf idx y
    rw [hr, Int.toNat_natCast] at h
    have := r.isLt
    show (((pairDims M N R wf).operandIdx y idx) 0).val = r.val
    omega
  | ⟨1, _⟩ =>
    refine Fin.ext ?_
    have h := operandIdx_col wf idx y
    rw [hc, Int.toNat_natCast] at h
    have := c.isLt
    show (((pairDims M N R wf).operandIdx y idx) 1).val = c.val
    omega

end Gather

section Columns
variable {α : Type}

/-- Two `[R, 1]` columns joined along axis 1, read in column 0: the first column. -/
theorem concat_cols_left {R : Nat} (a b : (⟨2, ![R, 1]⟩ : Shape).Idx → α)
    (h : Shape.Concatenates [(⟨2, ![R, 1]⟩ : Shape), ⟨2, ![R, 1]⟩] ⟨2, ![R, 2]⟩ 1) (e : Fin R) :
    concatenate (⟨2, ![R, 2]⟩ : Shape) 1 [⟨⟨2, ![R, 1]⟩, a⟩, ⟨⟨2, ![R, 1]⟩, b⟩] h (ix2 e 0) = a (ix2 e 0) :=
  concatenate_pair_apply_left 1 a b h (ix2 e 0) rfl (ix2 e 0)
    (fun c => match c with | ⟨0, _⟩ => rfl | ⟨1, _⟩ => rfl)

/-- Two `[R, 1]` columns joined along axis 1, read in column 1: the second column. -/
theorem concat_cols_right {R : Nat} (a b : (⟨2, ![R, 1]⟩ : Shape).Idx → α)
    (h : Shape.Concatenates [(⟨2, ![R, 1]⟩ : Shape), ⟨2, ![R, 1]⟩] ⟨2, ![R, 2]⟩ 1) (e : Fin R) :
    concatenate (⟨2, ![R, 2]⟩ : Shape) 1 [⟨⟨2, ![R, 1]⟩, a⟩, ⟨⟨2, ![R, 1]⟩, b⟩] h (ix2 e 1) = b (ix2 e 0) :=
  concatenate_pair_apply_right 1 a b h (ix2 e 1) rfl rfl (ix2 e 0)
    (fun c hc => match c, hc with
      | ⟨0, _⟩, _ => rfl
      | ⟨1, _⟩, hc => absurd (Fin.ext rfl) hc)
    rfl

end Columns

section Words

/-- A number below 2^31, as a signed 32-bit word, is itself. -/
theorem toInt_ofNat_small (n : Nat) (h : n < 2147483648) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-- The wrap "negative ? something : itself" of a number below 2^31 is the number: it is not negative. -/
theorem wrap_toInt (n : Nat) (h : n < 2147483648) (alt : BitVec 32) :
    (Scalar.select (IntOp.cmpi .slt (BitVec.ofNat 32 n) 0#32) alt (BitVec.ofNat 32 n)).toInt = (n : Int) := by
  have h0 : (0#32 : BitVec 32).toInt = 0 := by decide
  have hs : (BitVec.ofNat 32 n).slt 0#32 = false := by
    show decide ((BitVec.ofNat 32 n).toInt < (0#32 : BitVec 32).toInt) = false
    rw [toInt_ofNat_small n h, h0]
    exact decide_eq_false (by omega)
  show (Scalar.select (BitVec.ofBool ((BitVec.ofNat 32 n).slt 0#32)) alt (BitVec.ofNat 32 n)).toInt = _
  rw [hs]
  show (Scalar.select 0#1 alt (BitVec.ofNat 32 n)).toInt = _
  rw [ValueIdx.select_zero, toInt_ofNat_small n h]

end Words

end Cert.Lib.DiagGather
-- ==== Proof.LibHostDot.lean ====
/-
  A host matrix product, read at coordinates.

  For a host `dot_general` of a `[M, K]` matrix with a `[K, N]` matrix whose dimension numbers contract the left operand's
  second axis with the right operand's first and keep the other two in order, the product is, at `(p, c)`,

      ∑ k : Fin K, l (p, k) · r (k, c)

  on the extended reals, whatever the schedule key. The dimension record enters only through four facts about its operand
  indices — the left index at output index `i` and contraction position `q` is `(i 0, q)`, the right one `(q, i 1)` —
  which a concrete record proves by unfolding; with them the sum over the record's one-axis contraction shape is
  re-indexed over `Fin K`.
-/
import Idealize.ShloMosaic.PureOps.Ideal.Laws
import Idealize.ShloMosaic.Lib.ValueIdx

namespace Cert.Lib.HostDot

open Idealize.ShloMosaic Idealize.ShloMosaic.ValueIdx

/-- The host product of an `[M, K]` and a `[K, N]` matrix at `(p, c)`: the sum over `k` of `l (p, k) · r (k, c)`. -/
theorem dotGeneral_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (sched : HostSchedule)
    (l : FVec Ideal ⟨2, ![M, K]⟩ φ₁) (r : FVec Ideal ⟨2, ![K, N]⟩ φ₂) (p : Fin M) (c : Fin N) :
    FloatOps.dotGeneral D prec sched l r (ix2 p c) = ∑ k : Fin K, l (ix2 p k) * r (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.HostDot
-- ==== Proof.KernelIdealTailRead.lean ====
import proofs.«139600_j30958124270115_2_alg».proof.Proof.KernelIdealTailDefs
import proofs.«139600_j30958124270115_2_alg».proof.Proof.LibGatherRows
import proofs.«139600_j30958124270115_2_alg».proof.Proof.LibDiagGather
import proofs.«139600_j30958124270115_2_alg».proof.Proof.LibHostDot
import Idealize.ShloMosaic.Lib.IdealHost
import Idealize.ShloMosaic.Lib.Pipeline.Value
import Idealize.ShloMosaic.Lib.ValueIdx

/-!
# The edge stage, read entry by entry

For one direction, the gated message of edge `e` at feature `d` is

    σ(G[r, 0] + ((∑ k, b[l, k]·g[k, 0]) + bg[l, 0])) · (H[r, d] + b[l, d])

where `r` is the node row and `l` the label row the edge's wrapped indices select, each read as a signed integer and
clamped into its table. Two kinds of gather occur. A row gather by the one-column index array picks row `r`. An entry
gather of a one-column matrix by the pair (index, 0) picks the entry `(r', 0)`: its row `r'` is the first component
clamped into the rows, which is the same `r` since the first column of the pair array is that one-column index array,
and its column is clamped into the single column, whatever the second component holds.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo
open Cert.Lib.GatherRows Cert.Lib.DiagGather Cert.Lib.HostDot

/-! ## General facts -/

/-- `1 / (1 + e^(−a))`, the two ones given by their bit patterns, is the logistic function at `a`. -/
theorem logistic_spelt (a : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf a)))
      = Ideal.logistic a := by
  show Ideal.div (Ideal.ofBits .f32 0x3F800000#32) (Ideal.ofBits .f32 0x3F800000#32 + Ideal.exp (-a)) = Ideal.logistic a
  rw [Ideal.ofBits_one_f32]
  rfl

/-- An entry gather of a one-column matrix by a two-column index array whose first column is `a`: result `e` is the
    entry in the row `a`'s `e`-th word selects and in column 0, whatever the second column holds. -/
theorem gather_pair_col0 {α : Type} {M R : Nat} (hM : 0 < M)
    (wf : GatherDims.WF ⟨2, ![M, 1]⟩ ⟨2, ![R, 2]⟩ ⟨1, ![R]⟩ [] [0, 1] [] [0, 1] [] 1 ![1, 1])
    (x : (⟨2, ![M, 1]⟩ : Shape).Idx → α) (a b : IVec ⟨2, ![R, 1]⟩ 32)
    (h : Shape.Concatenates [(⟨2, ![R, 1]⟩ : Shape), ⟨2, ![R, 1]⟩] ⟨2, ![R, 2]⟩ 1) (e : Fin R) :
    Host.gather (pairDims M 1 R wf) x
        (concatenate (⟨2, ![R, 2]⟩ : Shape) 1 [⟨⟨2, ![R, 1]⟩, a⟩, ⟨⟨2, ![R, 1]⟩, b⟩] h) (ix1 e)
      = x (ix2 (rowOf M hM a e) (0 : Fin 1)) := by
  show x ((pairDims M 1 R wf).operandIdx (ix1 e) _) = _
  refine congrArg x (funext fun c => Fin.ext ?_)
  match c with
  | ⟨0, _⟩ =>
    refine (operandIdx_row wf _ (ix1 e)).trans ?_
    show min (concatenate (⟨2, ![R, 2]⟩ : Shape) 1 [⟨⟨2, ![R, 1]⟩, a⟩, ⟨⟨2, ![R, 1]⟩, b⟩] h (ix2 e 0)).toInt.toNat (M - 1)
      = min (a (ix2 e (0 : Fin 1))).toInt.toNat (M - 1)
    rw [concat_cols_left a b h e]
  | ⟨1, _⟩ =>
    refine (operandIdx_col wf _ (ix1 e)).trans ?_
    exact Nat.min_eq_right (Nat.zero_le _)

/-! ## The per-label scalar -/

section label

variable (bl : FVec Ideal S5x128 .f32) (g : FVec Ideal S128x1 .f32) (bg : FVec Ideal S5x1 .f32)

theorem labelDot_lhs0 (i : S5x1.Idx) (q : dot_S5x128_S128x1_S5x1_1_0_0_1_n_n.contr.Idx) :
    (dot_S5x128_S128x1_S5x1_1_0_0_1_n_n.lhsIdx i q 0).val = (i 0).val := by
  unfold DotDims.lhsIdx
  rw [dif_neg (show ¬(0 : Fin S5x128.rank) ∈ dot_S5x128_S128x1_S5x1_1_0_0_1_n_n.lhsBatch by decide),
    dif_pos (show (0 : Fin S5x128.rank) ∈ dot_S5x128_S128x1_S5x1_1_0_0_1_n_n.lhsNonContracting by decide)]
  rfl
theorem labelDot_lhs1 (i : S5x1.Idx) (q : dot_S5x128_S128x1_S5x1_1_0_0_1_n_n.contr.Idx) :
    (dot_S5x128_S128x1_S5x1_1_0_0_1_n_n.lhsIdx i q 1).val = (q ⟨0, by decide⟩).val :=
  dot_S5x128_S128x1_S5x1_1_0_0_1_n_n.lhsIdx_val_of_single rfl i q
theorem labelDot_rhs0 (i : S5x1.Idx) (q : dot_S5x128_S128x1_S5x1_1_0_0_1_n_n.contr.Idx) :
    (dot_S5x128_S128x1_S5x1_1_0_0_1_n_n.rhsIdx i q 0).val = (q ⟨0, by decide⟩).val :=
  dot_S5x128_S128x1_S5x1_1_0_0_1_n_n.rhsIdx_val_of_single rfl i q
theorem labelDot_rhs1 (i : S5x1.Idx) (q : dot_S5x128_S128x1_S5x1_1_0_0_1_n_n.contr.Idx) :
    (dot_S5x128_S128x1_S5x1_1_0_0_1_n_n.rhsIdx i q 1).val = (i 1).val := by
  unfold DotDims.rhsIdx
  rw [dif_neg (show ¬(1 : Fin S128x1.rank) ∈ dot_S5x128_S128x1_S5x1_1_0_0_1_n_n.rhsBatch by decide),
    dif_pos (show (1 : Fin S128x1.rank) ∈ dot_S5x128_S128x1_S5x1_1_0_0_1_n_n.rhsNonContracting by decide)]
  rfl

/-- The scalar of label `l`: its bias row projected on `g`, plus its own scalar. -/
theorem labelScalar_apply (l : Fin 5) :
    labelScalar (F := Ideal) bl g bg (ix2 l (0 : Fin 1))
      = (∑ k : Fin 128, bl (ix2 l k) * g (ix2 k (0 : Fin 1))) + bg (ix2 l (0 : Fin 1)) := by
  unfold labelScalar
  show Host.dotGeneral dot_S5x128_S128x1_S5x1_1_0_0_1_n_n none bl g (ix2 l (0 : Fin 1)) + bg (ix2 l (0 : Fin 1)) = _
  refine congrArg (· + bg (ix2 l (0 : Fin 1))) ?_
  exact dotGeneral_ix2 dot_S5x128_S128x1_S5x1_1_0_0_1_n_n rfl rfl labelDot_lhs0 labelDot_lhs1 labelDot_rhs0 labelDot_rhs1 none _ bl g l (0 : Fin 1)

end label

/-! ## Messages, gates, gated messages -/

section edge

variable (H : FVec Ideal S50000x128 .f32) (G : FVec Ideal S50000x1 .f32) (node lab : IVec S600000 32)
  (bl : FVec Ideal S5x128 .f32) (g : FVec Ideal S128x1 .f32) (bg : FVec Ideal S5x1 .f32) (C : FVec Ideal S5x1 .f32)

/-- The message of edge `e`, feature `d`: the node's row plus the label's row. -/
theorem edgeMsg_apply (e : Fin 600000) (d : Fin 128) :
    edgeMsg (F := Ideal) H node lab bl (ix2 e d)
      = H (ix2 (rowOf 50000 (by decide) (colIdx (wrapIdx 50000#32 node)) e) d)
        + bl (ix2 (rowOf 5 (by decide) (colIdx (wrapIdx 5#32 lab)) e) d) := by
  unfold edgeMsg
  generalize colIdx (wrapIdx 50000#32 node) = a
  generalize colIdx (wrapIdx 5#32 lab) = b
  show Host.gather gather_S50000x128_S600000x1_S600000x128_1_0_n_n_0_1_1128 H a (ix2 e d)
    + Host.gather gather_S5x128_S600000x1_S600000x128_1_0_n_n_0_1_1128 bl b (ix2 e d) = _
  exact congrArg₂ (· + ·)
    (gather_rows_apply (N := 50000) (D := 128) (E := 600000) (by decide)
      Facts₀.gather_S50000x128_S600000x1_S600000x128_1_0_n_n_0_1_1128_wf H a e d)
    (gather_rows_apply (N := 5) (D := 128) (E := 600000) (by decide)
      Facts₀.gather_S5x128_S600000x1_S600000x128_1_0_n_n_0_1_1128_wf bl b e d)

/-- The node's projection as edge `e` receives it. -/
theorem nodeScalar_apply (v : IVec S600000 32) (e : Fin 600000) :
    Host.gather gather_S50000x1_S600000x2_S600000_n_01_n_n_01_1_11 G (pairIdx0 v) (ix1 e)
      = G (ix2 (rowOf 50000 (by decide) (colIdx v) e) (0 : Fin 1)) := by
  unfold pairIdx0
  exact gather_pair_col0 (M := 50000) (R := 600000) (by decide)
    Facts₀.gather_S50000x1_S600000x2_S600000_n_01_n_n_01_1_11_wf G _ _ _ e

/-- The label's scalar as edge `e` receives it. -/
theorem labelScalar_gather_apply (v : IVec S600000 32) (e : Fin 600000) :
    Host.gather gather_S5x1_S600000x2_S600000_n_01_n_n_01_1_11 C (pairIdx0 v) (ix1 e)
      = C (ix2 (rowOf 5 (by decide) (colIdx v) e) (0 : Fin 1)) := by
  unfold pairIdx0
  exact gather_pair_col0 (M := 5) (R := 600000) (by decide)
    Facts₀.gather_S5x1_S600000x2_S600000_n_01_n_n_01_1_11_wf C _ _ _ e

/-- The gate of edge `e`: the logistic function of the node's projection plus the label's scalar. -/
theorem edgeGate_apply (e : Fin 600000) :
    edgeGate (F := Ideal) G node lab C (ix1 e)
      = Ideal.logistic (G (ix2 (rowOf 50000 (by decide) (colIdx (wrapIdx 50000#32 node)) e) (0 : Fin 1))
          + C (ix2 (rowOf 5 (by decide) (colIdx (wrapIdx 5#32 lab)) e) (0 : Fin 1))) := by
  unfold edgeGate
  show FloatOps.hostDivf (broadcastInDim S600000 ![] _ (constant (F := Ideal) S_ .f32 0x3F800000#32) (ix1 e))
    (FloatOps.addf (broadcastInDim S600000 ![] _ (constant (F := Ideal) S_ .f32 0x3F800000#32) (ix1 e))
      (FloatOps.hostUnary .exp (FloatOps.hostNegf (FloatOps.addf
        (Host.gather gather_S50000x1_S600000x2_S600000_n_01_n_n_01_1_11 G (pairIdx0 (wrapIdx 50000#32 node)) (ix1 e))
        (Host.gather gather_S5x1_S600000x2_S600000_n_01_n_n_01_1_11 C (pairIdx0 (wrapIdx 5#32 lab)) (ix1 e)))))) = _
  rw [broadcastInDim_scalar_apply, nodeScalar_apply, labelScalar_gather_apply]
  exact logistic_spelt _

/-- The gated message of edge `e`, feature `d`. -/
theorem edgeUpd_apply (e : Fin 600000) (d : Fin 128) :
    edgeUpd (F := Ideal) H G node lab bl (labelScalar (F := Ideal) bl g bg) (ix2 e d)
      = Ideal.logistic (G (ix2 (rowOf 50000 (by decide) (colIdx (wrapIdx 50000#32 node)) e) (0 : Fin 1))
            + ((∑ k : Fin 128, bl (ix2 (rowOf 5 (by decide) (colIdx (wrapIdx 5#32 lab)) e) k) * g (ix2 k (0 : Fin 1)))
               + bg (ix2 (rowOf 5 (by decide) (colIdx (wrapIdx 5#32 lab)) e) (0 : Fin 1))))
        * (H (ix2 (rowOf 50000 (by decide) (colIdx (wrapIdx 50000#32 node)) e) d)
            + bl (ix2 (rowOf 5 (by decide) (colIdx (wrapIdx 5#32 lab)) e) d)) := by
  unfold edgeUpd
  generalize hC : labelScalar (F := Ideal) bl g bg = C
  show broadcastInDim S600000x128 ![0, 1] _ (broadcastInDim S600000x1 ![0] _ (edgeGate (F := Ideal) G node lab C)) (ix2 e d)
    * edgeMsg (F := Ideal) H node lab bl (ix2 e d) = _
  rw [broadcastInDim_apply _ _ _ (ix2 e d) (ix2 e (0 : Fin 1)) (fun a => match a with
      | ⟨0, _⟩ => by show e.val = if (600000 : Nat) = 1 then 0 else e.val; rw [if_neg (by decide)]
      | ⟨1, _⟩ => by show 0 = if (1 : Nat) = 1 then 0 else d.val; rw [if_pos rfl]),
    broadcastInDim_apply _ _ _ (ix2 e (0 : Fin 1)) (ix1 e) (fun a => match a with
      | ⟨0, _⟩ => by show e.val = if (600000 : Nat) = 1 then 0 else e.val; rw [if_neg (by decide)]),
    edgeGate_apply, edgeMsg_apply, ← hC, labelScalar_apply]

end edge

end Cert.KernelIdeal.Hand

end
-- ==== Proof.RefRead.lean ====
import proofs.«139600_j30958124270115_2_alg».proof.Proof.Gen.ReferenceIdeal.Read
import proofs.«139600_j30958124270115_2_alg».proof.Proof.Spec
import proofs.«139600_j30958124270115_2_alg».proof.Proof.LibGatherRows
import Idealize.ShloMosaic.Lib.IdealHost

/-!
# The reference, read entry by entry

The reference program is one gated graph-convolution layer written with whole-array operations. Here each of its
intermediate arrays is read at one index and identified with the corresponding entry-wise quantity of `Cert.Spec`:

* the self-loop term `σ(t·g + c₀)·t` with `t = x·W + b` (`ref_selfLoop`);
* for each of the two edge directions, the gated message `σ(m·g + c_l)·m` with `m = (x·W·W)[r] + b_l`, where the
  node row `r` and the label row `l` of an edge are the rows its two index columns select
  (`ref_upd_in`, `ref_upd_out`).

Three kinds of step occur. A matrix product read at `(p, c)` is the sum over `k` of the left factor at `(p, k)` times
the right factor at `(k, c)`. A gather of whole rows read at `(e, d)` is its operand at `(r e, d)`, `r e` the row the
`e`-th start index selects. The logistic function arrives spelt as `1 / (1 + e^(−z))`, which is its definition on the
extended reals.
-/

noncomputable section

namespace Cert.RefRead

open Cert.ReferenceIdeal Cert.ReferenceIdeal.Read Cert.Lib.GatherRows
open Idealize.ShloMosaic Idealize.ShloMosaic.TcCoe Idealize.SL.Sem Idealize.ShloMosaic.StableHlo Idealize.ShloMosaic.ValueIdx

/-! ## The logistic function as the reference spells it -/

/-- `1 / (1 + e^(−a))`, the two ones given by their bit patterns, is the logistic function at `a`. -/
theorem logistic_spelt (a : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf a)))
      = Ideal.logistic a := by
  show Ideal.div (Ideal.ofBits .f32 0x3F800000#32) (Ideal.ofBits .f32 0x3F800000#32 + Ideal.exp (-a)) = Ideal.logistic a
  rw [Ideal.ofBits_one_f32]
  rfl

/-! ## Where each operation reads its operands

Each matrix product reads its left factor at (row of the result, `k`) and its right factor at (`k`, column of the
result); each broadcast reads its operand at the coordinates it keeps. -/

theorem lidx_v0 (p : Fin 50000) (c : Fin 128) (k : Fin 128) : lidx_main_v0 (ix2 p c) k = ix2 p k :=
  funext fun a => Fin.ext (by match a with | ⟨0, _⟩ => rfl | ⟨1, _⟩ => rfl)
theorem ridx_v0 (p : Fin 50000) (c : Fin 128) (k : Fin 128) : ridx_main_v0 (ix2 p c) k = ix2 k c :=
  funext fun a => Fin.ext (by match a with | ⟨0, _⟩ => rfl | ⟨1, _⟩ => rfl)
theorem lidx_v4 (p : Fin 50000) (c : Fin 1) (k : Fin 128) : lidx_main_v4 (ix2 p c) k = ix2 p k :=
  funext fun a => Fin.ext (by match a with | ⟨0, _⟩ => rfl | ⟨1, _⟩ => rfl)
theorem ridx_v4 (p : Fin 50000) (c : Fin 1) (k : Fin 128) : ridx_main_v4 (ix2 p c) k = ix2 k c :=
  funext fun a => Fin.ext (by match a with | ⟨0, _⟩ => rfl | ⟨1, _⟩ => rfl)
theorem lidx_v20 (p : Fin 50000) (c : Fin 128) (k : Fin 128) : lidx_main_v20 (ix2 p c) k = ix2 p k :=
  funext fun a => Fin.ext (by match a with | ⟨0, _⟩ => rfl | ⟨1, _⟩ => rfl)
theorem ridx_v20 (p : Fin 50000) (c : Fin 128) (k : Fin 128) : ridx_main_v20 (ix2 p c) k = ix2 k c :=
  funext fun a => Fin.ext (by match a with | ⟨0, _⟩ => rfl | ⟨1, _⟩ => rfl)
theorem lidx_v21 (p : Fin 50000) (c : Fin 128) (k : Fin 128) : lidx_main_v21 (ix2 p c) k = ix2 p k :=
  funext fun a => Fin.ext (by match a with | ⟨0, _⟩ => rfl | ⟨1, _⟩ => rfl)
theorem ridx_v21 (p : Fin 50000) (c : Fin 128) (k : Fin 128) : ridx_main_v21 (ix2 p c) k = ix2 k c :=
  funext fun a => Fin.ext (by match a with | ⟨0, _⟩ => rfl | ⟨1, _⟩ => rfl)
theorem lidx_v37 (p : Fin 600000) (c : Fin 1) (k : Fin 128) : lidx_main_v37 (ix2 p c) k = ix2 p k :=
  funext fun a => Fin.ext (by match a with | ⟨0, _⟩ => rfl | ⟨1, _⟩ => rfl)
theorem ridx_v37 (p : Fin 600000) (c : Fin 1) (k : Fin 128) : ridx_main_v37 (ix2 p c) k = ix2 k c :=
  funext fun a => Fin.ext (by match a with | ⟨0, _⟩ => rfl | ⟨1, _⟩ => rfl)
theorem lidx_v57 (p : Fin 50000) (c : Fin 128) (k : Fin 128) : lidx_main_v57 (ix2 p c) k = ix2 p k :=
  funext fun a => Fin.ext (by match a with | ⟨0, _⟩ => rfl | ⟨1, _⟩ => rfl)
theorem ridx_v57 (p : Fin 50000) (c : Fin 128) (k : Fin 128) : ridx_main_v57 (ix2 p c) k = ix2 k c :=
  funext fun a => Fin.ext (by match a with | ⟨0, _⟩ => rfl | ⟨1, _⟩ => rfl)
theorem lidx_v58 (p : Fin 50000) (c : Fin 128) (k : Fin 128) : lidx_main_v58 (ix2 p c) k = ix2 p k :=
  funext fun a => Fin.ext (by match a with | ⟨0, _⟩ => rfl | ⟨1, _⟩ => rfl)
theorem ridx_v58 (p : Fin 50000) (c : Fin 128) (k : Fin 128) : ridx_main_v58 (ix2 p c) k = ix2 k c :=
  funext fun a => Fin.ext (by match a with | ⟨0, _⟩ => rfl | ⟨1, _⟩ => rfl)
theorem lidx_v74 (p : Fin 600000) (c : Fin 1) (k : Fin 128) : lidx_main_v74 (ix2 p c) k = ix2 p k :=
  funext fun a => Fin.ext (by match a with | ⟨0, _⟩ => rfl | ⟨1, _⟩ => rfl)
theorem ridx_v74 (p : Fin 600000) (c : Fin 1) (k : Fin 128) : ridx_main_v74 (ix2 p c) k = ix2 k c :=
  funext fun a => Fin.ext (by match a with | ⟨0, _⟩ => rfl | ⟨1, _⟩ => rfl)
theorem idx_v1_v2 (p : Fin 50000) (c : Fin 128) : idx_main_v1 (idx_main_v2 (ix2 p c)) = ix1 c :=
  funext fun a => Fin.ext (by match a with | ⟨0, _⟩ => rfl)
theorem idx_v5_v6 (i : S50000x1.Idx) : idx_main_v5 (idx_main_v6 i) = ix1 (0 : Fin 1) :=
  funext fun a => Fin.ext (by match a with | ⟨0, _⟩ => rfl)
theorem idx_v14 (p : Fin 50000) (d : Fin 128) : idx_main_v14 (ix2 p d) = ix2 p (0 : Fin 1) :=
  funext fun a => Fin.ext (by match a with | ⟨0, _⟩ => rfl | ⟨1, _⟩ => rfl)
theorem idx_v52 (e : Fin 600000) (d : Fin 128) : idx_main_v52 (ix2 e d) = ix2 e (0 : Fin 1) :=
  funext fun a => Fin.ext (by match a with | ⟨0, _⟩ => rfl | ⟨1, _⟩ => rfl)
theorem idx_v89 (e : Fin 600000) (d : Fin 128) : idx_main_v89 (ix2 e d) = ix2 e (0 : Fin 1) :=
  funext fun a => Fin.ext (by match a with | ⟨0, _⟩ => rfl | ⟨1, _⟩ => rfl)

/-! ## The self-loop term -/

section loop

variable (x0 : (⟨S50000x128, .f32⟩ : BufTy).Contents (Elt Ideal)) (x3 : (⟨S128x128, .f32⟩ : BufTy).Contents (Elt Ideal))
  (x4 : (⟨S128, .f32⟩ : BufTy).Contents (Elt Ideal)) (x5 : (⟨S128x1, .f32⟩ : BufTy).Contents (Elt Ideal))
  (x6 : (⟨S1, .f32⟩ : BufTy).Contents (Elt Ideal))

/-- The affine image `x·W + b`, entry `(p, c)`. -/
theorem aff_read (p : Fin 50000) (c : Fin 128) :
    val_main_v3 (F := Ideal) x0 x3 x4 (ix2 p c) = Cert.Spec.aff x0 x3 x4 p c := by
  rw [val_main_v3_apply, val_main_v0_apply, val_main_v2_apply, val_main_v1_apply, idx_v1_v2]
  show (∑ k : Fin 128, _) + _ = (∑ k : Fin 128, x0 (ix2 p k) * x3 (ix2 k c)) + x4 (ix1 c)
  refine congrArg₂ (· + ·) (Finset.sum_congr rfl fun k _ => ?_) rfl
  rw [lidx_v0, ridx_v0]

/-- The gate's argument: the affine image projected on `g`, plus the scalar. -/
theorem gateArg_loop (p : Fin 50000) :
    val_main_v7 (F := Ideal) x0 x3 x4 x5 x6 (ix2 p (0 : Fin 1))
      = (∑ k : Fin 128, Cert.Spec.aff x0 x3 x4 p k * x5 (ix2 k (0 : Fin 1))) + x6 (ix1 (0 : Fin 1)) := by
  rw [val_main_v7_apply, val_main_v4_apply, val_main_v6_apply, val_main_v5_apply, idx_v5_v6]
  show (∑ k : Fin 128, _) + _ = _
  refine congrArg₂ (· + ·) (Finset.sum_congr rfl fun k _ => ?_) rfl
  rw [lidx_v4, ridx_v4, aff_read]

/-- The gate: the logistic function of its argument. -/
theorem gate_loop (p : Fin 50000) :
    val_main_v13 (F := Ideal) x0 x3 x4 x5 x6 (ix2 p (0 : Fin 1))
      = Ideal.logistic (val_main_v7 (F := Ideal) x0 x3 x4 x5 x6 (ix2 p (0 : Fin 1))) := by
  rw [val_main_v13_apply, val_main_v12_apply, val_main_cst_0_apply, val_main_v11_apply, val_main_v10_apply,
    val_main_cst_apply, val_main_v9_apply, val_main_v8_apply]
  exact logistic_spelt _

/-- The self-loop term `σ(t·g + c₀)·t`, entry `(n, d)`. -/
theorem ref_selfLoop (n : Fin 50000) (d : Fin 128) :
    val_main_v15 (F := Ideal) x0 x3 x4 x5 x6 (ix2 n d) = Cert.Spec.selfLoop x0 x3 x4 x5 x6 n d := by
  rw [val_main_v15_apply, val_main_v14_apply, idx_v14, gate_loop, gateArg_loop, aff_read]
  rfl

end loop

/-! ## The gated messages of the incoming direction -/

section incoming

variable (x0 : (⟨S50000x128, .f32⟩ : BufTy).Contents (Elt Ideal)) (x1 : (⟨S2x600000, .i32⟩ : BufTy).Contents (Elt Ideal))
  (x2 : (⟨S600000, .i32⟩ : BufTy).Contents (Elt Ideal)) (x7 : (⟨S128x128, .f32⟩ : BufTy).Contents (Elt Ideal))
  (x8 : (⟨S5x128, .f32⟩ : BufTy).Contents (Elt Ideal)) (x9 : (⟨S128x1, .f32⟩ : BufTy).Contents (Elt Ideal))
  (x10 : (⟨S5x1, .f32⟩ : BufTy).Contents (Elt Ideal))

/-- The rows of `x` through `W`, entry `(p, c)`. -/
theorem mm_in (p : Fin 50000) (c : Fin 128) :
    val_main_v20 (F := Ideal) x0 x7 (ix2 p c) = Cert.Spec.mm x0 x7 p c := by
  rw [val_main_v20_apply]
  show (∑ k : Fin 128, _) = ∑ k : Fin 128, x0 (ix2 p k) * x7 (ix2 k c)
  refine Finset.sum_congr rfl fun k _ => ?_
  rw [lidx_v20, ridx_v20]

/-- The rows of `x` through `W` twice, entry `(p, c)`. -/
theorem mm2_in (p : Fin 50000) (c : Fin 128) :
    val_main_v21 (F := Ideal) x0 x7 (ix2 p c) = Cert.Spec.mm2 x0 x7 p c := by
  rw [val_main_v21_apply]
  show (∑ k : Fin 128, _) = ∑ k : Fin 128, Cert.Spec.mm x0 x7 p k * x7 (ix2 k c)
  refine Finset.sum_congr rfl fun k _ => ?_
  rw [lidx_v21, ridx_v21, mm_in]

/-- The gather of the twice-transformed rows: edge `e` receives the row its node index selects. -/
theorem node_in (e : Fin 600000) (d : Fin 128) :
    val_main_v28 (F := Ideal) x0 x1 x7 (ix2 e d)
      = val_main_v21 (F := Ideal) x0 x7 (ix2 (rowOf 50000 (by decide) (val_main_v27 (F := Ideal) x1) e) d) := by
  unfold val_main_v28
  generalize val_main_v21 (F := Ideal) x0 x7 = y
  generalize val_main_v27 (F := Ideal) x1 = idx
  exact gather_rows_apply (N := 50000) (D := 128) (E := 600000) (by decide)
    Facts₀.gather_S50000x128_S600000x1_S600000x128_1_0_n_n_0_1_1128_wf y idx e d

/-- The gather of the label biases: edge `e` receives the row its label selects. -/
theorem label_in (e : Fin 600000) (d : Fin 128) :
    val_main_v35 (F := Ideal) x2 x8 (ix2 e d)
      = x8 (ix2 (rowOf 5 (by decide) (val_main_v34 (F := Ideal) x2) e) d) := by
  unfold val_main_v35
  generalize val_main_v34 (F := Ideal) x2 = idx
  exact gather_rows_apply (N := 5) (D := 128) (E := 600000) (by decide)
    Facts₀.gather_S5x128_S600000x1_S600000x128_1_0_n_n_0_1_1128_wf x8 idx e d

/-- The label index column is computed twice by the program, by the same operations. -/
theorem col_in : val_main_v43 (F := Ideal) x2 = val_main_v34 (F := Ideal) x2 := rfl

/-- The gather of the label scalars: edge `e` receives the entry its label selects. -/
theorem scalar_in (e : Fin 600000) :
    val_main_v44 (F := Ideal) x2 x10 (ix2 e (0 : Fin 1))
      = x10 (ix2 (rowOf 5 (by decide) (val_main_v34 (F := Ideal) x2) e) (0 : Fin 1)) := by
  unfold val_main_v44
  rw [col_in]
  generalize val_main_v34 (F := Ideal) x2 = idx
  exact gather_rows_apply (N := 5) (D := 1) (E := 600000) (by decide)
    Facts₀.gather_S5x1_S600000x1_S600000x1_1_0_n_n_0_1_11_wf x10 idx e (0 : Fin 1)

/-- The message of edge `e`, feature `d`. -/
theorem msg_in (e : Fin 600000) (d : Fin 128) :
    val_main_v36 (F := Ideal) x0 x1 x2 x7 x8 (ix2 e d)
      = Cert.Spec.msg x0 x7 x8 (rowOf 50000 (by decide) (val_main_v27 (F := Ideal) x1) e)
          (rowOf 5 (by decide) (val_main_v34 (F := Ideal) x2) e) d := by
  rw [val_main_v36_apply, node_in, label_in, mm2_in]
  rfl

/-- The gate's argument of edge `e`: its message projected on `g`, plus its label's scalar. -/
theorem gateArg_in (e : Fin 600000) :
    val_main_v45 (F := Ideal) x0 x1 x2 x7 x8 x9 x10 (ix2 e (0 : Fin 1))
      = Cert.Spec.gateArg x0 x7 x8 x9 x10 (rowOf 50000 (by decide) (val_main_v27 (F := Ideal) x1) e)
          (rowOf 5 (by decide) (val_main_v34 (F := Ideal) x2) e) := by
  rw [val_main_v45_apply, val_main_v37_apply, scalar_in]
  show (∑ k : Fin 128, _) + _ = (∑ k : Fin 128, _) + _
  refine congrArg₂ (· + ·) (Finset.sum_congr rfl fun k _ => ?_) rfl
  rw [lidx_v37, ridx_v37, msg_in]

/-- The gate of edge `e`: the logistic function of its argument. -/
theorem gate_in (e : Fin 600000) :
    val_main_v51 (F := Ideal) x0 x1 x2 x7 x8 x9 x10 (ix2 e (0 : Fin 1))
      = Ideal.logistic (val_main_v45 (F := Ideal) x0 x1 x2 x7 x8 x9 x10 (ix2 e (0 : Fin 1))) := by
  rw [val_main_v51_apply, val_main_v50_apply, val_main_cst_7_apply, val_main_v49_apply, val_main_v48_apply,
    val_main_cst_6_apply, val_main_v47_apply, val_main_v46_apply]
  exact logistic_spelt _

/-- The gated message of edge `e`, feature `d`, as the scatter-add receives it. -/
theorem ref_upd_in (e : Fin 600000) (d : Fin 128) :
    val_main_v53 (F := Ideal) x0 x1 x2 x7 x8 x9 x10 (ix2 e d)
      = Cert.Spec.upd x0 x7 x8 x9 x10 (rowOf 50000 (by decide) (val_main_v27 (F := Ideal) x1) e)
          (rowOf 5 (by decide) (val_main_v34 (F := Ideal) x2) e) d := by
  rw [val_main_v53_apply, val_main_v52_apply, idx_v52, gate_in, gateArg_in, msg_in]
  rfl

end incoming

/-! ## The gated messages of the outgoing direction -/

section outgoing

variable (x0 : (⟨S50000x128, .f32⟩ : BufTy).Contents (Elt Ideal)) (x1 : (⟨S2x600000, .i32⟩ : BufTy).Contents (Elt Ideal))
  (x2 : (⟨S600000, .i32⟩ : BufTy).Contents (Elt Ideal)) (x11 : (⟨S128x128, .f32⟩ : BufTy).Contents (Elt Ideal))
  (x12 : (⟨S5x128, .f32⟩ : BufTy).Contents (Elt Ideal)) (x13 : (⟨S128x1, .f32⟩ : BufTy).Contents (Elt Ideal))
  (x14 : (⟨S5x1, .f32⟩ : BufTy).Contents (Elt Ideal))

/-- The rows of `x` through `W`, entry `(p, c)`. -/
theorem mm_out (p : Fin 50000) (c : Fin 128) :
    val_main_v57 (F := Ideal) x0 x11 (ix2 p c) = Cert.Spec.mm x0 x11 p c := by
  rw [val_main_v57_apply]
  show (∑ k : Fin 128, _) = ∑ k : Fin 128, x0 (ix2 p k) * x11 (ix2 k c)
  refine Finset.sum_congr rfl fun k _ => ?_
  rw [lidx_v57, ridx_v57]

/-- The rows of `x` through `W` twice, entry `(p, c)`. -/
theorem mm2_out (p : Fin 50000) (c : Fin 128) :
    val_main_v58 (F := Ideal) x0 x11 (ix2 p c) = Cert.Spec.mm2 x0 x11 p c := by
  rw [val_main_v58_apply]
  show (∑ k : Fin 128, _) = ∑ k : Fin 128, Cert.Spec.mm x0 x11 p k * x11 (ix2 k c)
  refine Finset.sum_congr rfl fun k _ => ?_
  rw [lidx_v58, ridx_v58, mm_out]

/-- The gather of the twice-transformed rows: edge `e` receives the row its node index selects. -/
theorem node_out (e : Fin 600000) (d : Fin 128) :
    val_main_v65 (F := Ideal) x0 x1 x11 (ix2 e d)
      = val_main_v58 (F := Ideal) x0 x11 (ix2 (rowOf 50000 (by decide) (val_main_v64 (F := Ideal) x1) e) d) := by
  unfold val_main_v65
  generalize val_main_v58 (F := Ideal) x0 x11 = y
  generalize val_main_v64 (F := Ideal) x1 = idx
  exact gather_rows_apply (N := 50000) (D := 128) (E := 600000) (by decide)
    Facts₀.gather_S50000x128_S600000x1_S600000x128_1_0_n_n_0_1_1128_wf y idx e d

/-- The gather of the label biases: edge `e` receives the row its label selects. -/
theorem label_out (e : Fin 600000) (d : Fin 128) :
    val_main_v72 (F := Ideal) x2 x12 (ix2 e d)
      = x12 (ix2 (rowOf 5 (by decide) (val_main_v71 (F := Ideal) x2) e) d) := by
  unfold val_main_v72
  generalize val_main_v71 (F := Ideal) x2 = idx
  exact gather_rows_apply (N := 5) (D := 128) (E := 600000) (by decide)
    Facts₀.gather_S5x128_S600000x1_S600000x128_1_0_n_n_0_1_1128_wf x12 idx e d

/-- The label index column is computed twice by the program, by the same operations. -/
theorem col_out : val_main_v80 (F := Ideal) x2 = val_main_v71 (F := Ideal) x2 := rfl

/-- The gather of the label scalars: edge `e` receives the entry its label selects. -/
theorem scalar_out (e : Fin 600000) :
    val_main_v81 (F := Ideal) x2 x14 (ix2 e (0 : Fin 1))
      = x14 (ix2 (rowOf 5 (by decide) (val_main_v71 (F := Ideal) x2) e) (0 : Fin 1)) := by
  unfold val_main_v81
  rw [col_out]
  generalize val_main_v71 (F := Ideal) x2 = idx
  exact gather_rows_apply (N := 5) (D := 1) (E := 600000) (by decide)
    Facts₀.gather_S5x1_S600000x1_S600000x1_1_0_n_n_0_1_11_wf x14 idx e (0 : Fin 1)

/-- The message of edge `e`, feature `d`. -/
theorem msg_out (e : Fin 600000) (d : Fin 128) :
    val_main_v73 (F := Ideal) x0 x1 x2 x11 x12 (ix2 e d)
      = Cert.Spec.msg x0 x11 x12 (rowOf 50000 (by decide) (val_main_v64 (F := Ideal) x1) e)
          (rowOf 5 (by decide) (val_main_v71 (F := Ideal) x2) e) d := by
  rw [val_main_v73_apply, node_out, label_out, mm2_out]
  rfl

/-- The gate's argument of edge `e`: its message projected on `g`, plus its label's scalar. -/
theorem gateArg_out (e : Fin 600000) :
    val_main_v82 (F := Ideal) x0 x1 x2 x11 x12 x13 x14 (ix2 e (0 : Fin 1))
      = Cert.Spec.gateArg x0 x11 x12 x13 x14 (rowOf 50000 (by decide) (val_main_v64 (F := Ideal) x1) e)
          (rowOf 5 (by decide) (val_main_v71 (F := Ideal) x2) e) := by
  rw [val_main_v82_apply, val_main_v74_apply, scalar_out]
  show (∑ k : Fin 128, _) + _ = (∑ k : Fin 128, _) + _
  refine congrArg₂ (· + ·) (Finset.sum_congr rfl fun k _ => ?_) rfl
  rw [lidx_v74, ridx_v74, msg_out]

/-- The gate of edge `e`: the logistic function of its argument. -/
theorem gate_out (e : Fin 600000) :
    val_main_v88 (F := Ideal) x0 x1 x2 x11 x12 x13 x14 (ix2 e (0 : Fin 1))
      = Ideal.logistic (val_main_v82 (F := Ideal) x0 x1 x2 x11 x12 x13 x14 (ix2 e (0 : Fin 1))) := by
  rw [val_main_v88_apply, val_main_v87_apply, val_main_cst_16_apply, val_main_v86_apply, val_main_v85_apply,
    val_main_cst_15_apply, val_main_v84_apply, val_main_v83_apply]
  exact logistic_spelt _

/-- The gated message of edge `e`, feature `d`, as the scatter-add receives it. -/
theorem ref_upd_out (e : Fin 600000) (d : Fin 128) :
    val_main_v90 (F := Ideal) x0 x1 x2 x11 x12 x13 x14 (ix2 e d)
      = Cert.Spec.upd x0 x11 x12 x13 x14 (rowOf 50000 (by decide) (val_main_v64 (F := Ideal) x1) e)
          (rowOf 5 (by decide) (val_main_v71 (F := Ideal) x2) e) d := by
  rw [val_main_v90_apply, val_main_v89_apply, idx_v89, gate_out, gateArg_out, msg_out]
  rfl

end outgoing

end Cert.RefRead

end
-- ==== Proof.Algebra.lean ====
import proofs.«139600_j30958124270115_2_alg».proof.Proof.Spec

/-!
# The one law that joins the two sides

The reference projects the whole message `h + b` on the gate vector; the kernel projects the node part `h` once per
node and the label part `b` once per label, and adds the two projections.  The two gate arguments agree because the
product distributes over the sum — which, on the extended reals, needs the three factors to be real numbers.  They
are: the node part is a finite sum of products of finite inputs.
-/

noncomputable section

namespace Cert.Spec

open Idealize.ShloMosaic Idealize.ShloMosaic.ValueIdx

/-- Every entry of the array is a real number. -/
def AllReal {S : Shape} (x : S.Idx → EReal) : Prop := ∀ i, ∃ r : ℝ, x i = (r : EReal)

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real numbers is a real number. -/
theorem real_sum_mul {ι : Type} [Fintype ι] (a b : ι → EReal) (ha : ∀ i, ∃ r : ℝ, a i = (r : EReal))
    (hb : ∀ i, ∃ r : ℝ, b i = (r : EReal)) : ∃ r : ℝ, ∑ i, a i * b i = (r : EReal) := by
  choose fa hfa using ha
  choose fb hfb using hb
  refine ⟨∑ i, fa i * fb i, ?_⟩
  rw [coe_sum]
  refine Finset.sum_congr rfl fun i _ => ?_
  rw [hfa, hfb, EReal.coe_mul]

theorem mm_real {n : Nat} (x : Arr n 128) (W : Arr 128 128) (hx : AllReal x) (hW : AllReal W) (p : Fin n) (c : Fin 128) :
    ∃ r : ℝ, mm x W p c = (r : EReal) :=
  real_sum_mul _ _ (fun _ => hx _) (fun _ => hW _)

theorem mm2_real {n : Nat} (x : Arr n 128) (W : Arr 128 128) (hx : AllReal x) (hW : AllReal W) (p : Fin n) (c : Fin 128) :
    ∃ r : ℝ, mm2 x W p c = (r : EReal) :=
  real_sum_mul _ _ (fun k => mm_real x W hx hW p k) (fun _ => hW _)

/-- On real factors the product distributes over the sum. -/
theorem add_mul_real {a b w : EReal} (ha : ∃ r : ℝ, a = (r : EReal)) (hb : ∃ r : ℝ, b = (r : EReal))
    (hw : ∃ r : ℝ, w = (r : EReal)) : (a + b) * w = a * w + b * w := by
  obtain ⟨ra, rfl⟩ := ha
  obtain ⟨rb, rfl⟩ := hb
  obtain ⟨rw', rfl⟩ := hw
  rw [← EReal.coe_add, ← EReal.coe_mul, ← EReal.coe_mul, ← EReal.coe_mul, ← EReal.coe_add, add_mul]

/-- THE LAW: with real node features, weights, label biases and gate vector, the gate argument computed from the
    node's projection plus the label's projection is the projection of the whole message.  The label's scalar
    `cl` is only ever added, so it may be any extended real. -/
theorem gateArgSplit_eq {n : Nat} (x : Arr n 128) (W : Arr 128 128) (bl : Arr 5 128) (g : Arr 128 1) (cl : Arr 5 1)
    (hx : AllReal x) (hW : AllReal W) (hbl : AllReal bl) (hg : AllReal g) (r : Fin n) (l : Fin 5) :
    gateArgSplit x W bl g cl r l = gateArg x W bl g cl r l := by
  unfold gateArgSplit gateArg proj msg
  rw [← add_assoc, ← Finset.sum_add_distrib]
  refine congrArg (· + cl (ix2 l (0 : Fin 1))) ?_
  refine Finset.sum_congr rfl fun k _ => ?_
  exact (add_mul_real (mm2_real x W hx hW r k) (hbl _) (hg _)).symm

end Cert.Spec

end
-- ==== Proof.RefTail.lean ====
import proofs.«139600_j30958124270115_2_alg».proof.Proof.Gen.ReferenceIdeal.Read
import proofs.«139600_j30958124270115_2_alg».proof.Proof.KernelIdealTailDefs

/-!
# The reference's edge stages, in the names of the program's own edge stage

The reference and the program after its region apply the same host operations to the edge list: the two rows of the
edge list as vectors (a slice and a reshape), the wrap of a possibly negative index (`i < 0 ? i + n : i`), an index
vector as a one-column array, and at the end the sum of the self-loop array with the two scatter-added aggregates,
rectified. The two printed programs spell the shapes and their side conditions under two namespaces, with equal
values; so each equation here holds by unfolding the definitions on both sides.
-/

set_option maxRecDepth 16384

noncomputable section

namespace Cert.RefTail

open Cert.ReferenceIdeal.Read Cert.KernelIdeal.Hand
open Idealize.ShloMosaic

/-- The first row of the edge list (the source nodes) as a vector. -/
def srcOf (x1 : (⟨Cert.ReferenceIdeal.S2x600000, .i32⟩ : BufTy).Contents (Elt Ideal)) : IVec Cert.KernelIdeal.S600000 32 :=
  shapeCast _ (extractStridedSlice Cert.KernelIdeal.S1x600000 ![0, 0] x1 Cert.KernelIdeal.Gen.slices_S2x600000_S1x600000_0_0) Cert.KernelIdeal.Gen.shapeCasts_S1x600000_S600000

/-- The second row of the edge list (the target nodes) as a vector. -/
def dstOf (x1 : (⟨Cert.ReferenceIdeal.S2x600000, .i32⟩ : BufTy).Contents (Elt Ideal)) : IVec Cert.KernelIdeal.S600000 32 :=
  shapeCast _ (extractStridedSlice Cert.KernelIdeal.S1x600000 ![1, 0] x1 Cert.KernelIdeal.Gen.slices_S2x600000_S1x600000_1_0) Cert.KernelIdeal.Gen.shapeCasts_S1x600000_S600000

theorem src17 (x1 : (⟨Cert.ReferenceIdeal.S2x600000, .i32⟩ : BufTy).Contents (Elt Ideal)) : val_main_v17 (F := Ideal) x1 = srcOf x1 := by
  unfold val_main_v17 val_main_v16 srcOf
  rfl

theorem dst19 (x1 : (⟨Cert.ReferenceIdeal.S2x600000, .i32⟩ : BufTy).Contents (Elt Ideal)) : val_main_v19 (F := Ideal) x1 = dstOf x1 := by
  unfold val_main_v19 val_main_v18 dstOf
  rfl

/-- The wrapped source nodes as a one-column array. -/
theorem col27 (x1 : (⟨Cert.ReferenceIdeal.S2x600000, .i32⟩ : BufTy).Contents (Elt Ideal)) : val_main_v27 (F := Ideal) x1 = colIdx (wrapIdx 50000#32 (srcOf x1)) := by
  unfold val_main_v27 val_main_v26 val_main_v25 val_main_v24 val_main_c_1 val_main_v23 val_main_v22 val_main_c colIdx wrapIdx
  rw [src17]

/-- The wrapped target nodes as a one-column array. -/
theorem col64 (x1 : (⟨Cert.ReferenceIdeal.S2x600000, .i32⟩ : BufTy).Contents (Elt Ideal)) : val_main_v64 (F := Ideal) x1 = colIdx (wrapIdx 50000#32 (dstOf x1)) := by
  unfold val_main_v64 val_main_v63 val_main_v62 val_main_v61 val_main_c_10 val_main_v60 val_main_v59 val_main_c_9 colIdx wrapIdx
  rw [dst19]

/-- The wrapped labels as a one-column array (the incoming direction's spelling). -/
theorem col34 (x2 : (⟨Cert.ReferenceIdeal.S600000, .i32⟩ : BufTy).Contents (Elt Ideal)) : val_main_v34 (F := Ideal) x2 = colIdx (wrapIdx 5#32 x2) := by
  unfold val_main_v34 val_main_v33 val_main_v32 val_main_v31 val_main_c_3 val_main_v30 val_main_v29 val_main_c_2 colIdx wrapIdx
  rfl

/-- The wrapped labels as a one-column array (the outgoing direction's spelling). -/
theorem col71 (x2 : (⟨Cert.ReferenceIdeal.S600000, .i32⟩ : BufTy).Contents (Elt Ideal)) : val_main_v71 (F := Ideal) x2 = colIdx (wrapIdx 5#32 x2) := by
  unfold val_main_v71 val_main_v70 val_main_v69 val_main_v68 val_main_c_12 val_main_v67 val_main_v66 val_main_c_11 colIdx wrapIdx
  rfl

/-- The reference's result: the self-loop array plus the aggregate by target node of the incoming direction's gated
    messages plus the aggregate by source node of the outgoing direction's, rectified. -/
theorem ref_tail (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S600000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x1, .f32⟩ : BufTy).Contents (Elt Ideal)) (x6 : (⟨Cert.ReferenceIdeal.S1, .f32⟩ : BufTy).Contents (Elt Ideal))
    (x7 : (⟨Cert.ReferenceIdeal.S128x128, .f32⟩ : BufTy).Contents (Elt Ideal)) (x8 : (⟨Cert.ReferenceIdeal.S5x128, .f32⟩ : BufTy).Contents (Elt Ideal)) (x9 : (⟨Cert.ReferenceIdeal.S128x1, .f32⟩ : BufTy).Contents (Elt Ideal)) (x10 : (⟨Cert.ReferenceIdeal.S5x1, .f32⟩ : BufTy).Contents (Elt Ideal))
    (x11 : (⟨Cert.ReferenceIdeal.S128x128, .f32⟩ : BufTy).Contents (Elt Ideal)) (x12 : (⟨Cert.ReferenceIdeal.S5x128, .f32⟩ : BufTy).Contents (Elt Ideal)) (x13 : (⟨Cert.ReferenceIdeal.S128x1, .f32⟩ : BufTy).Contents (Elt Ideal)) (x14 : (⟨Cert.ReferenceIdeal.S5x1, .f32⟩ : BufTy).Contents (Elt Ideal)) :
    val_main_v96 (F := Ideal) x0 x1 x2 x3 x4 x5 x6 x7 x8 x9 x10 x11 x12 x13 x14
      = maximumf (addf (addf (val_main_v15 (F := Ideal) x0 x3 x4 x5 x6)
                          (aggregate (F := Ideal) (dstOf x1) (val_main_v53 (F := Ideal) x0 x1 x2 x7 x8 x9 x10)))
                   (aggregate (F := Ideal) (srcOf x1) (val_main_v90 (F := Ideal) x0 x1 x2 x11 x12 x13 x14)))
          (broadcastInDim Cert.KernelIdeal.S50000x128 ![] Cert.KernelIdeal.Gen.bcast_S_S50000x128 (constant (F := Ideal) Cert.KernelIdeal.S_ .f32 0x00000000#32)) := by
  unfold val_main_v96 val_main_v95 val_main_v94 val_main_v93 val_main_v56 val_main_v55 val_main_v92 val_main_v54 val_main_v91
    val_main_call0_v0 val_main_call0_cst val_main_cst_8 val_main_cst_17 aggregate
  rw [src17, dst19]
  rfl

/-- The program's tail, as it is built. -/
theorem tailVal_eq (XL Hin Hout : FVec Ideal Cert.KernelIdeal.S50000x128 .f32) (Gin Gout : FVec Ideal Cert.KernelIdeal.S50000x1 .f32)
    (src dst lab : IVec Cert.KernelIdeal.S600000 32)
    (bin : FVec Ideal Cert.KernelIdeal.S5x128 .f32) (gin : FVec Ideal Cert.KernelIdeal.S128x1 .f32) (bgin : FVec Ideal Cert.KernelIdeal.S5x1 .f32)
    (bout : FVec Ideal Cert.KernelIdeal.S5x128 .f32) (gout : FVec Ideal Cert.KernelIdeal.S128x1 .f32) (bgout : FVec Ideal Cert.KernelIdeal.S5x1 .f32) :
    tailVal (F := Ideal) XL Hin Hout Gin Gout src dst lab bin gin bgin bout gout bgout
      = maximumf (addf (addf XL (aggregate dst (edgeUpd Hin Gin src lab bin (labelScalar bin gin bgin))))
                   (aggregate src (edgeUpd Hout Gout dst lab bout (labelScalar bout gout bgout))))
          (broadcastInDim Cert.KernelIdeal.S50000x128 ![] Cert.KernelIdeal.Gen.bcast_S_S50000x128 (constant (F := Ideal) Cert.KernelIdeal.S_ .f32 0x00000000#32)) := rfl

end Cert.RefTail

end
-- ==== Proof.KernelIdealPrefix.lean ====
import proofs.«139600_j30958124270115_2_alg».proof.Proof.KernelIdealData
import Idealize.ShloMosaic.Lib.StableHlo.Run

/-!
# What the region finds in the edge list's two rows

Before the region the program slices the 2×600000 edge list into its first row (the sources) and its second row (the
targets), each reshaped to a vector. This module reads those two buffers off the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- The source row: row 0 of the edge list, as a vector. -/
theorem V_main_v1 (c : Dev nD) : V m c main_v1
    = shapeCast _ (extractStridedSlice S1x600000 ![0, 0] (m ((c : Thread nD τ).loc main_arg1)) slices_S2x600000_S1x600000_0_0) shapeCasts_S1x600000_S600000 := by
  show StableHlo.after hostOps0 (fun b => m (c, b)) (Proc.devRef .tc main_v1) = _
  after_results
  rfl

/-- The target row: row 1 of the edge list, as a vector. -/
theorem V_main_v3 (c : Dev nD) : V m c main_v3
    = shapeCast _ (extractStridedSlice S1x600000 ![1, 0] (m ((c : Thread nD τ).loc main_arg1)) slices_S2x600000_S1x600000_1_0) shapeCasts_S1x600000_S600000 := by
  show StableHlo.after hostOps0 (fun b => m (c, b)) (Proc.devRef .tc main_v3) = _
  after_results
  rfl

end Cert.KernelIdeal.Hand

end
-- ==== Proof.DirBridge.lean ====
import proofs.«139600_j30958124270115_2_alg».proof.Proof.KernelIdealFrame
import proofs.«139600_j30958124270115_2_alg».proof.Proof.KernelIdealValue
import proofs.«139600_j30958124270115_2_alg».proof.Proof.KernelIdealTailRead
import proofs.«139600_j30958124270115_2_alg».proof.Proof.RefRead
import proofs.«139600_j30958124270115_2_alg».proof.Proof.Algebra
import proofs.«139600_j30958124270115_2_alg».proof.Proof.RefTail
import proofs.«139600_j30958124270115_2_alg».proof.Proof.KernelIdealPrefix

/-!
# The two sides joined, array by array

Three arrays of the reference equal three arrays of the kernel's edge stage, entry by entry:

* the self-loop term;
* for each direction, the gated messages that the scatter-add receives.

For the gated messages both sides read the same rows of the same tables; they differ in the gate's argument, where
the reference projects the whole message and the kernel adds the node's and the label's projections. The two agree
when the factors are real numbers.
-/

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.Lib.GatherRows Cert.Spec

/-- The gated message with the gate's argument split into the node's projection and the label's: equal to the unsplit
    one when the node features, the weights, the label biases and the gate vector are real. -/
theorem upd_split {n : Nat} (x : Arr n 128) (W : Arr 128 128) (bl : Arr 5 128) (g : Arr 128 1) (cl : Arr 5 1)
    (hx : AllReal x) (hW : AllReal W) (hbl : AllReal bl) (hg : AllReal g) (r : Fin n) (l : Fin 5) (d : Fin 128) :
    upd x W bl g cl r l d
      = Ideal.logistic (proj x W g r + ((∑ k : Fin 128, bl (ix2 l k) * g (ix2 k (0 : Fin 1))) + cl (ix2 l (0 : Fin 1))))
        * (mm2 x W r d + bl (ix2 l d)) := by
  show Ideal.logistic (gateArg x W bl g cl r l) * msg x W bl r l d = _
  rw [← gateArgSplit_eq x W bl g cl hx hW hbl hg r l]
  rfl

variable (m : (ℓ : Loc nD τ sig) → Buf (Elt Ideal) ℓ) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)

/-- The self-loop arrays agree. -/
theorem xl_bridge :
    Cert.ReferenceIdeal.Read.val_main_v15 (F := Ideal) A0 A3 A4 A5 A6 = (dats (F := Ideal) m 0 c).arrAt 9 cfg0.N := by
  funext i
  obtain ⟨n, d, rfl⟩ : ∃ (n : Fin 50000) (d : Fin 128), i = ix2 n d := ⟨i 0, i 1, eq_ix2 i⟩
  rw [Cert.RefRead.ref_selfLoop, final9, V_main_arg0, V_main_arg3, V_main_arg4, V_main_arg5, V_main_arg6]

/-- The incoming direction's gated messages agree, given that the program's node-index vector is the edge list's row. -/
theorem upd_in_core (hv : V m c main_v1 = Cert.RefTail.srcOf A1)
    (h0 : AllReal A0) (h7 : AllReal A7) (h8 : AllReal A8) (h9 : AllReal A9) :
    Cert.ReferenceIdeal.Read.val_main_v53 (F := Ideal) A0 A1 A2 A7 A8 A9 A10
      = edgeUpd (F := Ideal) ((dats (F := Ideal) m 0 c).arrAt 10 cfg0.N) ((dats (F := Ideal) m 0 c).arrAt 12 cfg0.N)
          (V m c main_v1) (V m c main_arg2) (V m c main_arg8)
          (labelScalar (F := Ideal) (V m c main_arg8) (V m c main_arg9) (V m c main_arg10)) := by
  funext i
  obtain ⟨e, d, rfl⟩ : ∃ (e : Fin 600000) (d : Fin 128), i = ix2 e d := ⟨i 0, i 1, eq_ix2 i⟩
  rw [Cert.RefRead.ref_upd_in, edgeUpd_apply, final10, final12, hv, V_main_arg0, V_main_arg2, V_main_arg7, V_main_arg8,
    V_main_arg9, V_main_arg10, Cert.RefTail.col27, Cert.RefTail.col34]
  exact upd_split _ _ _ _ _ h0 h7 h8 h9 _ _ d

/-- The outgoing direction's gated messages agree, given that the program's node-index vector is the edge list's row. -/
theorem upd_out_core (hv : V m c main_v3 = Cert.RefTail.dstOf A1)
    (h0 : AllReal A0) (h11 : AllReal A11) (h12 : AllReal A12) (h13 : AllReal A13) :
    Cert.ReferenceIdeal.Read.val_main_v90 (F := Ideal) A0 A1 A2 A11 A12 A13 A14
      = edgeUpd (F := Ideal) ((dats (F := Ideal) m 0 c).arrAt 11 cfg0.N) ((dats (F := Ideal) m 0 c).arrAt 13 cfg0.N)
          (V m c main_v3) (V m c main_arg2) (V m c main_arg12)
          (labelScalar (F := Ideal) (V m c main_arg12) (V m c main_arg13) (V m c main_arg14)) := by
  funext i
  obtain ⟨e, d, rfl⟩ : ∃ (e : Fin 600000) (d : Fin 128), i = ix2 e d := ⟨i 0, i 1, eq_ix2 i⟩
  rw [Cert.RefRead.ref_upd_out, edgeUpd_apply, final11, final13, hv, V_main_arg0, V_main_arg2, V_main_arg11, V_main_arg12,
    V_main_arg13, V_main_arg14, Cert.RefTail.col64, Cert.RefTail.col71]
  exact upd_split _ _ _ _ _ h0 h11 h12 h13 _ _ d

/-- The incoming direction's gated messages agree: the program gathers by the edge list's source row. -/
theorem upd_in_bridge (h0 : AllReal A0) (h7 : AllReal A7) (h8 : AllReal A8) (h9 : AllReal A9) :
    Cert.ReferenceIdeal.Read.val_main_v53 (F := Ideal) A0 A1 A2 A7 A8 A9 A10
      = edgeUpd (F := Ideal) ((dats (F := Ideal) m 0 c).arrAt 10 cfg0.N) ((dats (F := Ideal) m 0 c).arrAt 12 cfg0.N)
          (V m c main_v1) (V m c main_arg2) (V m c main_arg8)
          (labelScalar (F := Ideal) (V m c main_arg8) (V m c main_arg9) (V m c main_arg10)) :=
  upd_in_core m c (V_main_v1 m c) h0 h7 h8 h9

/-- The outgoing direction's gated messages agree: the program gathers by the edge list's target row. -/
theorem upd_out_bridge (h0 : AllReal A0) (h11 : AllReal A11) (h12 : AllReal A12) (h13 : AllReal A13) :
    Cert.ReferenceIdeal.Read.val_main_v90 (F := Ideal) A0 A1 A2 A11 A12 A13 A14
      = edgeUpd (F := Ideal) ((dats (F := Ideal) m 0 c).arrAt 11 cfg0.N) ((dats (F := Ideal) m 0 c).arrAt 13 cfg0.N)
          (V m c main_v3) (V m c main_arg2) (V m c main_arg12)
          (labelScalar (F := Ideal) (V m c main_arg12) (V m c main_arg13) (V m c main_arg14)) :=
  upd_out_core m c (V_main_v3 m c) h0 h11 h12 h13

end Cert.Bridge

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.Finite.lean ====
import proofs.«139600_j30958124270115_2_alg».proof.Pre_finite_inputs
import proofs.«139600_j30958124270115_2_alg».proof.Proof.LibFinite
import proofs.«139600_j30958124270115_2_alg».proof.Proof.Algebra
import Idealize.ShloMosaic.Lib.Affine

/-!
# Finite inputs are real

The precondition is the conjunction, over the thirteen float arguments, of "every entry has absolute value below
+∞".  Read at the extended reals, each conjunct says that every entry of its array is a real number.  The law
that joins the two gate arguments needs this of the node features, of the two directions' weight matrices, label
biases and gate vectors.
-/

noncomputable section

namespace Cert.FiniteInputs

open Idealize.ShloMosaic Cert.Pre_finite_inputs Cert.Spec

variable [Cert.Pre_finite_inputs.Facts]

theorem all_real (a0 : FVec Ideal S50000x128 .f32) (a1 : IVec S2x600000 32) (a2 : IVec S600000 32)
    (a3 : FVec Ideal S128x128 .f32) (a4 : FVec Ideal S128 .f32) (a5 : FVec Ideal S128x1 .f32) (a6 : FVec Ideal S1 .f32)
    (a7 : FVec Ideal S128x128 .f32) (a8 : FVec Ideal S5x128 .f32) (a9 : FVec Ideal S128x1 .f32) (a10 : FVec Ideal S5x1 .f32)
    (a11 : FVec Ideal S128x128 .f32) (a12 : FVec Ideal S5x128 .f32) (a13 : FVec Ideal S128x1 .f32) (a14 : FVec Ideal S5x1 .f32)
    (h : fn (F := Ideal) a0 a1 a2 a3 a4 a5 a6 a7 a8 a9 a10 a11 a12 a13 a14 = fun _ => 1#1) :
    AllReal a0 ∧ AllReal a7 ∧ AllReal a8 ∧ AllReal a9 ∧ AllReal a11 ∧ AllReal a12 ∧ AllReal a13 := by
  have h0 := congrFun h (fun d => d.elim0)
  dsimp only [fn, fn_part1, fn_part2, fn_part3] at h0
  have split : ∀ (p q : IVec S_ 1) (j : S_.Idx), andi p q j = 1#1 → p j = 1#1 ∧ q j = 1#1 :=
    fun p q j hpq => IntOp.andi_eq_one.mp hpq
  obtain ⟨h0, h14⟩ := split _ _ _ h0
  obtain ⟨h0, h13⟩ := split _ _ _ h0
  obtain ⟨h0, h12⟩ := split _ _ _ h0
  obtain ⟨h0, h11⟩ := split _ _ _ h0
  obtain ⟨h0, h10⟩ := split _ _ _ h0
  obtain ⟨h0, h9⟩ := split _ _ _ h0
  obtain ⟨h0, h8⟩ := split _ _ _ h0
  obtain ⟨h0, h7⟩ := split _ _ _ h0
  obtain ⟨h0, h6⟩ := split _ _ _ h0
  obtain ⟨h0, h5⟩ := split _ _ _ h0
  obtain ⟨h0, h4⟩ := split _ _ _ h0
  obtain ⟨h0, h3⟩ := split _ _ _ h0
  exact ⟨fun i => Cert.Finite.real_of_all a0 _ (fun _ => rfl) _ _ _ _ h0 i,
    fun i => Cert.Finite.real_of_all a7 _ (fun _ => rfl) _ _ _ _ h7 i,
    fun i => Cert.Finite.real_of_all a8 _ (fun _ => rfl) _ _ _ _ h8 i,
    fun i => Cert.Finite.real_of_all a9 _ (fun _ => rfl) _ _ _ _ h9 i,
    fun i => Cert.Finite.real_of_all a11 _ (fun _ => rfl) _ _ _ _ h11 i,
    fun i => Cert.Finite.real_of_all a12 _ (fun _ => rfl) _ _ _ _ h12 i,
    fun i => Cert.Finite.real_of_all a13 _ (fun _ => rfl) _ _ _ _ h13 i⟩

end Cert.FiniteInputs

end
-- ==== Proof.KernelIdealTail.lean ====
import proofs.«139600_j30958124270115_2_alg».proof.Proof.KernelIdealTailDefs
import Idealize.ShloMosaic.Lib.StableHlo.Run

/-!
# The run's tail is the edge stage

The 135 host operations after the region are read in three strides.  The last five (the two sums and the rectifier)
are read over an arbitrary valuation of the buffers: the result is `max(0, xl + agg_in + agg_out)` of three buffers.
Over the first 130, each direction's aggregate is read on its own — it depends on seven buffers only: the direction's
two arrays from the region, the two rows of the edge list, the labels and the direction's label parameters.  Composing
the strides, and reading the region's arrays and the untouched arguments where the region left them, gives the stages
of `tailVal`.
-/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ)

theorem after_append (l₁ l₂ : List (HloOp τ sig (Elt F))) (Y : Valuation τ sig (Elt F)) :
    after (l₁ ++ l₂) Y = after l₂ (after l₁ Y) := by
  induction l₁ generalizing Y with
  | nil => rfl
  | cons a l ih => simp only [List.cons_append, after_cons]; exact ih _

/-- All but the last two operations of the long stretch. -/
abbrev opsPre : List (HloOp τ sig (Elt F)) := hostOps1.take 130
/-- The last two operations of the long stretch and the rectifier's three. -/
abbrev opsEnd : List (HloOp τ sig (Elt F)) := hostOps1.drop 130 ++ hostOps1_1

theorem ops_split : ([hostOps1, hostOps1_1] : List (List (HloOp τ sig (Elt F)))).flatten = opsPre ++ opsEnd := by
  show hostOps1 ++ (hostOps1_1 ++ []) = hostOps1.take 130 ++ (hostOps1.drop 130 ++ hostOps1_1)
  rw [List.append_nil, ← List.append_assoc, List.take_append_drop]

set_option maxHeartbeats 4000000 in
theorem end_eval (Z : Valuation τ sig (Elt F)) :
    after opsEnd Z (Proc.devRef .tc main_v111)
      = maximumf (addf (addf (Z (Proc.devRef .tc main_v4_0)) (Z (Proc.devRef .tc main_v58))) (Z (Proc.devRef .tc main_v108)))
          (broadcastInDim S50000x128 ![] bcast_S_S50000x128 (constant S_ .f32 0x00000000#32)) := by
  simp only [opsEnd, hostOps1, hostOps1_1, List.drop_succ_cons, List.drop_zero, List.cons_append, List.nil_append]
  after_results_simp
  rfl

set_option maxHeartbeats 4000000 in
theorem in_eval (Y : Valuation τ sig (Elt F)) :
    after opsPre Y (Proc.devRef .tc main_v58)
      = aggregate (Y (Proc.devRef .tc main_v3))
          (edgeUpd (Y (Proc.devRef .tc main_v4_1)) (Y (Proc.devRef .tc main_v4_3)) (Y (Proc.devRef .tc main_v1))
            (Y (Proc.devRef .tc main_arg2)) (Y (Proc.devRef .tc main_arg8))
            (labelScalar (Y (Proc.devRef .tc main_arg8)) (Y (Proc.devRef .tc main_arg9)) (Y (Proc.devRef .tc main_arg10)))) := by
  simp only [opsPre, hostOps1, List.take_succ_cons, List.take_zero]
  after_results_simp
  unfold aggregate edgeUpd edgeGate edgeMsg labelScalar pairIdx0 colIdx wrapIdx
  rfl

set_option maxHeartbeats 4000000 in
theorem out_eval (Y : Valuation τ sig (Elt F)) :
    after opsPre Y (Proc.devRef .tc main_v108)
      = aggregate (Y (Proc.devRef .tc main_v1))
          (edgeUpd (Y (Proc.devRef .tc main_v4_2)) (Y (Proc.devRef .tc main_v4_4)) (Y (Proc.devRef .tc main_v3))
            (Y (Proc.devRef .tc main_arg2)) (Y (Proc.devRef .tc main_arg12))
            (labelScalar (Y (Proc.devRef .tc main_arg12)) (Y (Proc.devRef .tc main_arg13)) (Y (Proc.devRef .tc main_arg14)))) := by
  simp only [opsPre, hostOps1, List.take_succ_cons, List.take_zero]
  after_results_simp
  unfold aggregate edgeUpd edgeGate edgeMsg labelScalar pairIdx0 colIdx wrapIdx
  rfl

set_option maxHeartbeats 4000000 in
theorem keep_eval (Y : Valuation τ sig (Elt F)) :
    after opsPre Y (Proc.devRef .tc main_v4_0) = Y (Proc.devRef .tc main_v4_0) := by
  simp only [opsPre, hostOps1, List.take_succ_cons, List.take_zero]
  after_results_simp

/-! ## The run's tail is the stages -/

set_option maxHeartbeats 4000000 in
/-- The result buffer after the tail: the stages applied to the five arrays the region left (the self-loop array,
    the two directions' transformed features and their gate projections), to the two rows of the edge list the
    host prefix extracted, and to the untouched arguments. -/
theorem tail_eq (c : Dev nD) :
    Pipeline.afterTail₀ cfgs (dats m) 0 (V0 m) [hostOps1, hostOps1_1] c main_v111
      = tailVal ((dats m 0 c).arrAt 9 cfg0.N) ((dats m 0 c).arrAt 10 cfg0.N) ((dats m 0 c).arrAt 11 cfg0.N)
          ((dats m 0 c).arrAt 12 cfg0.N) ((dats m 0 c).arrAt 13 cfg0.N)
          (V m c main_v1) (V m c main_v3) (V m c main_arg2)
          (V m c main_arg8) (V m c main_arg9) (V m c main_arg10)
          (V m c main_arg12) (V m c main_arg13) (V m c main_arg14) := by
  unfold Pipeline.afterTail₀
  show after _ (Pipeline.withArrays spec0 c (V0 m c) (fun w => (dats m 0 c).arrAt w cfg0.N)) _ = _
  have e9 : Pipeline.withArrays spec0 c (V0 m c) (fun w => (dats m 0 c).arrAt w cfg0.N) (Proc.devRef .tc main_v4_0) = (dats m 0 c).arrAt 9 cfg0.N :=
    Pipeline.withArrays_arr spec0 launch0.win.arr_inj c _ _ 9
  have e10 : Pipeline.withArrays spec0 c (V0 m c) (fun w => (dats m 0 c).arrAt w cfg0.N) (Proc.devRef .tc main_v4_1) = (dats m 0 c).arrAt 10 cfg0.N :=
    Pipeline.withArrays_arr spec0 launch0.win.arr_inj c _ _ 10
  have e11 : Pipeline.withArrays spec0 c (V0 m c) (fun w => (dats m 0 c).arrAt w cfg0.N) (Proc.devRef .tc main_v4_2) = (dats m 0 c).arrAt 11 cfg0.N :=
    Pipeline.withArrays_arr spec0 launch0.win.arr_inj c _ _ 11
  have e12 : Pipeline.withArrays spec0 c (V0 m c) (fun w => (dats m 0 c).arrAt w cfg0.N) (Proc.devRef .tc main_v4_3) = (dats m 0 c).arrAt 12 cfg0.N :=
    Pipeline.withArrays_arr spec0 launch0.win.arr_inj c _ _ 12
  have e13 : Pipeline.withArrays spec0 c (V0 m c) (fun w => (dats m 0 c).arrAt w cfg0.N) (Proc.devRef .tc main_v4_4) = (dats m 0 c).arrAt 13 cfg0.N :=
    Pipeline.withArrays_arr spec0 launch0.win.arr_inj c _ _ 13
  have e6 : Pipeline.withArrays spec0 c (V0 m c) (fun w => (dats m 0 c).arrAt w cfg0.N) (Proc.devRef .tc main_arg9) = V m c main_arg9 :=
    ((Pipeline.withArrays_arr spec0 launch0.win.arr_inj c _ _ 6).trans ((dats m 0 c).arrAt_in 6 rfl cfg0.N)).trans (A_eq m c 6)
  have e8 : Pipeline.withArrays spec0 c (V0 m c) (fun w => (dats m 0 c).arrAt w cfg0.N) (Proc.devRef .tc main_arg13) = V m c main_arg13 :=
    ((Pipeline.withArrays_arr spec0 launch0.win.arr_inj c _ _ 8).trans ((dats m 0 c).arrAt_in 8 rfl cfg0.N)).trans (A_eq m c 8)
  have n1 : Pipeline.withArrays spec0 c (V0 m c) (fun w => (dats m 0 c).arrAt w cfg0.N) (Proc.devRef .tc main_v1) = V m c main_v1 := Pipeline.withArrays_of_ne spec0 c _ _ main_v1 (by decide)
  have n3 : Pipeline.withArrays spec0 c (V0 m c) (fun w => (dats m 0 c).arrAt w cfg0.N) (Proc.devRef .tc main_v3) = V m c main_v3 := Pipeline.withArrays_of_ne spec0 c _ _ main_v3 (by decide)
  have a2 : Pipeline.withArrays spec0 c (V0 m c) (fun w => (dats m 0 c).arrAt w cfg0.N) (Proc.devRef .tc main_arg2) = V m c main_arg2 := Pipeline.withArrays_of_ne spec0 c _ _ main_arg2 (by decide)
  have a8 : Pipeline.withArrays spec0 c (V0 m c) (fun w => (dats m 0 c).arrAt w cfg0.N) (Proc.devRef .tc main_arg8) = V m c main_arg8 := Pipeline.withArrays_of_ne spec0 c _ _ main_arg8 (by decide)
  have a10 : Pipeline.withArrays spec0 c (V0 m c) (fun w => (dats m 0 c).arrAt w cfg0.N) (Proc.devRef .tc main_arg10) = V m c main_arg10 := Pipeline.withArrays_of_ne spec0 c _ _ main_arg10 (by decide)
  have a12 : Pipeline.withArrays spec0 c (V0 m c) (fun w => (dats m 0 c).arrAt w cfg0.N) (Proc.devRef .tc main_arg12) = V m c main_arg12 := Pipeline.withArrays_of_ne spec0 c _ _ main_arg12 (by decide)
  have a14 : Pipeline.withArrays spec0 c (V0 m c) (fun w => (dats m 0 c).arrAt w cfg0.N) (Proc.devRef .tc main_arg14) = V m c main_arg14 := Pipeline.withArrays_of_ne spec0 c _ _ main_arg14 (by decide)
  generalize Pipeline.withArrays spec0 c (V0 m c) (fun w => (dats m 0 c).arrAt w cfg0.N) = Y at *
  rw [ops_split, after_append, end_eval, in_eval, out_eval, keep_eval,
    e9, e10, e11, e12, e13, e6, e8, n1, n3, a2, a8, a10, a12, a14]
  rfl

end Cert.KernelIdeal.Hand

end
-- ==== Proof.Bridge.lean ====
import proofs.«139600_j30958124270115_2_alg».proof.Defs
import proofs.«139600_j30958124270115_2_alg».proof.Proof.DirBridge
import proofs.«139600_j30958124270115_2_alg».proof.Proof.RefTail
import proofs.«139600_j30958124270115_2_alg».proof.Proof.Finite
import proofs.«139600_j30958124270115_2_alg».proof.Proof.KernelIdealPrefix
import proofs.«139600_j30958124270115_2_alg».proof.Proof.KernelIdealTail
import proofs.«139600_j30958124270115_2_alg».proof.Proof.KernelIdealFrame

/-!
# The two results are one array

The program's result is the rectified sum of the self-loop array and of the two directions' aggregates, each a
scatter-add, by one end node, of the gated messages gathered at the other; the reference's last stage is the same
expression over its own stages. The self-loop arrays agree, and so do each direction's gated messages when the node
features, weights, label biases and gate vectors are real numbers — which finite inputs are. The index vectors the
two sides scatter by are both the rows of the one edge list. So the results agree, by rewriting the pieces.
-/

noncomputable section

namespace Cert.Bridge

open Cert.KernelIdeal Cert.KernelIdeal.Gen Cert.KernelIdeal.Hand
open Idealize.ShloMosaic Idealize.ShloMosaic.TcCoe
open Idealize.SL Idealize.SL.Sem

variable [Cert.Pre_finite_inputs.Facts]
variable (m : (ℓ : Loc nD τ sig) → Buf (Elt Ideal) ℓ) (c : Dev nD)

/-- On finite arguments, what the program's edge stage leaves in the result array is the reference's last stage of the
    same arguments. -/
theorem kernel_value
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      = fun _ => 1#1) :
    Pipeline.afterTail₀ cfgs (dats (F := Ideal) m) 0 (V0 m) [hostOps1, hostOps1_1] c main_v111
      = Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  obtain ⟨h0, h7, h8, h9, h11, h12, h13⟩ := Cert.FiniteInputs.all_real _ _ _ _ _ _ _ _ _ _ _ _ _ _ _ hpre
  have e1 : V m c main_v1 = Cert.RefTail.srcOf (m ((c.tc : Thread nD τ).loc main_arg1)) := V_main_v1 m c
  have e3 : V m c main_v3 = Cert.RefTail.dstOf (m ((c.tc : Thread nD τ).loc main_arg1)) := V_main_v3 m c
  rw [tail_eq, Cert.RefTail.tailVal_eq, Cert.RefTail.ref_tail, xl_bridge m c, upd_in_bridge m c h0 h7 h8 h9,
    upd_out_bridge m c h0 h11 h12 h13, e1, e3]

end Cert.Bridge

end
-- ==== Proof.lean ====
/-
  One gated graph-convolution layer, kernel against reference, on the extended reals.

  THE LAYER. Over 50000 nodes with 128 features and 600000 labelled edges (five labels), the result is
  `max(0, s + a_in + a_out)`:
  * `s`, the self-loop term of each node: `σ(t·g + c₀) · t` with `t = x·W + b`;
  * for each of the two directions, the aggregate over the edges — scatter-added by one end node — of the gated
    message of the edge: the message is `h[r] + b[l]` (the other end node's features through the direction's weight
    matrix twice, plus the label's bias row), and its gate is `σ(msg·g + c[l])`.
  `σ` is the logistic function `1 / (1 + e^(−z))`.

  THE TWO ARRANGEMENTS. The reference computes the gate's argument per edge, projecting the whole message on the gate
  vector. The kernel hoists the projection to node level: a pipelined region over 25 blocks of 2000 nodes computes,
  besides `s` and the twice-transformed features `h`, the per-node projection `h·g`; the edge stage after the region
  adds to it the per-label projection `b·g + c`. The two gate arguments agree by the one law
  `(h + b)·g = h·g + b·g` — distributivity, which on the extended reals holds when the factors are real numbers. The
  precondition says every float input is finite, hence real, and the node part is a finite sum of products of reals.
  Everything else is the same operation on both sides: a change of float format is the identity at this instance, a
  matrix product into a zero accumulator is the plain sum of products, the gathers and scatter-adds are the same
  functions of the same index vectors.

  THE CLAIMS.
  * The three frames: each program runs to completion and leaves its argument arrays as launched. For the two kernel
    programs this is the pipeline's frame theorem instantiated at the region's proof data (what each point's body
    leaves in each staging buffer, as a function of the blocks it read); for the reference it is its run with the
    result dropped.
  * `preserves`: the idealized kernel is the kernel's own text read at the extended reals; nothing was rewritten.
  * `algebraic`: both idealized programs run, and from agreeing finite arguments end with the same result array. The
    kernel side names its result as what the host operations after the region leave; that array is then read stage by
    stage — the five arrays the region writes, entry by entry, as functions of the arguments; the edge stage over
    them — and identified with the reference's last stage.

  The printed programs, their side conditions and schedules, the reference's run and its stage-by-stage reading are
  generated modules that this proof imports; the proof data of the region, the body's run against it, the values of
  the region's outputs, the reading of the edge stage, the law above and the joining of the two sides are proved in the
  modules under `Proof/`.
-/
import proofs.«139600_j30958124270115_2_alg».proof.Defs
import proofs.«139600_j30958124270115_2_alg».proof.Proof.Gen.Kernel
import proofs.«139600_j30958124270115_2_alg».proof.Proof.Gen.Kernel.Skeleton
import proofs.«139600_j30958124270115_2_alg».proof.Proof.Gen.Kernel.Launch
import proofs.«139600_j30958124270115_2_alg».proof.Proof.Gen.Kernel.Points
import proofs.«139600_j30958124270115_2_alg».proof.Proof.Gen.KernelIdeal
import proofs.«139600_j30958124270115_2_alg».proof.Proof.Gen.KernelIdeal.Skeleton
import proofs.«139600_j30958124270115_2_alg».proof.Proof.Gen.KernelIdeal.Launch
import proofs.«139600_j30958124270115_2_alg».proof.Proof.Gen.KernelIdeal.Points
import proofs.«139600_j30958124270115_2_alg».proof.Proof.Gen.ReferenceIdeal
import proofs.«139600_j30958124270115_2_alg».proof.Proof.Gen.ReferenceIdeal.Run
import proofs.«139600_j30958124270115_2_alg».proof.Proof.Gen.ReferenceIdeal.Read
import proofs.«139600_j30958124270115_2_alg».proof.Proof.Gen.Pre_finite_inputs
import proofs.«139600_j30958124270115_2_alg».proof.Proof.KernelFrame
import proofs.«139600_j30958124270115_2_alg».proof.Proof.KernelIdealFrame
import proofs.«139600_j30958124270115_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : @Cert.frame_Kernel Cert.Kernel.Gen.facts Cert.Pre_finite_inputs.Gen.facts :=
  fun m ρ _ => Cert.Kernel.Hand.frameClaim m ρ

/-- So does the kernel read at the extended reals. -/
theorem frame_kernel_ideal : @Cert.frame_KernelIdeal Cert.KernelIdeal.Gen.facts Cert.Pre_finite_inputs.Gen.facts :=
  fun m ρ _ => Cert.KernelIdeal.Hand.frameClaim m ρ

/-- So does the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs run; the kernel program's result array is what its edge stage leaves, the reference's is its last
    stage, and on agreeing finite arguments the two are one array. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Pipeline.afterTail₀ Cert.KernelIdeal.cfgs (Cert.KernelIdeal.Hand.dats (F := Ideal) m) 0 (Cert.KernelIdeal.Hand.V0 m) [Cert.KernelIdeal.Gen.hostOps1, Cert.KernelIdeal.Gen.hostOps1_1] c Cert.KernelIdeal.main_v111, ?_, ?_⟩
  · exact (θ_run Cert.KernelIdeal.defs _ _).mono
      (fun _ h c => ⟨Cert.KernelIdeal.Hand.post_result m h c, Cert.KernelIdeal.Hand.post_args m h c⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.Bridge.kernel_value m c (hpre c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
